-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S64x1 .f32) (main_arg10 : FVec F S1 .f32) (main_v33 : IVec S_ 1) : IVec S_ 1 :=
  let main_v34 : FVec F S64x1 .f32 := Host.absf main_arg9
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64x1 .f32) (main_arg10 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x3200000 32) (main_arg2 : IVec S100000 32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64x1 .f32) (main_arg10 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x1 : Shape := ⟨2, ![100000, 1]⟩
abbrev S100000x64 : Shape := ⟨2, ![100000, 64]⟩
abbrev S10000x128 : Shape := ⟨2, ![10000, 128]⟩
abbrev S10000x64 : Shape := ⟨2, ![10000, 64]⟩
abbrev S3200000x64 : Shape := ⟨2, ![3200000, 64]⟩
abbrev S1x64 : Shape := ⟨2, ![1, 64]⟩
abbrev S1x1 : Shape := ⟨2, ![1, 1]⟩

abbrev nBuf : Space → Nat
  | .hbm => 132
  | .vmem => 26
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x1, .f32⟩
  | 10 => ⟨S1, .f32⟩
  | 11 => ⟨S1x3200000, .i32⟩
  | 12 => ⟨S3200000, .i32⟩
  | 13 => ⟨S1x3200000, .i32⟩
  | 14 => ⟨S3200000, .i32⟩
  | 15 => ⟨S_, .f32⟩
  | 16 => ⟨S3200000, .f32⟩
  | 17 => ⟨S_, .f32⟩
  | 18 => ⟨S100000, .f32⟩
  | 19 => ⟨S3200000x1, .i32⟩
  | 20 => ⟨S100000, .f32⟩
  | 21 => ⟨S_, .f32⟩
  | 22 => ⟨S100000, .f32⟩
  | 23 => ⟨S100000, .f32⟩
  | 24 => ⟨S100000, .f32⟩
  | 25 => ⟨S_, .i32⟩
  | 26 => ⟨S3200000, .i32⟩
  | 27 => ⟨S3200000, .i1⟩
  | 28 => ⟨S_, .i32⟩
  | 29 => ⟨S3200000, .i32⟩
  | 30 => ⟨S3200000, .i32⟩
  | 31 => ⟨S3200000, .i32⟩
  | 32 => ⟨S3200000x1, .i32⟩
  | 33 => ⟨S3200000, .f32⟩
  | 34 => ⟨S_, .i32⟩
  | 35 => ⟨S3200000, .i32⟩
  | 36 => ⟨S3200000, .i1⟩
  | 37 => ⟨S_, .i32⟩
  | 38 => ⟨S3200000, .i32⟩
  | 39 => ⟨S3200000, .i32⟩
  | 40 => ⟨S3200000, .i32⟩
  | 41 => ⟨S3200000x1, .i32⟩
  | 42 => ⟨S3200000, .f32⟩
  | 43 => ⟨S3200000, .f32⟩
  | 44 => ⟨S3200000x1, .f32⟩
  | 45 => ⟨S100000, .f32⟩
  | 46 => ⟨S100000x1, .f32⟩
  | 47 => ⟨S100000x64, .bf16⟩
  | 48 => ⟨S_, .i32⟩
  | 49 => ⟨S3200000, .i32⟩
  | 50 => ⟨S3200000, .i1⟩
  | 51 => ⟨S_, .i32⟩
  | 52 => ⟨S3200000, .i32⟩
  | 53 => ⟨S3200000, .i32⟩
  | 54 => ⟨S3200000, .i32⟩
  | 55 => ⟨S3200000x1, .i32⟩
  | 56 => ⟨S3200000x64, .bf16⟩
  | 57 => ⟨S3200000x64, .f32⟩
  | 58 => ⟨S3200000x64, .f32⟩
  | 59 => ⟨S3200000x64, .f32⟩
  | 60 => ⟨S_, .f32⟩
  | 61 => ⟨S100000x64, .f32⟩
  | 62 => ⟨S3200000x1, .i32⟩
  | 63 => ⟨S100000x64, .f32⟩
  | 64 => ⟨S100000x64, .f32⟩
  | 65 => ⟨S100000x64, .f32⟩
  | 66 => ⟨S100000x64, .f32⟩
  | 67 => ⟨S100000x64, .f32⟩
  | 68 => ⟨S1x64, .f32⟩
  | 69 => ⟨S100000x64, .bf16⟩
  | 70 => ⟨S_, .i32⟩
  | 71 => ⟨S3200000, .i32⟩
  | 72 => ⟨S3200000, .i1⟩
  | 73 => ⟨S_, .i32⟩
  | 74 => ⟨S3200000, .i32⟩
  | 75 => ⟨S3200000, .i32⟩
  | 76 => ⟨S3200000, .i32⟩
  | 77 => ⟨S3200000x1, .i32⟩
  | 78 => ⟨S3200000x64, .bf16⟩
  | 79 => ⟨S3200000x64, .f32⟩
  | 80 => ⟨S3200000x64, .f32⟩
  | 81 => ⟨S3200000x64, .f32⟩
  | 82 => ⟨S_, .f32⟩
  | 83 => ⟨S100000x64, .f32⟩
  | 84 => ⟨S3200000x1, .i32⟩
  | 85 => ⟨S100000x64, .f32⟩
  | 86 => ⟨S100000x64, .f32⟩
  | 87 => ⟨S100000x64, .f32⟩
  | 88 => ⟨S100000x64, .f32⟩
  | 89 => ⟨S100000x64, .f32⟩
  | 90 => ⟨S1x64, .f32⟩
  | 91 => ⟨S100000x64, .bf16⟩
  | 92 => ⟨S_, .i32⟩
  | 93 => ⟨S3200000, .i32⟩
  | 94 => ⟨S3200000, .i1⟩
  | 95 => ⟨S_, .i32⟩
  | 96 => ⟨S3200000, .i32⟩
  | 97 => ⟨S3200000, .i32⟩
  | 98 => ⟨S3200000, .i32⟩
  | 99 => ⟨S3200000x1, .i32⟩
  | 100 => ⟨S3200000x64, .bf16⟩
  | 101 => ⟨S3200000x64, .f32⟩
  | 102 => ⟨S3200000x64, .f32⟩
  | 103 => ⟨S3200000x64, .f32⟩
  | 104 => ⟨S_, .f32⟩
  | 105 => ⟨S100000x64, .f32⟩
  | 106 => ⟨S3200000x1, .i32⟩
  | 107 => ⟨S100000x64, .f32⟩
  | 108 => ⟨S100000x64, .f32⟩
  | 109 => ⟨S100000x64, .f32⟩
  | 110 => ⟨S100000x64, .f32⟩
  | 111 => ⟨S100000x64, .f32⟩
  | 112 => ⟨S1x64, .f32⟩
  | 113 => ⟨S100000x64, .f32⟩
  | 114 => ⟨S_, .f32⟩
  | 115 => ⟨S64x64, .f32⟩
  | 116 => ⟨S100000x1, .i32⟩
  | 117 => ⟨S64x64, .f32⟩
  | 118 => ⟨S_, .f32⟩
  | 119 => ⟨S100000, .f32⟩
  | 120 => ⟨S_, .f32⟩
  | 121 => ⟨S64, .f32⟩
  | 122 => ⟨S100000x1, .i32⟩
  | 123 => ⟨S64, .f32⟩
  | 124 => ⟨S_, .f32⟩
  | 125 => ⟨S64, .f32⟩
  | 126 => ⟨S64, .f32⟩
  | 127 => ⟨S64x1, .f32⟩
  | _ => ⟨S100000x128, .f32⟩

abbrev hbmTy0_1 (i : Nat) : BufTy := match i % 128 with
  | 0 => ⟨S64x64, .f32⟩
  | 1 => ⟨S64x64, .f32⟩
  | 2 => ⟨S1x1, .f32⟩
  | 3 => ⟨S64x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .bf16⟩
  | .local _ .vmem, ⟨4, _⟩ => ⟨S10000x64, .bf16⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .bf16⟩
  | .local _ .vmem, ⟨10, _⟩ => ⟨S10000x64, .bf16⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x64, .f32⟩
  | .local _ .vmem, ⟨15, _⟩ => ⟨S10000x64, .bf16⟩
  | .local _ .vmem, ⟨16, _⟩ => ⟨S10000x64, .bf16⟩
  | .local _ .vmem, ⟨17, _⟩ => ⟨S10000x64, .f32⟩
  | .local _ .vmem, ⟨18, _⟩ => ⟨S10000x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S64x1, .f32⟩
  | .local _ .vmem, ⟨24, _⟩ => ⟨S1x1, .f32⟩
  | .local _ .vmem, ⟨25, _⟩ => ⟨S64x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_8 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_10 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_11 : Ref sig .tc := ⟨.hbm, 92, rfl⟩
abbrev main_v68 : Ref sig .tc := ⟨.hbm, 93, rfl⟩
abbrev main_v69 : Ref sig .tc := ⟨.hbm, 94, rfl⟩
abbrev main_c_12 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_13 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_14 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_15 : Ref sig .tc := ⟨.hbm, 118, rfl⟩
abbrev main_v90 : Ref sig .tc := ⟨.hbm, 119, rfl⟩
abbrev main_cst_16 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_17 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg3_0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem1_0 : DmaSem sig := 23
abbrev cc4_sem2_0 : DmaSem sig := 24
abbrev cc4_sem3_0 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S64x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  shapeCasts_S1_S1x1 : S1.ShapeCasts S1x1
  shapeCasts_S64x64_S64x64 : S64x64.ShapeCasts S64x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S10000x128_S128x64_S10000x64_1_0_0_1_n_n_wf : DotDims.WF S10000x128 S128x64 S10000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S10000x64_S64x64_S10000x64_1_0_0_1_n_n_wf : DotDims.WF S10000x64 S64x64 S10000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x1_S64x1_1_0_0_1_n_n_wf : DotDims.WF S64x64 S64x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .bf16 = 32 ∨ (Rect.block (s := S100000x64) S10000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .bf16 = 32 ∨ (Rect.block (s := S100000x64) S10000x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .bf16 = 32 ∨ (Rect.block (s := S100000x64) S10000x64.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S64x64.size a ≤ S64x64.size a
  hwx4_0 : ∀ i : grid4.Coords, EltTy.bits .f32 = 32 ∨ (Rect.block (s := S64x64) S64x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x1.size a ≤ S64x1.size a
  hwx4_1 : ∀ i : grid4.Coords, EltTy.bits .f32 = 32 ∨ (Rect.block (s := S64x1) S64x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x1.size a ≤ S64x1.size a
  hwx4_3 : ∀ i : grid4.Coords, EltTy.bits .f32 = 32 ∨ (Rect.block (s := S64x1) S64x1.size (cc4_transform_3 i) (hinb4_3 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v65) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v66) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v84) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v85) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v86) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v98) S64x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S64x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v99) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v100) S64x1.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S100000 : Shape := ⟨1, ![100000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S100000x64 : Shape := ⟨2, ![100000, 64]⟩
abbrev S3300000 : Shape := ⟨1, ![3300000]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 212
  | .vmem => 0
  | .smem => 0
  | _ => 0

abbrev hbmTy0_0 (i : Nat) : BufTy := match i % 128 with
  | 0 => ⟨S100000x128, .f32⟩
  | 1 => ⟨S2x3200000, .i32⟩
  | 2 => ⟨S100000, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x1, .f32⟩
  | 10 => ⟨S1, .f32⟩
  | 11 => ⟨S1x3200000, .i32⟩
  | 12 => ⟨S3200000, .i32⟩
  | 13 => ⟨S1x3200000, .i32⟩
  | 14 => ⟨S3200000, .i32⟩
  | 15 => ⟨S100000x64, .f32⟩
  | 16 => ⟨S100000, .i32⟩
  | 17 => ⟨S3300000, .i32⟩
  | 18 => ⟨S3300000, .i32⟩
  | 19 => ⟨S_, .f32⟩
  | 20 => ⟨S3300000, .f32⟩
  | 21 => ⟨S_, .f32⟩
  | 22 => ⟨S100000, .f32⟩
  | 23 => ⟨S3300000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S3300000, .i32⟩
  | 35 => ⟨S3300000, .i1⟩
  | 36 => ⟨S_, .i32⟩
  | 37 => ⟨S3300000, .i32⟩
  | 38 => ⟨S3300000, .i32⟩
  | 39 => ⟨S3300000, .i32⟩
  | 40 => ⟨S3300000x1, .i32⟩
  | 41 => ⟨S3300000, .f32⟩
  | 42 => ⟨S_, .i32⟩
  | 43 => ⟨S3300000, .i32⟩
  | 44 => ⟨S3300000, .i1⟩
  | 45 => ⟨S_, .i32⟩
  | 46 => ⟨S3300000, .i32⟩
  | 47 => ⟨S3300000, .i32⟩
  | 48 => ⟨S3300000, .i32⟩
  | 49 => ⟨S3300000x1, .i32⟩
  | 50 => ⟨S3300000, .f32⟩
  | 51 => ⟨S3300000, .f32⟩
  | 52 => ⟨S3300000x1, .f32⟩
  | 53 => ⟨S_, .i32⟩
  | 54 => ⟨S3300000, .i32⟩
  | 55 => ⟨S3300000, .i1⟩
  | 56 => ⟨S_, .i32⟩
  | 57 => ⟨S3300000, .i32⟩
  | 58 => ⟨S3300000, .i32⟩
  | 59 => ⟨S3300000, .i32⟩
  | 60 => ⟨S3300000x1, .i32⟩
  | 61 => ⟨S3300000x64, .f32⟩
  | 62 => ⟨S3300000x64, .f32⟩
  | 63 => ⟨S3300000x64, .f32⟩
  | 64 => ⟨S_, .f32⟩
  | 65 => ⟨S100000x64, .f32⟩
  | 66 => ⟨S3300000x1, .i32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S100000x64, .f32⟩
  | 75 => ⟨S100000, .i32⟩
  | 76 => ⟨S3300000, .i32⟩
  | 77 => ⟨S3300000, .i32⟩
  | 78 => ⟨S_, .f32⟩
  | 79 => ⟨S3300000, .f32⟩
  | 80 => ⟨S_, .f32⟩
  | 81 => ⟨S100000, .f32⟩
  | 82 => ⟨S3300000x1, .i32⟩
  | 83 => ⟨S100000, .f32⟩
  | 84 => ⟨S_, .f32⟩
  | 85 => ⟨S100000, .f32⟩
  | 86 => ⟨S100000, .i1⟩
  | 87 => ⟨S100000, .f32⟩
  | 88 => ⟨S_, .f32⟩
  | 89 => ⟨S_, .f32⟩
  | 90 => ⟨S100000, .f32⟩
  | 91 => ⟨S100000, .f32⟩
  | 92 => ⟨S_, .i32⟩
  | 93 => ⟨S3300000, .i32⟩
  | 94 => ⟨S3300000, .i1⟩
  | 95 => ⟨S_, .i32⟩
  | 96 => ⟨S3300000, .i32⟩
  | 97 => ⟨S3300000, .i32⟩
  | 98 => ⟨S3300000, .i32⟩
  | 99 => ⟨S3300000x1, .i32⟩
  | 100 => ⟨S3300000, .f32⟩
  | 101 => ⟨S_, .i32⟩
  | 102 => ⟨S3300000, .i32⟩
  | 103 => ⟨S3300000, .i1⟩
  | 104 => ⟨S_, .i32⟩
  | 105 => ⟨S3300000, .i32⟩
  | 106 => ⟨S3300000, .i32⟩
  | 107 => ⟨S3300000, .i32⟩
  | 108 => ⟨S3300000x1, .i32⟩
  | 109 => ⟨S3300000, .f32⟩
  | 110 => ⟨S3300000, .f32⟩
  | 111 => ⟨S3300000x1, .f32⟩
  | 112 => ⟨S_, .i32⟩
  | 113 => ⟨S3300000, .i32⟩
  | 114 => ⟨S3300000, .i1⟩
  | 115 => ⟨S_, .i32⟩
  | 116 => ⟨S3300000, .i32⟩
  | 117 => ⟨S3300000, .i32⟩
  | 118 => ⟨S3300000, .i32⟩
  | 119 => ⟨S3300000x1, .i32⟩
  | 120 => ⟨S3300000x64, .f32⟩
  | 121 => ⟨S3300000x64, .f32⟩
  | 122 => ⟨S3300000x64, .f32⟩
  | 123 => ⟨S_, .f32⟩
  | 124 => ⟨S100000x64, .f32⟩
  | 125 => ⟨S3300000x1, .i32⟩
  | 126 => ⟨S100000x64, .f32⟩
  | 127 => ⟨S1x64, .f32⟩
  | _ => ⟨S100000x128, .f32⟩

abbrev hbmTy0_1 (i : Nat) : BufTy := match i % 128 with
  | 0 => ⟨S100000x64, .f32⟩
  | 1 => ⟨S100000x64, .f32⟩
  | 2 => ⟨S_, .f32⟩
  | 3 => ⟨S100000x64, .f32⟩
  | 4 => ⟨S100000x64, .f32⟩
  | 5 => ⟨S100000x64, .f32⟩
  | 6 => ⟨S100000, .i32⟩
  | 7 => ⟨S3300000, .i32⟩
  | 8 => ⟨S3300000, .i32⟩
  | 9 => ⟨S_, .f32⟩
  | 10 => ⟨S3300000, .f32⟩
  | 11 => ⟨S_, .f32⟩
  | 12 => ⟨S100000, .f32⟩
  | 13 => ⟨S3300000x1, .i32⟩
  | 14 => ⟨S100000, .f32⟩
  | 15 => ⟨S_, .f32⟩
  | 16 => ⟨S100000, .f32⟩
  | 17 => ⟨S100000, .i1⟩
  | 18 => ⟨S100000, .f32⟩
  | 19 => ⟨S_, .f32⟩
  | 20 => ⟨S_, .f32⟩
  | 21 => ⟨S100000, .f32⟩
  | 22 => ⟨S100000, .f32⟩
  | 23 => ⟨S_, .i32⟩
  | 24 => ⟨S3300000, .i32⟩
  | 25 => ⟨S3300000, .i1⟩
  | 26 => ⟨S_, .i32⟩
  | 27 => ⟨S3300000, .i32⟩
  | 28 => ⟨S3300000, .i32⟩
  | 29 => ⟨S3300000, .i32⟩
  | 30 => ⟨S3300000x1, .i32⟩
  | 31 => ⟨S3300000, .f32⟩
  | 32 => ⟨S_, .i32⟩
  | 33 => ⟨S3300000, .i32⟩
  | 34 => ⟨S3300000, .i1⟩
  | 35 => ⟨S_, .i32⟩
  | 36 => ⟨S3300000, .i32⟩
  | 37 => ⟨S3300000, .i32⟩
  | 38 => ⟨S3300000, .i32⟩
  | 39 => ⟨S3300000x1, .i32⟩
  | 40 => ⟨S3300000, .f32⟩
  | 41 => ⟨S3300000, .f32⟩
  | 42 => ⟨S3300000x1, .f32⟩
  | 43 => ⟨S_, .i32⟩
  | 44 => ⟨S3300000, .i32⟩
  | 45 => ⟨S3300000, .i1⟩
  | 46 => ⟨S_, .i32⟩
  | 47 => ⟨S3300000, .i32⟩
  | 48 => ⟨S3300000, .i32⟩
  | 49 => ⟨S3300000, .i32⟩
  | 50 => ⟨S3300000x1, .i32⟩
  | 51 => ⟨S3300000x64, .f32⟩
  | 52 => ⟨S3300000x64, .f32⟩
  | 53 => ⟨S3300000x64, .f32⟩
  | 54 => ⟨S_, .f32⟩
  | 55 => ⟨S100000x64, .f32⟩
  | 56 => ⟨S3300000x1, .i32⟩
  | 57 => ⟨S100000x64, .f32⟩
  | 58 => ⟨S1x64, .f32⟩
  | 59 => ⟨S100000x64, .f32⟩
  | 60 => ⟨S100000x64, .f32⟩
  | 61 => ⟨S_, .f32⟩
  | 62 => ⟨S100000x64, .f32⟩
  | 63 => ⟨S100000x64, .f32⟩
  | 64 => ⟨S_, .f32⟩
  | 65 => ⟨S64x64, .f32⟩
  | 66 => ⟨S100000x1, .i32⟩
  | 67 => ⟨S64x64, .f32⟩
  | 68 => ⟨S_, .f32⟩
  | 69 => ⟨S100000, .f32⟩
  | 70 => ⟨S_, .f32⟩
  | 71 => ⟨S64, .f32⟩
  | 72 => ⟨S100000x1, .i32⟩
  | 73 => ⟨S64, .f32⟩
  | 74 => ⟨S_, .f32⟩
  | 75 => ⟨S64, .f32⟩
  | 76 => ⟨S64, .f32⟩
  | 77 => ⟨S64x1, .f32⟩
  | 78 => ⟨S64x64, .f32⟩
  | 79 => ⟨S64x64, .f32⟩
  | 80 => ⟨S64x1, .f32⟩
  | 81 => ⟨S1x1, .f32⟩
  | 82 => ⟨S64x1, .f32⟩
  | 83 => ⟨S64x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_4 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_9 : Ref sig .tc := ⟨.hbm, 78, rfl⟩
abbrev main_v52 : Ref sig .tc := ⟨.hbm, 79, rfl⟩
abbrev main_cst_10 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_12 : Ref sig .tc := ⟨.hbm, 88, rfl⟩
abbrev main_call2_v0 : Ref sig .tc := ⟨.hbm, 89, rfl⟩
abbrev main_call2_v1 : Ref sig .tc := ⟨.hbm, 90, rfl⟩
abbrev main_v59 : Ref sig .tc := ⟨.hbm, 91, rfl⟩
abbrev main_c_13 : Ref sig .tc := ⟨.hbm, 92, rfl⟩
abbrev main_v60 : Ref sig .tc := ⟨.hbm, 93, rfl⟩
abbrev main_v61 : Ref sig .tc := ⟨.hbm, 94, rfl⟩
abbrev main_c_14 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_c_15 : Ref sig .tc := ⟨.hbm, 101, rfl⟩
abbrev main_v67 : Ref sig .tc := ⟨.hbm, 102, rfl⟩
abbrev main_v68 : Ref sig .tc := ⟨.hbm, 103, rfl⟩
abbrev main_c_16 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_c_17 : Ref sig .tc := ⟨.hbm, 112, rfl⟩
abbrev main_v76 : Ref sig .tc := ⟨.hbm, 113, rfl⟩
abbrev main_v77 : Ref sig .tc := ⟨.hbm, 114, rfl⟩
abbrev main_c_18 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_19 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_call3_cst : Ref sig .tc := ⟨.hbm, 130, rfl⟩
abbrev main_call3_v0 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_cst_20 : Ref sig .tc := ⟨.hbm, 137, rfl⟩
abbrev main_v96 : Ref sig .tc := ⟨.hbm, 138, rfl⟩
abbrev main_cst_21 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_22 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_23 : Ref sig .tc := ⟨.hbm, 147, rfl⟩
abbrev main_call4_v0 : Ref sig .tc := ⟨.hbm, 148, rfl⟩
abbrev main_call4_v1 : Ref sig .tc := ⟨.hbm, 149, rfl⟩
abbrev main_v103 : Ref sig .tc := ⟨.hbm, 150, rfl⟩
abbrev main_c_24 : Ref sig .tc := ⟨.hbm, 151, rfl⟩
abbrev main_v104 : Ref sig .tc := ⟨.hbm, 152, rfl⟩
abbrev main_v105 : Ref sig .tc := ⟨.hbm, 153, rfl⟩
abbrev main_c_25 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_c_26 : Ref sig .tc := ⟨.hbm, 160, rfl⟩
abbrev main_v111 : Ref sig .tc := ⟨.hbm, 161, rfl⟩
abbrev main_v112 : Ref sig .tc := ⟨.hbm, 162, rfl⟩
abbrev main_c_27 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_c_28 : Ref sig .tc := ⟨.hbm, 171, rfl⟩
abbrev main_v120 : Ref sig .tc := ⟨.hbm, 172, rfl⟩
abbrev main_v121 : Ref sig .tc := ⟨.hbm, 173, rfl⟩
abbrev main_c_29 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_cst_30 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_call5_cst : Ref sig .tc := ⟨.hbm, 189, rfl⟩
abbrev main_call5_v0 : Ref sig .tc := ⟨.hbm, 190, rfl⟩
abbrev main_v135 : Ref sig .tc := ⟨.hbm, 191, rfl⟩
abbrev main_cst_31 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_cst_32 : Ref sig .tc := ⟨.hbm, 196, rfl⟩
abbrev main_v139 : Ref sig .tc := ⟨.hbm, 197, rfl⟩
abbrev main_cst_33 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_cst_34 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  dot_S100000x128_S128x64_S100000x64_1_0_0_1_n_n_wf : DotDims.WF S100000x128 S128x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x1_S64x1_1_0_0_1_n_n_wf : DotDims.WF S64x64 S64x1 S64x1 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

class Facts : Prop extends Facts₀ where

variable [Facts]
-- ==== Proof.KernRun.lean ====
/-
  The idealized kernel's run, with the result kept: from any memory with zero counters every weakly fair execution
  of the program on the TensorCores terminates, nothing faulting, and in every final state the result buffer holds
  what the last boundary of the program's fold of buffer contents holds there — the contents after the fifth region,
  itself the fold of the five stretches of host operations and the five regions' write-backs from the launch memory —
  while the eleven argument arrays are as launched. The argument is the one that shows the arguments unchanged, read
  at one more buffer: every unscoped buffer ends at the fold's last contents.
-/
import proofs.«143844_j84628035600885_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result buffer at the fold's last contents and the arguments as launched. -/
theorem run_result : θ_run defs (onTc (τ := τ) (main (F := F))) ⟨m, fun _ => 0, ρ⟩ (fun r => ∀ c : Dev nD,
      r.2.mem ((c.tc : Thread nD τ).loc main_v100) = W10 m ρ c (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v100 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c)⟩)

end Cert.KernelIdeal.RunValue

end
-- ==== Proof.Claims.lean ====
/-
  The five claims of the certificate, assembled. The three frame claims are the generated frame certificates of the two
  kernel programs and the reference's run read at its arguments; the idealization rewrote nothing, so it preserves the
  program trivially; and the algebraic claim reduces to one fact about values: the idealized kernel's result buffer and
  the reference's result are the same function of the eleven argument arrays. Given that function and the two
  equations, both programs' runs are re-posted at it, the reference's after rewriting its arguments to the kernel's by
  the agreement of the two memories.
-/
import proofs.«143844_j84628035600885_2_alg».proof.Defs
import proofs.«143844_j84628035600885_2_alg».proof.Proof.Gen.Kernel
import proofs.«143844_j84628035600885_2_alg».proof.Proof.Gen.Kernel.Skeleton
import proofs.«143844_j84628035600885_2_alg».proof.Proof.Gen.Kernel.Launch
import proofs.«143844_j84628035600885_2_alg».proof.Proof.Gen.Kernel.Points
import proofs.«143844_j84628035600885_2_alg».proof.Proof.Gen.Kernel.Frame
import proofs.«143844_j84628035600885_2_alg».proof.Proof.Gen.KernelIdeal
import proofs.«143844_j84628035600885_2_alg».proof.Proof.Gen.KernelIdeal.Skeleton
import proofs.«143844_j84628035600885_2_alg».proof.Proof.Gen.KernelIdeal.Launch
import proofs.«143844_j84628035600885_2_alg».proof.Proof.Gen.KernelIdeal.Points
import proofs.«143844_j84628035600885_2_alg».proof.Proof.Gen.KernelIdeal.Frame
import proofs.«143844_j84628035600885_2_alg».proof.Proof.Gen.ReferenceIdeal
import proofs.«143844_j84628035600885_2_alg».proof.Proof.Gen.Pre_finite_inputs
import proofs.«143844_j84628035600885_2_alg».proof.Proof.RefRun
import proofs.«143844_j84628035600885_2_alg».proof.Proof.KernRun
import Idealize.ShloMosaic.Adequacy
import Idealize.ShloMosaic.Init

noncomputable section

namespace Cert.Proof.GcnClaims

open Idealize.ShloMosaic Idealize.SL.Sem

/-- The kernel as printed runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged: its run, read at the arguments only. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The type of a function of the eleven argument arrays (by position) to the result array. -/
abbrev OutFn : Type :=
  (x0 : (⟨⟨2, ![100000, 128]⟩, .f32⟩ : BufTy).Contents (Elt Ideal)) →
  (x1 : (⟨⟨2, ![2, 3200000]⟩, .i32⟩ : BufTy).Contents (Elt Ideal)) →
  (x2 : (⟨⟨1, ![100000]⟩, .i32⟩ : BufTy).Contents (Elt Ideal)) →
  (x3 : (⟨⟨2, ![128, 64]⟩, .f32⟩ : BufTy).Contents (Elt Ideal)) →
  (x4 : (⟨⟨1, ![64]⟩, .f32⟩ : BufTy).Contents (Elt Ideal)) →
  (x5 : (⟨⟨2, ![64, 64]⟩, .f32⟩ : BufTy).Contents (Elt Ideal)) →
  (x6 : (⟨⟨1, ![64]⟩, .f32⟩ : BufTy).Contents (Elt Ideal)) →
  (x7 : (⟨⟨2, ![64, 64]⟩, .f32⟩ : BufTy).Contents (Elt Ideal)) →
  (x8 : (⟨⟨1, ![64]⟩, .f32⟩ : BufTy).Contents (Elt Ideal)) →
  (x9 : (⟨⟨2, ![64, 1]⟩, .f32⟩ : BufTy).Contents (Elt Ideal)) →
  (x10 : (⟨⟨1, ![1]⟩, .f32⟩ : BufTy).Contents (Elt Ideal)) →
  (⟨⟨2, ![64, 1]⟩, .f32⟩ : BufTy).Contents (Elt Ideal)

/-- If both programs' results are ONE function `OUT` of their argument arrays — the idealized kernel's result buffer at
    the end of its fold of buffer contents (`hK`), the reference's composed result term (`hR`) —, then from memories
    agreeing on the arguments both run, end with equal results and leave the arguments unchanged. -/
theorem algebraic_of (OUT : OutFn)
    (hK : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
      Cert.KernelIdeal.Gen.W10 m ρ c (Proc.devRef .tc Cert.KernelIdeal.main_v100) = OUT (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)))
    (hR : ∀ (m' : (ℓ : Loc Cert.ReferenceIdeal.nD Cert.ReferenceIdeal.τ Cert.ReferenceIdeal.sig) → Buf (Elt Ideal) ℓ) (c : Dev Cert.ReferenceIdeal.nD),
      Cert.ReferenceIdeal.Value.res_main_v151 (F := Ideal) m' c = OUT (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))) :
    Cert.algebraic_KernelIdeal_ReferenceIdeal := by
  intro m ρ m' ρ' _ hagree
  refine ⟨fun c => OUT (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono (fun _ h c => ⟨(h c).1.trans (hK m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10⟩ := hagree c
    rw [hR m' c, a0, a1, a2, a3, a4, a5, a6, a7, a8, a9, a10]

end Cert.Proof.GcnClaims

end
-- ==== Proof.Dense.lean ====
/-
  The dense stages of the three-layer graph convolution network, as whole-array functions on the extended reals,
  index by index over the literal shapes: a node-feature matrix times a weight matrix, the bias added to every
  row and the result clipped at zero, and the pooled head (a matrix product with a one-column weight plus the
  scalar bias). Both programs compute exactly these functions between their aggregation steps; a change of float
  format is the identity on extended reals, so none appears here.
-/
import Idealize.ShloMosaic.PureOps.Ideal
import Idealize.ShloMosaic.PureOps.Ideal.Laws
import Idealize.ShloMosaic.Lib.ValueIdx

noncomputable section

open scoped BigOperators

namespace Cert.Gcn

open Idealize.ShloMosaic Idealize.ShloMosaic.ValueIdx

/-- A matrix of extended reals with `r` rows and `c` columns. -/
abbrev Mat (r c : Nat) := (⟨2, ![r, c]⟩ : Shape).Idx → EReal

/-- A vector of extended reals of length `n`. -/
abbrev Vec1 (n : Nat) := (⟨1, ![n]⟩ : Shape).Idx → EReal

/-- The row coordinate of a matrix index, as a number below the row count. -/
abbrev rowOf {r c : Nat} (j : (⟨2, ![r, c]⟩ : Shape).Idx) : Fin r := ⟨(j 0).val, idx2_lt0 j⟩

/-- The column coordinate of a matrix index, as a number below the column count. -/
abbrev colOf {r c : Nat} (j : (⟨2, ![r, c]⟩ : Shape).Idx) : Fin c := ⟨(j 1).val, idx2_lt1 j⟩

/-- The first layer's dense transform: entry `(i, f)` of `x · W` is `Σ_q x(i, q) · W(q, f)`, `q` over the 128 input features. -/
def lin128 (x : Mat 100000 128) (W : Mat 128 64) : Mat 100000 64 :=
  fun j => ∑ q : Fin 128, x (ix2 (rowOf j) q) * W (ix2 q (colOf j))

/-- A later layer's dense transform: entry `(i, f)` of `h · W` is `Σ_q h(i, q) · W(q, f)`, `q` over the 64 hidden features. -/
def lin64 (h : Mat 100000 64) (W : Mat 64 64) : Mat 100000 64 :=
  fun j => ∑ q : Fin 64, h (ix2 (rowOf j) q) * W (ix2 q (colOf j))

/-- The bias (a one-row matrix) added to every row, then the maximum with zero. -/
def biasRelu (a : Mat 100000 64) (b : Mat 1 64) : Mat 100000 64 :=
  fun j => max (a j + b (ix2 (0 : Fin 1) (colOf j))) 0

/-- The head: entry `(g, 0)` is `Σ_q p(g, q) · Wl(q, 0) + bl`, `q` over the 64 hidden features. -/
def head (p : Mat 64 64) (Wl : Mat 64 1) (bl : Mat 1 1) : Mat 64 1 :=
  fun j => (∑ q : Fin 64, p (ix2 (rowOf j) q) * Wl (ix2 q (colOf j))) + bl (ix2 (0 : Fin 1) (0 : Fin 1))

/-- A bias vector of length 64 as the one-row matrix the dense stages take. -/
def rowVec (b : Vec1 64) : Mat 1 64 := fun j => b (ix1 (colOf j))

/-- A one-entry vector as a one-by-one matrix. -/
def cell (b : Vec1 1) : Mat 1 1 := fun _ => b (ix1 (0 : Fin 1))

end Cert.Gcn

end
-- ==== Proof.Aggregate.lean ====
/-
  The graph aggregation of one convolution layer, on the extended reals, over the literal sizes: 100000 nodes, 3200000
  edges with source and target row numbers held as 32-bit words, 64 features.

  A gather reads row number `v` the way array indexing does: a negative number has the row count added, the result is
  read as a signed integer and clamped into `[0, 99999]`. A scatter lands an update on node `i` exactly when its row
  number, read as a signed integer and neither wrapped nor clamped, is `i`. Every node has one self-loop beside its
  in-edges, so its degree is the number of edges landing on it plus one, and the layer sends `h` to
    out(i, f) = Σ_{e lands on i} h(src e, f) · (dinv(src e) · dinv(dst e)) + dinv(i) · dinv(i) · h(i, f),
  `dinv` the reciprocal square root of the degree. The self-loop term is one more summand of the same sum taken over
  the edge list with the self-loops appended, which is how the reference computes it; `sum_edges_then_loops` splits
  that longer sum.
-/
import Idealize.ShloMosaic.PureOps.Ideal
import Idealize.ShloMosaic.PureOps.Ideal.Laws
import Idealize.ShloMosaic.Lib.ValueIdx
import proofs.«143844_j84628035600885_2_alg».proof.Proof.Dense

noncomputable section

open scoped BigOperators

namespace Cert.Gcn

open Idealize.ShloMosaic Idealize.ShloMosaic.ValueIdx

/-- The word `1.0` denotes the real number one. -/
theorem one_word : Ideal.ofBits .f32 0x3F800000#32 = 1 := by
  simp [Ideal.ofBits, Ideal.ieee, -EReal.coe_mul]; norm_num

/-- Array indexing's treatment of a negative row number: the row count is added. -/
def wrapRow (v : BitVec 32) : BitVec 32 := Scalar.select (IntOp.cmpi .slt v 0#32) (IntOp.addi v 100000#32) v

/-- The row a gather reads for row number `v`: wrapped, read signed, clamped into `[0, 99999]`. -/
def gatherRow (v : BitVec 32) : Fin 100000 := ⟨min (wrapRow v).toInt.toNat 99999, by omega⟩

/-- The number of edges that land on node `i`, each counted as the word `1.0`. -/
def inCount (dst : Fin 3200000 → BitVec 32) (i : Fin 100000) : EReal :=
  ∑ e : Fin 3200000, if (dst e).toInt = (i.val : Int) then Ideal.ofBits .f32 0x3F800000#32 else 0

/-- The degree with the self-loop: in-edges plus one. -/
def degree (dst : Fin 3200000 → BitVec 32) (i : Fin 100000) : EReal := inCount dst i + Ideal.ofBits .f32 0x3F800000#32

/-- The reciprocal square root of the degree. -/
def dinv (dst : Fin 3200000 → BitVec 32) (i : Fin 100000) : EReal := Ideal.rsqrt (degree dst i)

/-- The in-edge count is not negative: a sum of ones and zeros. -/
theorem inCount_nonneg (dst : Fin 3200000 → BitVec 32) (i : Fin 100000) : 0 ≤ inCount dst i := by
  unfold inCount
  refine Finset.sum_nonneg fun e _ => ?_
  split
  · rw [one_word]; exact zero_le_one
  · exact le_refl 0

/-- The degree is positive. -/
theorem degree_pos (dst : Fin 3200000 → BitVec 32) (i : Fin 100000) : 0 < degree dst i := by
  unfold degree
  rw [one_word]
  exact lt_of_lt_of_le zero_lt_one (le_add_of_nonneg_left (inCount_nonneg dst i))

/-- The symmetric normalisation of edge `e`. -/
def edgeWeight (src dst : Fin 3200000 → BitVec 32) (e : Fin 3200000) : EReal :=
  dinv dst (gatherRow (src e)) * dinv dst (gatherRow (dst e))

/-- One layer's aggregation of the node features `h`. -/
def aggregate (src dst : Fin 3200000 → BitVec 32) (h : Mat 100000 64) : Mat 100000 64 := fun j =>
  (∑ e : Fin 3200000, if (dst e).toInt = ((rowOf j).val : Int)
      then h (ix2 (gatherRow (src e)) (colOf j)) * edgeWeight src dst e else 0)
    + dinv dst (rowOf j) * dinv dst (rowOf j) * h j

/-- A sum over the edge list with the 100000 self-loops appended is the sum over the edges plus the sum over the loops. -/
theorem sum_edges_then_loops {M : Type*} [AddCommMonoid M] (f : Fin 3300000 → M) :
    ∑ p, f p = (∑ e : Fin 3200000, f ⟨e.val, by omega⟩) + ∑ u : Fin 100000, f ⟨3200000 + u.val, by omega⟩ := by
  rw [← (finCongr (show 3200000 + 100000 = 3300000 by norm_num)).sum_comp f]
  exact Fin.sum_univ_add (fun x : Fin (3200000 + 100000) => f (finCongr (show 3200000 + 100000 = 3300000 by norm_num) x))

/-- A self-loop's row number `u`, as a 32-bit word, reads back as `u`: it is wrapped to itself, lands on node `u` only,
    and a gather at it reads row `u`. -/
theorem loop_toInt (u : Fin 100000) : (BitVec.ofNat 32 u.val).toInt = (u.val : Int) := by
  have h1 := u.isLt
  have h2 : u.val % 2 ^ 32 = u.val := Nat.mod_eq_of_lt (by omega)
  rw [BitVec.toInt_eq_toNat_cond, BitVec.toNat_ofNat, h2]
  split <;> omega

theorem loop_wrap (u : Fin 100000) : wrapRow (BitVec.ofNat 32 u.val) = BitVec.ofNat 32 u.val := by
  unfold wrapRow
  have h : IntOp.cmpi .slt (BitVec.ofNat 32 u.val) 0#32 = 0#1 := by
    have hn : ¬ ((u.val : Int) < 0) := by omega
    simp [IntOp.cmpi, BitVec.slt, loop_toInt, hn]
  rw [h]
  exact select_zero _ _

theorem loop_gatherRow (u : Fin 100000) : gatherRow (BitVec.ofNat 32 u.val) = u := by
  unfold gatherRow
  refine Fin.ext ?_
  have := u.isLt
  simp only [loop_wrap, loop_toInt]
  omega

end Cert.Gcn

end
-- ==== Proof.Network.lean ====
/-
  The whole three-layer network as one function of its inputs, on the extended reals: each layer is a dense transform,
  the graph aggregation, the bias and the clip at zero; the node features are then pooled per graph (the pooling is a
  parameter here: both programs pool with the same operations) and sent through the head.
-/
import proofs.«143844_j84628035600885_2_alg».proof.Proof.Dense
import proofs.«143844_j84628035600885_2_alg».proof.Proof.Aggregate

noncomputable section

namespace Cert.Gcn

open Idealize.ShloMosaic Idealize.ShloMosaic.ValueIdx

/-- The network's output `[64, 1]`: edges `src → dst`, features `x`, weights `W1 W2 W3 Wl`, biases `b1 b2 b3` as one-row
    matrices and `bl` as a one-by-one matrix, and the per-graph pooling `pool`. -/
def network (src dst : Fin 3200000 → BitVec 32) (pool : Mat 100000 64 → Mat 64 64)
    (x : Mat 100000 128) (W1 : Mat 128 64) (b1 : Mat 1 64) (W2 : Mat 64 64) (b2 : Mat 1 64) (W3 : Mat 64 64) (b3 : Mat 1 64)
    (Wl : Mat 64 1) (bl : Mat 1 1) : Mat 64 1 :=
  head (pool (biasRelu (aggregate src dst (lin64 (biasRelu (aggregate src dst (lin64 (biasRelu
    (aggregate src dst (lin128 x W1)) b1) W2)) b2) W3)) b3)) Wl bl

end Cert.Gcn

end
-- ==== Proof.LibRowIndexing.lean ====
/-
  General lemmas: StableHLO's `gather` and accumulating `scatter`, for the dimension numbers that row indexing
  `x[idx]` and `zeros.at[idx].add(u)` lower to when `idx` is a column `[E, 1]` of row numbers, read at one index.

  * a gather of rows: result element `e` (or `(e, f)`) is the operand at row `idx[e]`, the row number read as a signed
    integer and clamped into `[0, N - 1]`;
  * an accumulating scatter at the extended reals: operand element `r` (or `(r, f)`) plus the sum, over all update rows
    `e`, of update `e` (or `(e, f)`) when `idx[e]`, read as a signed integer and NOT clamped, is exactly `r`; an update
    whose row number is outside `[0, N)` meets no `r` and so is dropped.
-/
import Idealize.ShloMosaic.PureOps.Ideal
import Idealize.ShloMosaic.Lib.ValueIdx

noncomputable section

open scoped BigOperators

namespace Idealize.ShloMosaic.RowIndexing

open Idealize.ShloMosaic Idealize.ShloMosaic.ValueIdx

variable {α : Type}

/-! ## Gathering entries of a vector -/

/-- The dimension numbers of `x[idx]` for a vector `x : [N]` and a column of row numbers `idx : [E, 1]`. -/
abbrev pickDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gathered vector is the operand at the clamped row number `idx[e]`. -/
theorem gather_pick_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (pickDims N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (pickDims N E wf).start (ix1 e) idx 0 + (pickDims N E wf).batchCoord (ix1 e) 0 + (pickDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (pickDims N E wf).startIndexMap from List.mem_singleton.mpr rfl)]
  have hsi : (pickDims N E wf).siIdx (ix1 e) ⟨List.idxOf (0 : Fin 1) (pickDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Gathering rows of a matrix -/

/-- The dimension numbers of `x[idx]` for a matrix `x : [N, C]` and a column of row numbers `idx : [E, 1]`: whole rows. -/
abbrev rowsDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entry `(e, f)` of the gathered matrix is the operand at column `f` of the clamped row number `idx[e]`. -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowsDims N C E wf) x idx (ix2 e f)
      = x (ix2 (⟨min (idx (ix2 e (0 : Fin 1))).toInt.toNat (N - 1), by omega⟩ : Fin N) f) := by
  unfold Host.gather
  congr 1
  funext a
  refine Fin.ext ?_
  show (rowsDims N C E wf).start (ix2 e f) idx a + (rowsDims N C E wf).batchCoord (ix2 e f) a + (rowsDims N C E wf).offCoord (ix2 e f) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rowsDims N C E wf).startIndexMap from List.mem_singleton.mpr rfl)]
    have hsi : (rowsDims N C E wf).siIdx (ix2 e f) ⟨List.idxOf (⟨0, by decide⟩ : Fin 2) (rowsDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    unfold GatherDims.start
    rw [dif_neg (show (⟨1, by decide⟩ : Fin 2) ∉ (rowsDims N C E wf).startIndexMap from
      fun h => absurd (congrArg Fin.val (List.mem_singleton.mp h)) Nat.one_ne_zero)]
    simp only [Nat.zero_add]
    unfold GatherDims.offCoord
    rw [dif_pos (show (⟨1, by decide⟩ : Fin 2) ∈ (rowsDims N C E wf).sKept from
      (GatherDims.mem_sKept _ _).mpr ⟨fun h => absurd (congrArg Fin.val (List.mem_singleton.mp h)) Nat.one_ne_zero, List.not_mem_nil⟩)]
    rfl

/-! ## Where an update lands -/

/-- An update index `j` lands at operand index `i` exactly when, on every operand axis, the start (read signed, not
    clamped) plus the window coordinate is `i`'s coordinate; when some axis falls outside the operand it lands nowhere. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro hs a
      have e := congrArg Fin.val (congrFun (Option.some.inj hs) a)
      have := (h a).1
      simp only at e
      omega
    · intro hall
      refine congrArg some (funext fun a => Fin.ext ?_)
      have := hall a
      have := (h a).1
      simp only
      omega
  · rename_i h
    constructor
    · intro hs; cases hs
    · intro hall
      exact absurd (fun a => by have := hall a; have := (i a).isLt; constructor <;> omega) h

/-- A sum over the indices of a vector is the sum over its one coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-! ## Accumulating scatter into a vector -/

/-- The dimension numbers of `zeros.at[idx].add(u)` for a vector of length `N`, a column of row numbers `idx : [E, 1]`
    and updates `u : [E]`. -/
abbrev addAtDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update `e` lands at entry `r` exactly when the row number `idx[e]`, read signed, is `r`. -/
theorem addAt_lands {N E w : Nat} (wf : ScatterDims.WF ⟨1, ![N]⟩ ⟨2, ![E, 1]⟩ ⟨1, ![E]⟩ [] [0] [0] 1)
    (idx : IVec ⟨2, ![E, 1]⟩ w) (e : Fin E) (r : Fin N) :
    (addAtDims N E wf).resultIdx? (ix1 e) idx = some (ix1 r) ↔ (idx (ix2 e (0 : Fin 1))).toInt = (r.val : Int) := by
  rw [resultIdx?_eq_some_iff]
  have hstart : (addAtDims N E wf).start (ix1 e) idx 0 = (idx (ix2 e (0 : Fin 1))).toInt := by
    unfold ScatterDims.start
    rw [dif_pos (show (0 : Fin 1) ∈ (addAtDims N E wf).scatterDimsToOperandDims from List.mem_singleton.mpr rfl)]
    have hsi : (addAtDims N E wf).siIdx (ix1 e) ⟨List.idxOf (0 : Fin 1) (addAtDims N E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hwin : (addAtDims N E wf).window (ix1 e) 0 = 0 := by
    unfold ScatterDims.window
    rw [dif_neg (show (0 : Fin 1) ∉ (addAtDims N E wf).sKept from fun h =>
      (List.mem_filter.mp h).2 |> fun h2 => by simp at h2)]
  constructor
  · intro h
    have := h 0
    rw [hstart, hwin] at this
    simp only [Nat.cast_zero, add_zero] at this
    exact this
  · intro h a
    obtain rfl : a = 0 := Subsingleton.elim _ _
    rw [hstart, hwin]
    simp only [Nat.cast_zero, add_zero]
    exact h

/-- Entry `r` after the accumulating scatter: the operand's entry plus every update whose row number is `r`. -/
theorem scatterAdd_addAt_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (r : Fin N) :
    Ideal.hostScatterAdd (addAtDims N E wf) x idx upd (ix1 r)
      = x (ix1 r) + ∑ e : Fin E, if (idx (ix2 e (0 : Fin 1))).toInt = (r.val : Int) then upd (ix1 e) else 0 := by
  unfold Ideal.hostScatterAdd
  refine congrArg (x (ix1 r) + ·) ?_
  rw [Finset.sum_filter, sum_idx1]
  refine Finset.sum_congr rfl fun e _ => ?_
  exact if_congr (addAt_lands wf idx e r) rfl rfl

/-! ## Accumulating scatter of rows into a matrix -/

/-- The dimension numbers of `zeros.at[idx].add(u)` for a matrix `[N, C]`, a column of row numbers `idx : [E, 1]` and
    update rows `u : [E, C]`. -/
abbrev addRowsDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Update `(e, g)` lands at entry `(r, f)` exactly when the row number `idx[e]`, read signed, is `r`, and `g = f`. -/
theorem addRows_lands {N C E w : Nat} (wf : ScatterDims.WF ⟨2, ![N, C]⟩ ⟨2, ![E, 1]⟩ ⟨2, ![E, C]⟩ [1] [0] [0] 1)
    (idx : IVec ⟨2, ![E, 1]⟩ w) (e : Fin E) (g : Fin C) (r : Fin N) (f : Fin C) :
    (addRowsDims N C E wf).resultIdx? (ix2 e g) idx = some (ix2 r f)
      ↔ (idx (ix2 e (0 : Fin 1))).toInt = (r.val : Int) ∧ g = f := by
  rw [resultIdx?_eq_some_iff]
  have hstart0 : (addRowsDims N C E wf).start (ix2 e g) idx (0 : Fin 2) = (idx (ix2 e (0 : Fin 1))).toInt := by
    unfold ScatterDims.start
    rw [dif_pos (show (0 : Fin 2) ∈ (addRowsDims N C E wf).scatterDimsToOperandDims from List.mem_singleton.mpr rfl)]
    have hsi : (addRowsDims N C E wf).siIdx (ix2 e g) ⟨List.idxOf (0 : Fin 2) (addRowsDims N C E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hstart1 : (addRowsDims N C E wf).start (ix2 e g) idx (1 : Fin 2) = 0 := by
    unfold ScatterDims.start
    rw [dif_neg (show (1 : Fin 2) ∉ (addRowsDims N C E wf).scatterDimsToOperandDims from
      fun h => absurd (congrArg Fin.val (List.mem_singleton.mp h)) Nat.one_ne_zero)]
  have hwin0 : (addRowsDims N C E wf).window (ix2 e g) (0 : Fin 2) = 0 := by
    unfold ScatterDims.window
    rw [dif_neg (show (0 : Fin 2) ∉ (addRowsDims N C E wf).sKept from fun h =>
      (List.mem_filter.mp h).2 |> fun h2 => by simp at h2)]
  have hwin1 : (addRowsDims N C E wf).window (ix2 e g) (1 : Fin 2) = g.val := by
    unfold ScatterDims.window
    rw [dif_pos (show (1 : Fin 2) ∈ (addRowsDims N C E wf).sKept from
      List.mem_filter.mpr ⟨List.mem_finRange _, by simp⟩)]
    rfl
  constructor
  · intro h
    have h0 := h (0 : Fin 2)
    have h1 := h (1 : Fin 2)
    rw [hstart0, hwin0] at h0
    rw [hstart1, hwin1] at h1
    simp only [Nat.cast_zero, add_zero, zero_add] at h0 h1
    exact ⟨h0, Fin.ext (by exact_mod_cast h1)⟩
  · rintro ⟨h0, rfl⟩ a
    match a with
    | ⟨0, _⟩ =>
      show (addRowsDims N C E wf).start (ix2 e g) idx (0 : Fin 2) + (((addRowsDims N C E wf).window (ix2 e g) (0 : Fin 2) : ℕ) : Int) = _
      rw [hstart0, hwin0]
      simp only [Nat.cast_zero, add_zero]
      exact h0
    | ⟨1, _⟩ =>
      show (addRowsDims N C E wf).start (ix2 e g) idx (1 : Fin 2) + (((addRowsDims N C E wf).window (ix2 e g) (1 : Fin 2) : ℕ) : Int) = _
      rw [hstart1, hwin1]
      simp only [zero_add]

/-- Entry `(r, f)` after the accumulating scatter: the operand's entry plus column `f` of every update row whose row
    number is `r`. -/
theorem scatterAdd_addRows_apply {N C E w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (r : Fin N) (f : Fin C) :
    Ideal.hostScatterAdd (addRowsDims N C E wf) x idx upd (ix2 r f)
      = x (ix2 r f) + ∑ e : Fin E, if (idx (ix2 e (0 : Fin 1))).toInt = (r.val : Int) then upd (ix2 e f) else 0 := by
  unfold Ideal.hostScatterAdd
  refine congrArg (x (ix2 r f) + ·) ?_
  rw [Finset.sum_filter, sum_idx2]
  refine Finset.sum_congr rfl fun e _ => ?_
  have hc : ∀ g : Fin C,
      (if (addRowsDims N C E wf).resultIdx? (ix2 e g) idx = some (ix2 r f) then upd (ix2 e g) else 0)
        = if g = f then (if (idx (ix2 e (0 : Fin 1))).toInt = (r.val : Int) then upd (ix2 e f) else 0) else 0 := by
    intro g
    by_cases hg : g = f
    · subst hg
      rw [if_pos rfl]
      exact if_congr ((addRows_lands wf idx e g r g).trans ⟨fun h => h.1, fun h => ⟨h, rfl⟩⟩) rfl rfl
    · rw [if_neg hg, if_neg]
      intro h
      exact hg ((addRows_lands wf idx e g r f).mp h).2
  rw [Finset.sum_congr rfl (fun g _ => hc g), Finset.sum_ite_eq' Finset.univ f]
  exact if_pos (Finset.mem_univ f)

end Idealize.ShloMosaic.RowIndexing

end
-- ==== Proof.KernStages.lean ====
/-
  The kernel's aggregation between its dense regions, stage by stage, as functions of the arrays each stage reads: the
  degree is the ones scattered onto the target nodes plus one for the self-loop, the normalisation and the self-loop
  weight are computed once and read by all three layers, and a layer's aggregation is the scatter over the edges plus
  the self-loop weight times the node's own features.
-/
import proofs.«143844_j84628035600885_2_alg».proof.KernelIdeal
import proofs.«143844_j84628035600885_2_alg».proof.Proof.Gen.KernelIdeal
import proofs.«143844_j84628035600885_2_alg».proof.Proof.LibRowIndexing
import proofs.«143844_j84628035600885_2_alg».proof.Proof.Aggregate

noncomputable section

open scoped BigOperators

namespace Cert.KernelIdeal.Stages

open Cert.KernelIdeal Cert.KernelIdeal.Gen
open Idealize.ShloMosaic Idealize.ShloMosaic.TcCoe Idealize.ShloMosaic.ValueIdx Idealize.ShloMosaic.RowIndexing

/-- The source (row 0) or target (row 1) row numbers of the edge list, as a vector. -/
def edgeRow0 (x1 : IVec S2x3200000 32) : IVec S3200000 32 :=
  shapeCast S3200000 (extractStridedSlice S1x3200000 ![0, 0] x1 slices_S2x3200000_S1x3200000_0_0) shapeCasts_S1x3200000_S3200000
def edgeRow1 (x1 : IVec S2x3200000 32) : IVec S3200000 32 :=
  shapeCast S3200000 (extractStridedSlice S1x3200000 ![1, 0] x1 slices_S2x3200000_S1x3200000_1_0) shapeCasts_S1x3200000_S3200000

/-- Negative row numbers wrapped by the row count, edge by edge. -/
def wrapE (v : IVec S3200000 32) : IVec S3200000 32 :=
  select (cmpi .slt v (broadcastInDim S3200000 ![] bcast_S_S3200000 (constantI S_ 32 0#32)))
    (addi v (broadcastInDim S3200000 ![] bcast_S_S3200000 (constantI S_ 32 100000#32))) v

/-- A list of row numbers as a one-column matrix. -/
def colE (v : IVec S3200000 32) : IVec S3200000x1 32 := broadcastInDim S3200000x1 ![0] bcast_S3200000_S3200000x1_0 v

/-- The degree: ones scattered onto the target nodes, plus one. -/
def degreeArr (d : IVec S3200000 32) : FVec Ideal S100000 .f32 :=
  addf (Host.scatterAdd scatter_S100000_S3200000x1_S3200000_n_0_0_1
      (broadcastInDim S100000 ![] bcast_S_S100000 (constant S_ .f32 0x00000000#32)) (colE d)
      (broadcastInDim S3200000 ![] bcast_S_S3200000 (constant S_ .f32 0x3F800000#32)))
    (broadcastInDim S100000 ![] bcast_S_S100000 (constant S_ .f32 0x3F800000#32))

/-- The reciprocal square root of the degree. -/
def dinvArr (d : IVec S3200000 32) : FVec Ideal S100000 .f32 := Host.rsqrt (degreeArr d)

/-- The symmetric normalisation of every edge, as a one-column matrix. -/
def normCol (s d : IVec S3200000 32) : FVec Ideal S3200000x1 .f32 :=
  broadcastInDim S3200000x1 ![0] bcast_S3200000_S3200000x1_0
    (mulf (Host.gather gather_S100000_S3200000x1_S3200000_n_0_n_n_0_1_1 (dinvArr d) (colE (wrapE s)))
      (Host.gather gather_S100000_S3200000x1_S3200000_n_0_n_n_0_1_1 (dinvArr d) (colE (wrapE d))))

/-- The self-loop weight of every node, as a one-column matrix. -/
def selfCol (d : IVec S3200000 32) : FVec Ideal S100000x1 .f32 :=
  broadcastInDim S100000x1 ![0] bcast_S100000_S100000x1_0 (mulf (dinvArr d) (dinvArr d))

/-- One layer's aggregation of the narrow-format features `h`, from the edge lists, the edges' normalisation and
    the nodes' self-loop weights. -/
def agg (h : FVec Ideal S100000x64 .bf16) (s d : IVec S3200000 32) (nc : FVec Ideal S3200000x1 .f32)
    (sc : FVec Ideal S100000x1 .f32) : FVec Ideal S100000x64 .f32 :=
  addf (Host.scatterAdd scatter_S100000x64_S3200000x1_S3200000x64_1_0_0_1
      (broadcastInDim S100000x64 ![] bcast_S_S100000x64 (constant S_ .f32 0x00000000#32)) (colE d)
      (mulf (extf .f32 (Host.gather gather_S100000x64_S3200000x1_S3200000x64_1_0_n_n_0_1_164 h (colE (wrapE s))) bitsLt_bf16_f32)
        (broadcastInDim S3200000x64 ![0, 1] bcast_S3200000x1_S3200000x64_0_1 nc)))
    (mulf (broadcastInDim S100000x64 ![0, 1] bcast_S100000x1_S100000x64_0_1 sc) (extf .f32 h bitsLt_bf16_f32))

/-- The mean pool over graph ids: feature sums per graph divided by the graph's node count, at least one. -/
def pool (h : FVec Ideal S100000x64 .f32) (batch : IVec S100000 32) : FVec Ideal S64x64 .f32 :=
  Host.divf (Host.scatterAdd scatter_S64x64_S100000x1_S100000x64_1_0_0_1
      (broadcastInDim S64x64 ![] bcast_S_S64x64 (constant S_ .f32 0x00000000#32))
      (broadcastInDim S100000x1 ![0] bcast_S100000_S100000x1_0 batch) h)
    (broadcastInDim S64x64 ![0, 1] bcast_S64x1_S64x64_0_1 (broadcastInDim S64x1 ![0] bcast_S64_S64x1_0
      (maximumf (Host.scatterAdd scatter_S64_S100000x1_S100000_n_0_0_1
          (broadcastInDim S64 ![] bcast_S_S64 (constant S_ .f32 0x00000000#32))
          (broadcastInDim S100000x1 ![0] bcast_S100000_S100000x1_0 batch)
          (broadcastInDim S100000 ![] bcast_S_S100000 (constant S_ .f32 0x3F800000#32)))
        (broadcastInDim S64 ![] bcast_S_S64 (constant S_ .f32 0x3F800000#32)))))

end Cert.KernelIdeal.Stages

end
-- ==== Proof.Out.lean ====
/-
  The one function of the eleven argument arrays that both programs' results are: the network of proof/Proof/Network.lean
  at the edge list's two rows, the per-graph mean pool, and the biases as one-row matrices.
-/
import proofs.«143844_j84628035600885_2_alg».proof.Proof.Claims
import proofs.«143844_j84628035600885_2_alg».proof.Proof.Network
import proofs.«143844_j84628035600885_2_alg».proof.Proof.KernStages

noncomputable section

namespace Cert.Gcn

open Idealize.ShloMosaic Idealize.ShloMosaic.ValueIdx

/-- The network's output as a function of the programs' eleven arguments: features, edge list, graph ids, and the
    weights and biases of the three layers and the head. -/
def outFn : Cert.Proof.GcnClaims.OutFn := fun x0 x1 x2 x3 x4 x5 x6 x7 x8 x9 x10 =>
  network (fun e => Cert.KernelIdeal.Stages.edgeRow0 x1 (ix1 e)) (fun e => Cert.KernelIdeal.Stages.edgeRow1 x1 (ix1 e))
    (fun h => Cert.KernelIdeal.Stages.pool h x2) x0 x3 (rowVec x4) x5 (rowVec x6) x7 (rowVec x8) x9 (cell x10)

end Cert.Gcn

end
-- ==== Proof.Region0.lean ====
/-
  The first region of the graph convolution network: the node features times the first layer's weight matrix,
  computed ten thousand rows at a time. Each of the ten grid points reads one row block of the features and the whole
  weight matrix and writes one row block of the product; the ten blocks tile the array, so after the last point the
  result is the dense stage `Cert.Gcn.lin128` of the two arrays the region found, whatever they hold.
-/
import proofs.«143844_j84628035600885_2_alg».proof.Proof.Gen.KernelIdeal.Frame
import proofs.«143844_j84628035600885_2_alg».proof.Proof.Dense
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/- The buffer contents when the region is entered: every statement below holds for any such contents. -/
variable (V : (c : Dev nD) → (b : Ref sig .tc) → Buf (Elt Ideal) ((c : Thread nD τ).loc b))

/-- The zero offsets of a whole-block access, as a constant function. -/
theorem zeroOffsets0 : (![0, 0] : Fin 2 → Nat) = fun _ => 0 := funext fun a => by fin_cases a <;> rfl

/-- The block product's dimension numbers: the features' axis 1 contracts with the weights' axis 0. -/
abbrev dotX := dot_S10000x128_S128x64_S10000x64_1_0_0_1_n_n

/-- At output entry `i` and contraction coordinate `q` the left operand is read at row `i 0` … -/
theorem dotX_lhs_row (i : S10000x64.Idx) (q : dotX.contr.Idx) : (dotX.lhsIdx i q 0).val = (i 0).val := by
  unfold DotDims.lhsIdx
  rw [dif_neg (show ¬(0 : Fin S10000x128.rank) ∈ dotX.lhsBatch by decide), dif_pos (show (0 : Fin S10000x128.rank) ∈ dotX.lhsNonContracting by decide)]
  rfl
/-- … and column `q`; -/
theorem dotX_lhs_col (i : S10000x64.Idx) (q : dotX.contr.Idx) : (dotX.lhsIdx i q 1).val = (q ⟨0, by decide⟩).val :=
  dotX.lhsIdx_val_of_single rfl i q
/-- the right operand at row `q` … -/
theorem dotX_rhs_row (i : S10000x64.Idx) (q : dotX.contr.Idx) : (dotX.rhsIdx i q 0).val = (q ⟨0, by decide⟩).val :=
  dotX.rhsIdx_val_of_single rfl i q
/-- … and column `i 1`. -/
theorem dotX_rhs_col (i : S10000x64.Idx) (q : dotX.contr.Idx) : (dotX.rhsIdx i q 1).val = (i 1).val := by
  unfold DotDims.rhsIdx
  rw [dif_neg (show ¬(1 : Fin S128x64.rank) ∈ dotX.rhsBatch by decide), dif_pos (show (1 : Fin S128x64.rank) ∈ dotX.rhsNonContracting by decide)]
  rfl

/-- What one grid point computes, entry by entry: entry `(p, f)` of the block is `Σ_q x(p, q) · W(q, f)` over the 128
    input features. The changes of float format are the identity on extended reals, and the accumulator is zero. -/
theorem featureBlock_apply (x0 : Vec Ideal S10000x128 .f32) (x1 : Vec Ideal S128x64 .f32) (p : Fin 10000) (f : Fin 64) :
    Gen.k0_pay1 x0 x1 (ix2 p f) = ∑ q : Fin 128, x0 (ix2 p q) * x1 (ix2 q f) := by
  unfold Gen.k0_pay1
  rw [truncf_apply]
  simp only [matmul]
  rw [Ideal.matmul_constant_zero_apply, ← Equiv.sum_comp (contrEquiv1 dotX 128 rfl rfl).symm]
  refine Finset.sum_congr rfl fun k _ => ?_
  have hk := contrEquiv1_symm_val dotX 128 rfl rfl k
  have el : dotX.lhsIdx (ix2 p f) ((contrEquiv1 dotX 128 rfl rfl).symm k) = ix2 p k := funext fun a => Fin.ext (by
    match a with
    | ⟨0, _⟩ => exact dotX_lhs_row _ _
    | ⟨1, _⟩ => exact (dotX_lhs_col _ _).trans hk)
  have er : dotX.rhsIdx (ix2 p f) ((contrEquiv1 dotX 128 rfl rfl).symm k) = ix2 k f := funext fun a => Fin.ext (by
    match a with
    | ⟨0, _⟩ => exact (dotX_rhs_row _ _).trans hk
    | ⟨1, _⟩ => exact dotX_rhs_col _ _)
  rw [truncf_apply, truncf_apply, el, er]

/-- The index maps over the ten grid points: point `t` takes row block `t` of the node features and of the result,
    and the whole weight matrix. -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `(p, q)` of the feature block at point `t` is entry `(10000 t + p, q)` of the node features. -/
theorem featureBlock0 (c : Dev nD) (t : Fin cfg0.N) (p : Fin 10000) (q : Fin 128) (k : S100000x128.Idx)
    (hk0 : (k 0).val = t.val * 10000 + p.val) (hk1 : (k 1).val = q.val) :
    (iblk0 V c 0 t : Vec Ideal S10000x128 .f32) (ix2 p q) = (V c (Pipeline.arrRef spec0 0) : S100000x128.Idx → EReal) k := by
  obtain ⟨e0, e1, -⟩ := blockIndex0 t
  unfold iblk0
  rw [View.read_apply]
  refine congrArg (V c (Pipeline.arrRef spec0 0)) (funext fun a => Fin.ext ?_)
  match a with
  | ⟨0, _⟩ => show win0_0.index t 0 * 10000 + 1 * p.val = (k 0).val; rw [e0, hk0]; omega
  | ⟨1, _⟩ => show win0_0.index t 1 * 128 + 1 * q.val = (k 1).val; rw [e1, hk1]; omega

/-- The weight block at every point is the whole weight matrix. -/
theorem weightBlock0 (c : Dev nD) (t : Fin cfg0.N) (q : Fin 128) (f : Fin 64) :
    (iblk0 V c 1 t : Vec Ideal S128x64 .f32) (ix2 q f) = (V c (Pipeline.arrRef spec0 1) : S128x64.Idx → EReal) (ix2 q f) := by
  obtain ⟨-, -, e2, e3, -⟩ := blockIndex0 t
  unfold iblk0
  rw [View.read_apply]
  refine congrArg (V c (Pipeline.arrRef spec0 1)) (funext fun a => Fin.ext ?_)
  match a with
  | ⟨0, _⟩ => show win0_1.index t 0 * 128 + 1 * q.val = q.val; rw [e2]; omega
  | ⟨1, _⟩ => show win0_1.index t 1 * 64 + 1 * f.val = f.val; rw [e3]; omega

/-- The dense stage read at an index whose column is `f`. -/
theorem lin128_at (x : Cert.Gcn.Mat 100000 128) (W : Cert.Gcn.Mat 128 64) (k : S100000x64.Idx) (f : Fin 64) (hk : (k 1).val = f.val) :
    Cert.Gcn.lin128 x W k = ∑ q : Fin 128, x (ix2 (Cert.Gcn.rowOf k) q) * W (ix2 q f) := by
  unfold Cert.Gcn.lin128
  rw [show Cert.Gcn.colOf k = f from Fin.ext hk]

/-- What point `t` writes back is row block `t` of the dense stage of the arrays the region found. -/
theorem written0 (c : Dev nD) (t : Fin cfg0.N) :
    (dat0 V c).flushed 2 t = ((cfg0.win 2).blk t).view.read (Elt Ideal)
      (Cert.Gcn.lin128 (V c (Pipeline.arrRef spec0 0)) (V c (Pipeline.arrRef spec0 1))) := by
  show (cfg0.win 2).cut (grid0.coords t) ((dat0 V c).after 2 t) = _
  rw [after0_2]
  unfold out0_2
  rw [View.canon_unit_zero zeroOffsets0]
  simp only [View.ld_unit_zero (S := S10000x128) zeroOffsets0, View.ld_unit_zero (S := S128x64) zeroOffsets0]
  obtain ⟨-, -, -, -, e4, e5⟩ := blockIndex0 t
  funext j
  obtain ⟨p, f, rfl⟩ : ∃ (p : Fin 10000) (f : Fin 64), j = ix2 p f := ⟨j 0, j 1, eq_ix2 j⟩
  refine (featureBlock_apply (iblk0 V c 0 t) (iblk0 V c 1 t) p f).trans ?_
  have hk0 : ((((cfg0.win 2).blk t).view.emb (ix2 p f) : S100000x64.Idx) 0).val = t.val * 10000 + p.val := by
    show win0_2.index t 0 * 10000 + 1 * p.val = _; rw [e4]; omega
  have hk1 : ((((cfg0.win 2).blk t).view.emb (ix2 p f) : S100000x64.Idx) 1).val = f.val := by
    show win0_2.index t 1 * 64 + 1 * f.val = _; rw [e5]; omega
  refine Eq.trans ?_ (lin128_at (V c (Pipeline.arrRef spec0 0)) (V c (Pipeline.arrRef spec0 1)) (((cfg0.win 2).blk t).view.emb (ix2 p f)) f hk1).symm
  refine Finset.sum_congr rfl fun q _ => ?_
  rw [featureBlock0 V c t p q (ix2 (Cert.Gcn.rowOf (((cfg0.win 2).blk t).view.emb (ix2 p f) : S100000x64.Idx)) q) hk0 rfl, weightBlock0 V c t q f]

/-- An index of the result is in point `t`'s block iff each coordinate is in the block's range on its axis. -/
theorem mem_block0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v29).slice (win0_2.rect t)).set ↔ _
  rw [View.set_slice_whole, Rect.mem_set_unit]
  exact Iff.rfl

/-- Every index of the result is written: row `r` by point `r / 10000`. -/
theorem covered0 (i : S100000x64.Idx) : ∃ t : Fin cfg0.N, (cfg0.win 2).flush t = true ∧ i ∈ ((cfg0.win 2).blk t).view.set := by
  have hi0 : (i 0).val < 100000 := idx2_lt0 i
  have hi1 : (i 1).val < 64 := idx2_lt1 i
  have hN : cfg0.N = 10 := rfl
  refine ⟨⟨(i 0).val / 10000, by rw [hN]; omega⟩, flush0_2 _, ?_⟩
  rw [mem_block0]
  obtain ⟨-, -, -, -, e4, e5⟩ := blockIndex0 ⟨(i 0).val / 10000, by rw [hN]; omega⟩
  intro a
  match a with
  | ⟨0, _⟩ =>
    show win0_2.index _ (0 : Fin 2) * 10000 ≤ (i 0).val ∧ (i 0).val < win0_2.index _ (0 : Fin 2) * 10000 + 10000
    rw [e4]
    show (i 0).val / 10000 * 10000 ≤ (i 0).val ∧ (i 0).val < (i 0).val / 10000 * 10000 + 10000
    omega
  | ⟨1, _⟩ =>
    show win0_2.index _ (1 : Fin 2) * 64 ≤ (i 1).val ∧ (i 1).val < win0_2.index _ (1 : Fin 2) * 64 + 64
    rw [e5]; omega

/-- After all ten points the result array is the node features times the first layer's weights. -/
theorem final0 (c : Dev nD) :
    ((dat0 V c).arrAt 2 cfg0.N : S100000x64.Idx → EReal)
      = Cert.Gcn.lin128 (V c (Pipeline.arrRef spec0 0)) (V c (Pipeline.arrRef spec0 1)) :=
  (dat0 V c).arrAt_eq_of_cover 2 (Cert.Gcn.lin128 (V c (Pipeline.arrRef spec0 0)) (V c (Pipeline.arrRef spec0 1)))
    (fun t _ => written0 V c t) covered0

end Cert.KernelIdeal.RegionValue

end
-- ==== Proof.Region1.lean ====
/-
  The second region of the graph convolution network: the bias added to every row of the aggregated node features,
  the result clipped at zero and multiplied by the second layer's weight matrix, computed ten thousand rows at a
  time. Each of the ten grid points reads one row block of the aggregate, the whole bias row and the whole weight
  matrix, and writes one row block of the product; the ten blocks tile the array, so after the last point the result is
  the dense stage `Cert.Gcn.lin64 (Cert.Gcn.biasRelu · ·) ·` of the three arrays the region found, whatever they hold.
-/
import proofs.«143844_j84628035600885_2_alg».proof.Proof.Gen.KernelIdeal.Frame
import proofs.«143844_j84628035600885_2_alg».proof.Proof.Dense
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/- The buffer contents when the region is entered: every statement below holds for any such contents. -/
variable (V : (c : Dev nD) → (b : Ref sig .tc) → Buf (Elt Ideal) ((c : Thread nD τ).loc b))

/-- The zero offsets of a whole-block access, as a constant function. -/
theorem zeroOffsets1 : (![0, 0] : Fin 2 → Nat) = fun _ => 0 := funext fun a => by fin_cases a <;> rfl

/-- The block product's dimension numbers: the hidden features' axis 1 contracts with the weights' axis 0. -/
abbrev dotH1 := dot_S10000x64_S64x64_S10000x64_1_0_0_1_n_n

/-- At output entry `i` and contraction coordinate `q` the left operand is read at row `i 0` … -/
theorem dotH1_lhs_row (i : S10000x64.Idx) (q : dotH1.contr.Idx) : (dotH1.lhsIdx i q 0).val = (i 0).val := by
  unfold DotDims.lhsIdx
  rw [dif_neg (show ¬(0 : Fin S10000x64.rank) ∈ dotH1.lhsBatch by decide), dif_pos (show (0 : Fin S10000x64.rank) ∈ dotH1.lhsNonContracting by decide)]
  rfl
/-- … and column `q`; -/
theorem dotH1_lhs_col (i : S10000x64.Idx) (q : dotH1.contr.Idx) : (dotH1.lhsIdx i q 1).val = (q ⟨0, by decide⟩).val :=
  dotH1.lhsIdx_val_of_single rfl i q
/-- the right operand at row `q` … -/
theorem dotH1_rhs_row (i : S10000x64.Idx) (q : dotH1.contr.Idx) : (dotH1.rhsIdx i q 0).val = (q ⟨0, by decide⟩).val :=
  dotH1.rhsIdx_val_of_single rfl i q
/-- … and column `i 1`. -/
theorem dotH1_rhs_col (i : S10000x64.Idx) (q : dotH1.contr.Idx) : (dotH1.rhsIdx i q 1).val = (i 1).val := by
  unfold DotDims.rhsIdx
  rw [dif_neg (show ¬(1 : Fin S64x64.rank) ∈ dotH1.rhsBatch by decide), dif_pos (show (1 : Fin S64x64.rank) ∈ dotH1.rhsNonContracting by decide)]
  rfl

/-- What one grid point computes, entry by entry: entry `(p, f)` of the block is `Σ_q max(a(p, q) + b(q), 0) · W(q, f)`
    over the 64 hidden features. The two shape casts are to the same shape, the bias row is broadcast down the rows,
    the zero word is the real number zero, the changes of float format are the identity on extended reals, and the
    accumulator is zero. -/
theorem hiddenBlock1_apply (x0 : Vec Ideal S10000x64 .f32) (x1 : Vec Ideal S1x64 .f32) (x2 : Vec Ideal S64x64 .f32)
    (p : Fin 10000) (f : Fin 64) :
    Gen.k1_pay1 x0 x1 x2 (ix2 p f) = ∑ q : Fin 64, max (x0 (ix2 p q) + x1 (ix2 (0 : Fin 1) q)) 0 * x2 (ix2 q f) := by
  unfold Gen.k1_pay1
  rw [shapeCast_self, shapeCast_self]
  rw [truncf_apply]
  simp only [matmul]
  rw [Ideal.matmul_constant_zero_apply, ← Equiv.sum_comp (contrEquiv1 dotH1 64 rfl rfl).symm]
  refine Finset.sum_congr rfl fun k _ => ?_
  have hk := contrEquiv1_symm_val dotH1 64 rfl rfl k
  have el : dotH1.lhsIdx (ix2 p f) ((contrEquiv1 dotH1 64 rfl rfl).symm k) = ix2 p k := funext fun a => Fin.ext (by
    match a with
    | ⟨0, _⟩ => exact dotH1_lhs_row _ _
    | ⟨1, _⟩ => exact (dotH1_lhs_col _ _).trans hk)
  have er : dotH1.rhsIdx (ix2 p f) ((contrEquiv1 dotH1 64 rfl rfl).symm k) = ix2 k f := funext fun a => Fin.ext (by
    match a with
    | ⟨0, _⟩ => exact (dotH1_rhs_row _ _).trans hk
    | ⟨1, _⟩ => exact dotH1_rhs_col _ _)
  rw [truncf_apply, truncf_apply, el, er]
  rw [maximumf_apply, addf_apply, broadcast_apply]
  rw [broadcastTo_apply x1 _ (ix2 p k) (ix2 (0 : Fin 1) k) (fun a => by
    match a with
    | ⟨0, _⟩ => rfl
    | ⟨1, _⟩ => rfl)]
  show max _ (Ideal.ofBits .f32 0x00000000#32) * _ = _
  rw [Ideal.ofBits_zero_f32]

/-- The index maps over the ten grid points: point `t` takes row block `t` of the aggregated features and of the
    result, the whole bias row and the whole weight matrix. -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry `(p, q)` of the aggregated block at point `t` is entry `(10000 t + p, q)` of the aggregated features. -/
theorem aggBlock1 (c : Dev nD) (t : Fin cfg1.N) (p : Fin 10000) (q : Fin 64) (k : S100000x64.Idx)
    (hk0 : (k 0).val = t.val * 10000 + p.val) (hk1 : (k 1).val = q.val) :
    (iblk1 V c 0 t : Vec Ideal S10000x64 .f32) (ix2 p q) = (V c (Pipeline.arrRef spec1 0) : S100000x64.Idx → EReal) k := by
  obtain ⟨e0, e1, -⟩ := blockIndex1 t
  unfold iblk1
  rw [View.read_apply]
  refine congrArg (V c (Pipeline.arrRef spec1 0)) (funext fun a => Fin.ext ?_)
  match a with
  | ⟨0, _⟩ => show win1_0.index t 0 * 10000 + 1 * p.val = (k 0).val; rw [e0, hk0]; omega
  | ⟨1, _⟩ => show win1_0.index t 1 * 64 + 1 * q.val = (k 1).val; rw [e1, hk1]; omega

/-- The bias block at every point is the whole bias row. -/
theorem biasBlock1 (c : Dev nD) (t : Fin cfg1.N) (q : Fin 64) :
    (iblk1 V c 1 t : Vec Ideal S1x64 .f32) (ix2 (0 : Fin 1) q) = (V c (Pipeline.arrRef spec1 1) : S1x64.Idx → EReal) (ix2 (0 : Fin 1) q) := by
  obtain ⟨-, -, e2, e3, -⟩ := blockIndex1 t
  unfold iblk1
  rw [View.read_apply]
  refine congrArg (V c (Pipeline.arrRef spec1 1)) (funext fun a => Fin.ext ?_)
  match a with
  | ⟨0, _⟩ => show win1_1.index t 0 * 1 + 1 * 0 = 0; rw [e2]
  | ⟨1, _⟩ => show win1_1.index t 1 * 64 + 1 * q.val = q.val; rw [e3]; omega

/-- The weight block at every point is the whole weight matrix. -/
theorem weightBlock1 (c : Dev nD) (t : Fin cfg1.N) (q : Fin 64) (f : Fin 64) :
    (iblk1 V c 2 t : Vec Ideal S64x64 .f32) (ix2 q f) = (V c (Pipeline.arrRef spec1 2) : S64x64.Idx → EReal) (ix2 q f) := by
  obtain ⟨-, -, -, -, e4, e5, -⟩ := blockIndex1 t
  unfold iblk1
  rw [View.read_apply]
  refine congrArg (V c (Pipeline.arrRef spec1 2)) (funext fun a => Fin.ext ?_)
  match a with
  | ⟨0, _⟩ => show win1_2.index t 0 * 64 + 1 * q.val = q.val; rw [e4]; omega
  | ⟨1, _⟩ => show win1_2.index t 1 * 64 + 1 * f.val = f.val; rw [e5]; omega

/-- The bias-and-clip stage read at an index whose column is `q`. -/
theorem biasRelu_at1 (a : Cert.Gcn.Mat 100000 64) (b : Cert.Gcn.Mat 1 64) (k : S100000x64.Idx) (q : Fin 64) (hk : (k 1).val = q.val) :
    Cert.Gcn.biasRelu a b k = max (a k + b (ix2 (0 : Fin 1) q)) 0 := by
  unfold Cert.Gcn.biasRelu
  rw [show Cert.Gcn.colOf k = q from Fin.ext hk]

/-- The dense transform read at an index whose column is `f`. -/
theorem lin64_at1 (h : Cert.Gcn.Mat 100000 64) (W : Cert.Gcn.Mat 64 64) (k : S100000x64.Idx) (f : Fin 64) (hk : (k 1).val = f.val) :
    Cert.Gcn.lin64 h W k = ∑ q : Fin 64, h (ix2 (Cert.Gcn.rowOf k) q) * W (ix2 q f) := by
  unfold Cert.Gcn.lin64
  rw [show Cert.Gcn.colOf k = f from Fin.ext hk]

/-- What point `t` writes back is row block `t` of the dense stage of the arrays the region found. -/
theorem written1 (c : Dev nD) (t : Fin cfg1.N) :
    (dat1 V c).flushed 3 t = ((cfg1.win 3).blk t).view.read (Elt Ideal)
      (Cert.Gcn.lin64 (Cert.Gcn.biasRelu (V c (Pipeline.arrRef spec1 0)) (V c (Pipeline.arrRef spec1 1))) (V c (Pipeline.arrRef spec1 2))) := by
  show (cfg1.win 3).cut (grid1.coords t) ((dat1 V c).after 3 t) = _
  rw [after1_3]
  unfold out1_3
  rw [View.canon_unit_zero zeroOffsets1]
  simp only [View.ld_unit_zero (S := S10000x64) zeroOffsets1, View.ld_unit_zero (S := S1x64) zeroOffsets1, View.ld_unit_zero (S := S64x64) zeroOffsets1]
  obtain ⟨-, -, -, -, -, -, e6, e7⟩ := blockIndex1 t
  funext j
  obtain ⟨p, f, rfl⟩ : ∃ (p : Fin 10000) (f : Fin 64), j = ix2 p f := ⟨j 0, j 1, eq_ix2 j⟩
  refine (hiddenBlock1_apply (iblk1 V c 0 t) (iblk1 V c 1 t) (iblk1 V c 2 t) p f).trans ?_
  have hk0 : ((((cfg1.win 3).blk t).view.emb (ix2 p f) : S100000x64.Idx) 0).val = t.val * 10000 + p.val := by
    show win1_3.index t 0 * 10000 + 1 * p.val = _; rw [e6]; omega
  have hk1 : ((((cfg1.win 3).blk t).view.emb (ix2 p f) : S100000x64.Idx) 1).val = f.val := by
    show win1_3.index t 1 * 64 + 1 * f.val = _; rw [e7]; omega
  refine Eq.trans ?_ (lin64_at1 (Cert.Gcn.biasRelu (V c (Pipeline.arrRef spec1 0)) (V c (Pipeline.arrRef spec1 1))) (V c (Pipeline.arrRef spec1 2))
    (((cfg1.win 3).blk t).view.emb (ix2 p f)) f hk1).symm
  refine Finset.sum_congr rfl fun q _ => ?_
  rw [aggBlock1 V c t p q (ix2 (Cert.Gcn.rowOf (((cfg1.win 3).blk t).view.emb (ix2 p f) : S100000x64.Idx)) q) hk0 rfl,
    biasBlock1 V c t q, weightBlock1 V c t q f,
    biasRelu_at1 (V c (Pipeline.arrRef spec1 0)) (V c (Pipeline.arrRef spec1 1))
      (ix2 (Cert.Gcn.rowOf (((cfg1.win 3).blk t).view.emb (ix2 p f) : S100000x64.Idx)) q) q rfl]

/-- An index of the result is in point `t`'s block iff each coordinate is in the block's range on its axis. -/
theorem mem_block1 (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v48).slice (win1_3.rect t)).set ↔ _
  rw [View.set_slice_whole, Rect.mem_set_unit]
  exact Iff.rfl

/-- Every index of the result is written: row `r` by point `r / 10000`. -/
theorem covered1 (i : S100000x64.Idx) : ∃ t : Fin cfg1.N, (cfg1.win 3).flush t = true ∧ i ∈ ((cfg1.win 3).blk t).view.set := by
  have hi0 : (i 0).val < 100000 := idx2_lt0 i
  have hi1 : (i 1).val < 64 := idx2_lt1 i
  have hN : cfg1.N = 10 := rfl
  refine ⟨⟨(i 0).val / 10000, by rw [hN]; omega⟩, flush1_3 _, ?_⟩
  rw [mem_block1]
  obtain ⟨-, -, -, -, -, -, e6, e7⟩ := blockIndex1 ⟨(i 0).val / 10000, by rw [hN]; omega⟩
  intro a
  match a with
  | ⟨0, _⟩ =>
    show win1_3.index _ (0 : Fin 2) * 10000 ≤ (i 0).val ∧ (i 0).val < win1_3.index _ (0 : Fin 2) * 10000 + 10000
    rw [e6]
    show (i 0).val / 10000 * 10000 ≤ (i 0).val ∧ (i 0).val < (i 0).val / 10000 * 10000 + 10000
    omega
  | ⟨1, _⟩ =>
    show win1_3.index _ (1 : Fin 2) * 64 ≤ (i 1).val ∧ (i 1).val < win1_3.index _ (1 : Fin 2) * 64 + 64
    rw [e7]; omega

/-- After all ten points the result array is the clipped, biased aggregate times the second layer's weights. -/
theorem final1 (c : Dev nD) :
    ((dat1 V c).arrAt 3 cfg1.N : S100000x64.Idx → EReal)
      = Cert.Gcn.lin64 (Cert.Gcn.biasRelu (V c (Pipeline.arrRef spec1 0)) (V c (Pipeline.arrRef spec1 1))) (V c (Pipeline.arrRef spec1 2)) :=
  (dat1 V c).arrAt_eq_of_cover 3
    (Cert.Gcn.lin64 (Cert.Gcn.biasRelu (V c (Pipeline.arrRef spec1 0)) (V c (Pipeline.arrRef spec1 1))) (V c (Pipeline.arrRef spec1 2)))
    (fun t _ => written1 V c t) covered1

end Cert.KernelIdeal.RegionValue

end
-- ==== Proof.Region2.lean ====
/-
  The third region of the graph convolution network: the bias added to every row of the aggregated node features,
  the result clipped at zero and multiplied by the third layer's weight matrix, computed ten thousand rows at a
  time. Each of the ten grid points reads one row block of the aggregate, the whole bias row and the whole weight
  matrix, and writes one row block of the product; the ten blocks tile the array, so after the last point the result is
  the dense stage `Cert.Gcn.lin64 (Cert.Gcn.biasRelu · ·) ·` of the three arrays the region found, whatever they hold.
-/
import proofs.«143844_j84628035600885_2_alg».proof.Proof.Gen.KernelIdeal.Frame
import proofs.«143844_j84628035600885_2_alg».proof.Proof.Dense
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/- The buffer contents when the region is entered: every statement below holds for any such contents. -/
variable (V : (c : Dev nD) → (b : Ref sig .tc) → Buf (Elt Ideal) ((c : Thread nD τ).loc b))

/-- The zero offsets of a whole-block access, as a constant function. -/
theorem zeroOffsets2 : (![0, 0] : Fin 2 → Nat) = fun _ => 0 := funext fun a => by fin_cases a <;> rfl

/-- The block product's dimension numbers: the hidden features' axis 1 contracts with the weights' axis 0. -/
abbrev dotH2 := dot_S10000x64_S64x64_S10000x64_1_0_0_1_n_n

/-- At output entry `i` and contraction coordinate `q` the left operand is read at row `i 0` … -/
theorem dotH2_lhs_row (i : S10000x64.Idx) (q : dotH2.contr.Idx) : (dotH2.lhsIdx i q 0).val = (i 0).val := by
  unfold DotDims.lhsIdx
  rw [dif_neg (show ¬(0 : Fin S10000x64.rank) ∈ dotH2.lhsBatch by decide), dif_pos (show (0 : Fin S10000x64.rank) ∈ dotH2.lhsNonContracting by decide)]
  rfl
/-- … and column `q`; -/
theorem dotH2_lhs_col (i : S10000x64.Idx) (q : dotH2.contr.Idx) : (dotH2.lhsIdx i q 1).val = (q ⟨0, by decide⟩).val :=
  dotH2.lhsIdx_val_of_single rfl i q
/-- the right operand at row `q` … -/
theorem dotH2_rhs_row (i : S10000x64.Idx) (q : dotH2.contr.Idx) : (dotH2.rhsIdx i q 0).val = (q ⟨0, by decide⟩).val :=
  dotH2.rhsIdx_val_of_single rfl i q
/-- … and column `i 1`. -/
theorem dotH2_rhs_col (i : S10000x64.Idx) (q : dotH2.contr.Idx) : (dotH2.rhsIdx i q 1).val = (i 1).val := by
  unfold DotDims.rhsIdx
  rw [dif_neg (show ¬(1 : Fin S64x64.rank) ∈ dotH2.rhsBatch by decide), dif_pos (show (1 : Fin S64x64.rank) ∈ dotH2.rhsNonContracting by decide)]
  rfl

/-- What one grid point computes, entry by entry: entry `(p, f)` of the block is `Σ_q max(a(p, q) + b(q), 0) · W(q, f)`
    over the 64 hidden features. The two shape casts are to the same shape, the bias row is broadcast down the rows,
    the zero word is the real number zero, the changes of float format are the identity on extended reals, and the
    accumulator is zero. -/
theorem hiddenBlock2_apply (x0 : Vec Ideal S10000x64 .f32) (x1 : Vec Ideal S1x64 .f32) (x2 : Vec Ideal S64x64 .f32)
    (p : Fin 10000) (f : Fin 64) :
    Gen.k2_pay1 x0 x1 x2 (ix2 p f) = ∑ q : Fin 64, max (x0 (ix2 p q) + x1 (ix2 (0 : Fin 1) q)) 0 * x2 (ix2 q f) := by
  unfold Gen.k2_pay1
  rw [shapeCast_self, shapeCast_self]
  rw [truncf_apply]
  simp only [matmul]
  rw [Ideal.matmul_constant_zero_apply, ← Equiv.sum_comp (contrEquiv1 dotH2 64 rfl rfl).symm]
  refine Finset.sum_congr rfl fun k _ => ?_
  have hk := contrEquiv1_symm_val dotH2 64 rfl rfl k
  have el : dotH2.lhsIdx (ix2 p f) ((contrEquiv1 dotH2 64 rfl rfl).symm k) = ix2 p k := funext fun a => Fin.ext (by
    match a with
    | ⟨0, _⟩ => exact dotH2_lhs_row _ _
    | ⟨1, _⟩ => exact (dotH2_lhs_col _ _).trans hk)
  have er : dotH2.rhsIdx (ix2 p f) ((contrEquiv1 dotH2 64 rfl rfl).symm k) = ix2 k f := funext fun a => Fin.ext (by
    match a with
    | ⟨0, _⟩ => exact (dotH2_rhs_row _ _).trans hk
    | ⟨1, _⟩ => exact dotH2_rhs_col _ _)
  rw [truncf_apply, truncf_apply, el, er]
  rw [maximumf_apply, addf_apply, broadcast_apply]
  rw [broadcastTo_apply x1 _ (ix2 p k) (ix2 (0 : Fin 1) k) (fun a => by
    match a with
    | ⟨0, _⟩ => rfl
    | ⟨1, _⟩ => rfl)]
  show max _ (Ideal.ofBits .f32 0x00000000#32) * _ = _
  rw [Ideal.ofBits_zero_f32]

/-- The index maps over the ten grid points: point `t` takes row block `t` of the aggregated features and of the
    result, the whole bias row and the whole weight matrix. -/
theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Entry `(p, q)` of the aggregated block at point `t` is entry `(10000 t + p, q)` of the aggregated features. -/
theorem aggBlock2 (c : Dev nD) (t : Fin cfg2.N) (p : Fin 10000) (q : Fin 64) (k : S100000x64.Idx)
    (hk0 : (k 0).val = t.val * 10000 + p.val) (hk1 : (k 1).val = q.val) :
    (iblk2 V c 0 t : Vec Ideal S10000x64 .f32) (ix2 p q) = (V c (Pipeline.arrRef spec2 0) : S100000x64.Idx → EReal) k := by
  obtain ⟨e0, e1, -⟩ := blockIndex2 t
  unfold iblk2
  rw [View.read_apply]
  refine congrArg (V c (Pipeline.arrRef spec2 0)) (funext fun a => Fin.ext ?_)
  match a with
  | ⟨0, _⟩ => show win2_0.index t 0 * 10000 + 1 * p.val = (k 0).val; rw [e0, hk0]; omega
  | ⟨1, _⟩ => show win2_0.index t 1 * 64 + 1 * q.val = (k 1).val; rw [e1, hk1]; omega

/-- The bias block at every point is the whole bias row. -/
theorem biasBlock2 (c : Dev nD) (t : Fin cfg2.N) (q : Fin 64) :
    (iblk2 V c 1 t : Vec Ideal S1x64 .f32) (ix2 (0 : Fin 1) q) = (V c (Pipeline.arrRef spec2 1) : S1x64.Idx → EReal) (ix2 (0 : Fin 1) q) := by
  obtain ⟨-, -, e2, e3, -⟩ := blockIndex2 t
  unfold iblk2
  rw [View.read_apply]
  refine congrArg (V c (Pipeline.arrRef spec2 1)) (funext fun a => Fin.ext ?_)
  match a with
  | ⟨0, _⟩ => show win2_1.index t 0 * 1 + 1 * 0 = 0; rw [e2]
  | ⟨1, _⟩ => show win2_1.index t 1 * 64 + 1 * q.val = q.val; rw [e3]; omega

/-- The weight block at every point is the whole weight matrix. -/
theorem weightBlock2 (c : Dev nD) (t : Fin cfg2.N) (q : Fin 64) (f : Fin 64) :
    (iblk2 V c 2 t : Vec Ideal S64x64 .f32) (ix2 q f) = (V c (Pipeline.arrRef spec2 2) : S64x64.Idx → EReal) (ix2 q f) := by
  obtain ⟨-, -, -, -, e4, e5, -⟩ := blockIndex2 t
  unfold iblk2
  rw [View.read_apply]
  refine congrArg (V c (Pipeline.arrRef spec2 2)) (funext fun a => Fin.ext ?_)
  match a with
  | ⟨0, _⟩ => show win2_2.index t 0 * 64 + 1 * q.val = q.val; rw [e4]; omega
  | ⟨1, _⟩ => show win2_2.index t 1 * 64 + 1 * f.val = f.val; rw [e5]; omega

/-- The bias-and-clip stage read at an index whose column is `q`. -/
theorem biasRelu_at2 (a : Cert.Gcn.Mat 100000 64) (b : Cert.Gcn.Mat 1 64) (k : S100000x64.Idx) (q : Fin 64) (hk : (k 1).val = q.val) :
    Cert.Gcn.biasRelu a b k = max (a k + b (ix2 (0 : Fin 1) q)) 0 := by
  unfold Cert.Gcn.biasRelu
  rw [show Cert.Gcn.colOf k = q from Fin.ext hk]

/-- The dense transform read at an index whose column is `f`. -/
theorem lin64_at2 (h : Cert.Gcn.Mat 100000 64) (W : Cert.Gcn.Mat 64 64) (k : S100000x64.Idx) (f : Fin 64) (hk : (k 1).val = f.val) :
    Cert.Gcn.lin64 h W k = ∑ q : Fin 64, h (ix2 (Cert.Gcn.rowOf k) q) * W (ix2 q f) := by
  unfold Cert.Gcn.lin64
  rw [show Cert.Gcn.colOf k = f from Fin.ext hk]

/-- The arithmetic of one entry, over any arrays: if the three blocks a point loads are the rows `10000 n … 10000 n + 9999`
    of `A`, the row `B` and the matrix `W`, then entry `(p, f)` of what the point computes is entry `k = (10000 n + p, f)`
    of `(max (A + B) 0) · W`. -/
theorem hiddenEntry2 (A : Cert.Gcn.Mat 100000 64) (B : Cert.Gcn.Mat 1 64) (W : Cert.Gcn.Mat 64 64)
    (x0 : Vec Ideal S10000x64 .f32) (x1 : Vec Ideal S1x64 .f32) (x2 : Vec Ideal S64x64 .f32)
    (n : Nat) (p : Fin 10000) (f : Fin 64) (k : S100000x64.Idx)
    (hk0 : (k 0).val = n * 10000 + p.val) (hk1 : (k 1).val = f.val)
    (h0 : ∀ (q : Fin 64) (k' : S100000x64.Idx), (k' 0).val = n * 10000 + p.val → (k' 1).val = q.val → x0 (ix2 p q) = A k')
    (h1 : ∀ q : Fin 64, x1 (ix2 (0 : Fin 1) q) = B (ix2 (0 : Fin 1) q))
    (h2 : ∀ q f : Fin 64, x2 (ix2 q f) = W (ix2 q f)) :
    Gen.k2_pay1 x0 x1 x2 (ix2 p f) = Cert.Gcn.lin64 (Cert.Gcn.biasRelu A B) W k := by
  rw [hiddenBlock2_apply, lin64_at2 _ _ k f hk1]
  refine Finset.sum_congr rfl fun q _ => ?_
  rw [h0 q (ix2 (Cert.Gcn.rowOf k) q) hk0 rfl, h1 q, h2 q f, biasRelu_at2 A B (ix2 (Cert.Gcn.rowOf k) q) q rfl]

/-- Reading any array through point `t`'s block of the result reads it at the block's place in the array. -/
theorem readResultBlock2 (t : Fin cfg2.N) (G : S100000x64.Idx → EReal) (y : S10000x64.Idx) :
    ((cfg2.win 3).blk t).view.read (Elt Ideal) G y = G (((cfg2.win 3).blk t).view.emb y) := rfl

/-- What point `t` writes back is row block `t` of the dense stage of the arrays the region found. -/
theorem written2 (c : Dev nD) (t : Fin cfg2.N) :
    (dat2 V c).flushed 3 t = ((cfg2.win 3).blk t).view.read (Elt Ideal)
      (Cert.Gcn.lin64 (Cert.Gcn.biasRelu (V c (Pipeline.arrRef spec2 0)) (V c (Pipeline.arrRef spec2 1))) (V c (Pipeline.arrRef spec2 2))) := by
  show (cfg2.win 3).cut (grid2.coords t) ((dat2 V c).after 3 t) = _
  rw [after2_3]
  unfold out2_3
  rw [View.canon_unit_zero zeroOffsets2]
  simp only [View.ld_unit_zero (S := S10000x64) zeroOffsets2, View.ld_unit_zero (S := S1x64) zeroOffsets2, View.ld_unit_zero (S := S64x64) zeroOffsets2]
  obtain ⟨-, -, -, -, -, -, e6, e7⟩ := blockIndex2 t
  funext j
  rw [readResultBlock2]
  obtain ⟨p, f, rfl⟩ : ∃ (p : Fin 10000) (f : Fin 64), j = ix2 p f := ⟨j 0, j 1, eq_ix2 j⟩
  exact hiddenEntry2 _ _ _ (iblk2 V c 0 t) (iblk2 V c 1 t) (iblk2 V c 2 t) t.val p f _
    (by show win2_3.index t 0 * 10000 + 1 * p.val = _; rw [e6]; omega)
    (by show win2_3.index t 1 * 64 + 1 * f.val = _; rw [e7]; omega)
    (fun q k' hk0 hk1 => aggBlock2 V c t p q k' hk0 hk1) (fun q => biasBlock2 V c t q) (fun q f => weightBlock2 V c t q f)

/-- An index of the result is in point `t`'s block iff each coordinate is in the block's range on its axis. -/
theorem mem_block2 (t : Fin cfg2.N) (i : S100000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v67).slice (win2_3.rect t)).set ↔ _
  rw [View.set_slice_whole, Rect.mem_set_unit]
  exact Iff.rfl

/-- Every index of the result is written: row `r` by point `r / 10000`. -/
theorem covered2 (i : S100000x64.Idx) : ∃ t : Fin cfg2.N, (cfg2.win 3).flush t = true ∧ i ∈ ((cfg2.win 3).blk t).view.set := by
  have hi0 : (i 0).val < 100000 := idx2_lt0 i
  have hi1 : (i 1).val < 64 := idx2_lt1 i
  have hN : cfg2.N = 10 := rfl
  refine ⟨⟨(i 0).val / 10000, by rw [hN]; omega⟩, flush2_3 _, ?_⟩
  rw [mem_block2]
  obtain ⟨-, -, -, -, -, -, e6, e7⟩ := blockIndex2 ⟨(i 0).val / 10000, by rw [hN]; omega⟩
  intro a
  match a with
  | ⟨0, _⟩ =>
    show win2_3.index _ (0 : Fin 2) * 10000 ≤ (i 0).val ∧ (i 0).val < win2_3.index _ (0 : Fin 2) * 10000 + 10000
    rw [e6]
    show (i 0).val / 10000 * 10000 ≤ (i 0).val ∧ (i 0).val < (i 0).val / 10000 * 10000 + 10000
    omega
  | ⟨1, _⟩ =>
    show win2_3.index _ (1 : Fin 2) * 64 ≤ (i 1).val ∧ (i 1).val < win2_3.index _ (1 : Fin 2) * 64 + 64
    rw [e7]; omega

/-- After all ten points the result array is the clipped, biased aggregate times the third layer's weights. -/
theorem final2 (c : Dev nD) :
    ((dat2 V c).arrAt 3 cfg2.N : S100000x64.Idx → EReal)
      = Cert.Gcn.lin64 (Cert.Gcn.biasRelu (V c (Pipeline.arrRef spec2 0)) (V c (Pipeline.arrRef spec2 1))) (V c (Pipeline.arrRef spec2 2)) :=
  (dat2 V c).arrAt_eq_of_cover 3
    (Cert.Gcn.lin64 (Cert.Gcn.biasRelu (V c (Pipeline.arrRef spec2 0)) (V c (Pipeline.arrRef spec2 1))) (V c (Pipeline.arrRef spec2 2)))
    (fun t _ => written2 V c t) covered2

end Cert.KernelIdeal.RegionValue

end
-- ==== Proof.Region3.lean ====
/-
  The fourth region of the graph convolution network: the bias added to every row of the aggregated node features
  and the result clipped at zero, computed ten thousand rows at a time. Each of the ten grid points reads one row
  block and the whole bias row and writes one row block; the ten blocks tile the array, so after the last point the
  result is the dense stage `Cert.Gcn.biasRelu` of the two arrays the region found, whatever they hold.
-/
import proofs.«143844_j84628035600885_2_alg».proof.Proof.Gen.KernelIdeal.Frame
import proofs.«143844_j84628035600885_2_alg».proof.Proof.Dense
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/- The buffer contents when the region is entered: every statement below holds for any such contents. -/
variable (V : (c : Dev nD) → (b : Ref sig .tc) → Buf (Elt Ideal) ((c : Thread nD τ).loc b))

/-- The zero offsets of a whole-block access, as a constant function. -/
theorem zeroOffsets3 : (![0, 0] : Fin 2 → Nat) = fun _ => 0 := funext fun a => by fin_cases a <;> rfl

/-- What one grid point computes, entry by entry: row `p`, column `q` of the block is the aggregated entry plus the
    bias of column `q`, clipped below at zero. The two shape casts are to the same shape, the bias row is broadcast
    down the rows, and the zero word is the real number zero. -/
theorem biasReluBlock_apply (x0 : Vec Ideal S10000x64 .f32) (x1 : Vec Ideal S1x64 .f32) (p : Fin 10000) (q : Fin 64) :
    Gen.k3_pay1 x0 x1 (ix2 p q) = max (x0 (ix2 p q) + x1 (ix2 (0 : Fin 1) q)) 0 := by
  unfold Gen.k3_pay1
  rw [shapeCast_self, shapeCast_self]
  rw [maximumf_apply, addf_apply, broadcast_apply]
  rw [broadcastTo_apply x1 _ (ix2 p q) (ix2 (0 : Fin 1) q) (fun a => by
    match a with
    | ⟨0, _⟩ => rfl
    | ⟨1, _⟩ => rfl)]
  show max _ (Ideal.ofBits .f32 0x00000000#32) = _
  rw [Ideal.ofBits_zero_f32]

/-- The index maps over the ten grid points: point `t` takes row block `t` of the aggregated features and of the
    result, and the whole bias row. -/
theorem blockIndex3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Entry `(p, q)` of the aggregated block at point `t` is entry `(10000 t + p, q)` of the aggregated features. -/
theorem aggBlock3 (c : Dev nD) (t : Fin cfg3.N) (p : Fin 10000) (q : Fin 64) (k : S100000x64.Idx)
    (hk0 : (k 0).val = t.val * 10000 + p.val) (hk1 : (k 1).val = q.val) :
    (iblk3 V c 0 t : Vec Ideal S10000x64 .f32) (ix2 p q) = (V c (Pipeline.arrRef spec3 0) : S100000x64.Idx → EReal) k := by
  obtain ⟨e0, e1, -⟩ := blockIndex3 t
  unfold iblk3
  rw [View.read_apply]
  refine congrArg (V c (Pipeline.arrRef spec3 0)) (funext fun a => Fin.ext ?_)
  match a with
  | ⟨0, _⟩ => show win3_0.index t 0 * 10000 + 1 * p.val = (k 0).val; rw [e0, hk0]; omega
  | ⟨1, _⟩ => show win3_0.index t 1 * 64 + 1 * q.val = (k 1).val; rw [e1, hk1]; omega

/-- The bias block at every point is the whole bias row. -/
theorem biasBlock3 (c : Dev nD) (t : Fin cfg3.N) (q : Fin 64) :
    (iblk3 V c 1 t : Vec Ideal S1x64 .f32) (ix2 (0 : Fin 1) q) = (V c (Pipeline.arrRef spec3 1) : S1x64.Idx → EReal) (ix2 (0 : Fin 1) q) := by
  obtain ⟨-, -, e2, e3, -⟩ := blockIndex3 t
  unfold iblk3
  rw [View.read_apply]
  refine congrArg (V c (Pipeline.arrRef spec3 1)) (funext fun a => Fin.ext ?_)
  match a with
  | ⟨0, _⟩ => show win3_1.index t 0 * 1 + 1 * 0 = 0; rw [e2]
  | ⟨1, _⟩ => show win3_1.index t 1 * 64 + 1 * q.val = q.val; rw [e3]; omega

/-- The dense stage read at an index whose column is `q`. -/
theorem biasRelu_at (a : Cert.Gcn.Mat 100000 64) (b : Cert.Gcn.Mat 1 64) (k : S100000x64.Idx) (q : Fin 64) (hk : (k 1).val = q.val) :
    Cert.Gcn.biasRelu a b k = max (a k + b (ix2 (0 : Fin 1) q)) 0 := by
  unfold Cert.Gcn.biasRelu
  rw [show Cert.Gcn.colOf k = q from Fin.ext hk]

/-- What point `t` writes back is row block `t` of the dense stage of the arrays the region found. -/
theorem written3 (c : Dev nD) (t : Fin cfg3.N) :
    (dat3 V c).flushed 2 t = ((cfg3.win 2).blk t).view.read (Elt Ideal)
      (Cert.Gcn.biasRelu (V c (Pipeline.arrRef spec3 0)) (V c (Pipeline.arrRef spec3 1))) := by
  show (cfg3.win 2).cut (grid3.coords t) ((dat3 V c).after 2 t) = _
  rw [after3_2]
  unfold out3_2
  rw [View.canon_unit_zero zeroOffsets3]
  simp only [View.ld_unit_zero (S := S10000x64) zeroOffsets3, View.ld_unit_zero (S := S1x64) zeroOffsets3]
  obtain ⟨-, -, -, -, e4, e5⟩ := blockIndex3 t
  funext j
  obtain ⟨p, q, rfl⟩ : ∃ (p : Fin 10000) (q : Fin 64), j = ix2 p q := ⟨j 0, j 1, eq_ix2 j⟩
  refine (biasReluBlock_apply (iblk3 V c 0 t) (iblk3 V c 1 t) p q).trans ?_
  have hk0 : ((((cfg3.win 2).blk t).view.emb (ix2 p q) : S100000x64.Idx) 0).val = t.val * 10000 + p.val := by
    show win3_2.index t 0 * 10000 + 1 * p.val = _; rw [e4]; omega
  have hk1 : ((((cfg3.win 2).blk t).view.emb (ix2 p q) : S100000x64.Idx) 1).val = q.val := by
    show win3_2.index t 1 * 64 + 1 * q.val = _; rw [e5]; omega
  rw [aggBlock3 V c t p q _ hk0 hk1, biasBlock3 V c t q]
  exact (biasRelu_at (V c (Pipeline.arrRef spec3 0)) (V c (Pipeline.arrRef spec3 1)) (((cfg3.win 2).blk t).view.emb (ix2 p q)) q hk1).symm

/-- An index of the result is in point `t`'s block iff each coordinate is in the block's range on its axis. -/
theorem mem_block3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v86).slice (win3_2.rect t)).set ↔ _
  rw [View.set_slice_whole, Rect.mem_set_unit]
  exact Iff.rfl

/-- Every index of the result is written: row `r` by point `r / 10000`. -/
theorem covered3 (i : S100000x64.Idx) : ∃ t : Fin cfg3.N, (cfg3.win 2).flush t = true ∧ i ∈ ((cfg3.win 2).blk t).view.set := by
  have hi0 : (i 0).val < 100000 := idx2_lt0 i
  have hi1 : (i 1).val < 64 := idx2_lt1 i
  have hN : cfg3.N = 10 := rfl
  refine ⟨⟨(i 0).val / 10000, by rw [hN]; omega⟩, flush3_2 _, ?_⟩
  rw [mem_block3]
  obtain ⟨-, -, -, -, e4, e5⟩ := blockIndex3 ⟨(i 0).val / 10000, by rw [hN]; omega⟩
  intro a
  match a with
  | ⟨0, _⟩ =>
    show win3_2.index _ (0 : Fin 2) * 10000 ≤ (i 0).val ∧ (i 0).val < win3_2.index _ (0 : Fin 2) * 10000 + 10000
    rw [e4]
    show (i 0).val / 10000 * 10000 ≤ (i 0).val ∧ (i 0).val < (i 0).val / 10000 * 10000 + 10000
    omega
  | ⟨1, _⟩ =>
    show win3_2.index _ (1 : Fin 2) * 64 ≤ (i 1).val ∧ (i 1).val < win3_2.index _ (1 : Fin 2) * 64 + 64
    rw [e5]; omega

/-- After all ten points the result array is the bias added to every row of the aggregated features, clipped at zero. -/
theorem final3 (c : Dev nD) :
    ((dat3 V c).arrAt 2 cfg3.N : S100000x64.Idx → EReal)
      = Cert.Gcn.biasRelu (V c (Pipeline.arrRef spec3 0)) (V c (Pipeline.arrRef spec3 1)) :=
  (dat3 V c).arrAt_eq_of_cover 2 (Cert.Gcn.biasRelu (V c (Pipeline.arrRef spec3 0)) (V c (Pipeline.arrRef spec3 1)))
    (fun t _ => written3 V c t) covered3

end Cert.KernelIdeal.RegionValue

end
-- ==== Proof.Region4.lean ====
/-
  The last region of the graph convolution network: the pooled graph features times the one-column head weight plus
  the scalar bias. The grid has one point and every window is its whole array, so what the point writes is the whole
  result: the dense stage `Cert.Gcn.head` of the three arrays the region found, whatever they hold.
-/
import proofs.«143844_j84628035600885_2_alg».proof.Proof.Gen.KernelIdeal.Frame
import proofs.«143844_j84628035600885_2_alg».proof.Proof.Dense
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

/- The buffer contents when the region is entered: every statement below holds for any such contents. -/
variable (V : (c : Dev nD) → (b : Ref sig .tc) → Buf (Elt Ideal) ((c : Thread nD τ).loc b))

/-- The zero offsets of a whole-block access, as a constant function. -/
theorem zeroOffsets4 : (![0, 0] : Fin 2 → Nat) = fun _ => 0 := funext fun a => by fin_cases a <;> rfl

/-- The product's dimension numbers: the pooled features' axis 1 contracts with the weight column's axis 0. -/
abbrev dotP := dot_S64x64_S64x1_S64x1_1_0_0_1_n_n

/-- At output entry `i` and contraction coordinate `q` the left operand is read at row `i 0` … -/
theorem dotP_lhs_row (i : S64x1.Idx) (q : dotP.contr.Idx) : (dotP.lhsIdx i q 0).val = (i 0).val := by
  unfold DotDims.lhsIdx
  rw [dif_neg (show ¬(0 : Fin S64x64.rank) ∈ dotP.lhsBatch by decide), dif_pos (show (0 : Fin S64x64.rank) ∈ dotP.lhsNonContracting by decide)]
  rfl
/-- … and column `q`; -/
theorem dotP_lhs_col (i : S64x1.Idx) (q : dotP.contr.Idx) : (dotP.lhsIdx i q 1).val = (q ⟨0, by decide⟩).val :=
  dotP.lhsIdx_val_of_single rfl i q
/-- the right operand at row `q` … -/
theorem dotP_rhs_row (i : S64x1.Idx) (q : dotP.contr.Idx) : (dotP.rhsIdx i q 0).val = (q ⟨0, by decide⟩).val :=
  dotP.rhsIdx_val_of_single rfl i q
/-- … and column `i 1`. -/
theorem dotP_rhs_col (i : S64x1.Idx) (q : dotP.contr.Idx) : (dotP.rhsIdx i q 1).val = (i 1).val := by
  unfold DotDims.rhsIdx
  rw [dif_neg (show ¬(1 : Fin S64x1.rank) ∈ dotP.rhsBatch by decide), dif_pos (show (1 : Fin S64x1.rank) ∈ dotP.rhsNonContracting by decide)]
  rfl

/-- What the one grid point computes, entry by entry: entry `(g, z)` is `Σ_q p(g, q) · w(q, z)` over the 64 hidden
    features plus the scalar bias. The shape casts are to the same shape, the changes of float format are the identity
    on extended reals, the accumulator is zero, and the one-entry bias is broadcast to every row. -/
theorem headBlock_apply (x0 : Vec Ideal S64x64 .f32) (x1 : Vec Ideal S64x1 .f32) (x2 : Vec Ideal S1x1 .f32)
    (g : Fin 64) (z : Fin 1) :
    Gen.k4_pay1 x0 x1 x2 (ix2 g z) = (∑ q : Fin 64, x0 (ix2 g q) * x1 (ix2 q z)) + x2 (ix2 (0 : Fin 1) (0 : Fin 1)) := by
  unfold Gen.k4_pay1
  rw [shapeCast_self, shapeCast_self]
  rw [addf_apply]
  simp only [matmul]
  rw [Ideal.matmul_constant_zero_apply, ← Equiv.sum_comp (contrEquiv1 dotP 64 rfl rfl).symm]
  rw [broadcastTo_apply x2 _ (ix2 g z) (ix2 (0 : Fin 1) (0 : Fin 1)) (fun a => by
    match a with
    | ⟨0, _⟩ => rfl
    | ⟨1, _⟩ => rfl)]
  refine congrArg (· + x2 (ix2 (0 : Fin 1) (0 : Fin 1))) (Finset.sum_congr rfl fun k _ => ?_)
  have hk := contrEquiv1_symm_val dotP 64 rfl rfl k
  have el : dotP.lhsIdx (ix2 g z) ((contrEquiv1 dotP 64 rfl rfl).symm k) = ix2 g k := funext fun a => Fin.ext (by
    match a with
    | ⟨0, _⟩ => exact dotP_lhs_row _ _
    | ⟨1, _⟩ => exact (dotP_lhs_col _ _).trans hk)
  have er : dotP.rhsIdx (ix2 g z) ((contrEquiv1 dotP 64 rfl rfl).symm k) = ix2 k z := funext fun a => Fin.ext (by
    match a with
    | ⟨0, _⟩ => exact (dotP_rhs_row _ _).trans hk
    | ⟨1, _⟩ => exact dotP_rhs_col _ _)
  rw [truncf_apply, truncf_apply, el, er]

/-- The index maps at the one grid point: every window is its whole array. -/
theorem blockIndex4 : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-- The pooled block is the whole pooled matrix. -/
theorem pooledBlock4 (c : Dev nD) (t : Fin cfg4.N) (g : Fin 64) (q : Fin 64) (k : S64x64.Idx)
    (hk0 : (k 0).val = g.val) (hk1 : (k 1).val = q.val) :
    (iblk4 V c 0 t : Vec Ideal S64x64 .f32) (ix2 g q) = (V c (Pipeline.arrRef spec4 0) : S64x64.Idx → EReal) k := by
  obtain ⟨e0, e1, -⟩ := blockIndex4 t
  unfold iblk4
  rw [View.read_apply]
  refine congrArg (V c (Pipeline.arrRef spec4 0)) (funext fun a => Fin.ext ?_)
  match a with
  | ⟨0, _⟩ => show win4_0.index t 0 * 64 + 1 * g.val = (k 0).val; rw [e0, hk0]; omega
  | ⟨1, _⟩ => show win4_0.index t 1 * 64 + 1 * q.val = (k 1).val; rw [e1, hk1]; omega

/-- The weight block is the whole weight column. -/
theorem weightBlock4 (c : Dev nD) (t : Fin cfg4.N) (q : Fin 64) (z : Fin 1) (k : S64x1.Idx)
    (hk0 : (k 0).val = q.val) (hk1 : (k 1).val = z.val) :
    (iblk4 V c 1 t : Vec Ideal S64x1 .f32) (ix2 q z) = (V c (Pipeline.arrRef spec4 1) : S64x1.Idx → EReal) k := by
  obtain ⟨-, -, e2, e3, -⟩ := blockIndex4 t
  unfold iblk4
  rw [View.read_apply]
  refine congrArg (V c (Pipeline.arrRef spec4 1)) (funext fun a => Fin.ext ?_)
  match a with
  | ⟨0, _⟩ => show win4_1.index t 0 * 64 + 1 * q.val = (k 0).val; rw [e2, hk0]; omega
  | ⟨1, _⟩ => show win4_1.index t 1 * 1 + 1 * z.val = (k 1).val; rw [e3, hk1]; omega

/-- The bias block is the one-entry bias. -/
theorem biasBlock4 (c : Dev nD) (t : Fin cfg4.N) :
    (iblk4 V c 2 t : Vec Ideal S1x1 .f32) (ix2 (0 : Fin 1) (0 : Fin 1))
      = (V c (Pipeline.arrRef spec4 2) : S1x1.Idx → EReal) (ix2 (0 : Fin 1) (0 : Fin 1)) := by
  obtain ⟨-, -, -, -, e4, e5, -⟩ := blockIndex4 t
  unfold iblk4
  rw [View.read_apply]
  refine congrArg (V c (Pipeline.arrRef spec4 2)) (funext fun a => Fin.ext ?_)
  match a with
  | ⟨0, _⟩ => show win4_2.index t 0 * 1 + 1 * 0 = 0; rw [e4]
  | ⟨1, _⟩ => show win4_2.index t 1 * 1 + 1 * 0 = 0; rw [e5]

/-- The head read at an index whose column is `z`. -/
theorem head_at (p : Cert.Gcn.Mat 64 64) (Wl : Cert.Gcn.Mat 64 1) (bl : Cert.Gcn.Mat 1 1) (k : S64x1.Idx) (z : Fin 1) (hk : (k 1).val = z.val) :
    Cert.Gcn.head p Wl bl k = (∑ q : Fin 64, p (ix2 (Cert.Gcn.rowOf k) q) * Wl (ix2 q z)) + bl (ix2 (0 : Fin 1) (0 : Fin 1)) := by
  unfold Cert.Gcn.head
  rw [show Cert.Gcn.colOf k = z from Fin.ext hk]

/-- What the one point writes back is the head of the arrays the region found, read through the whole-array block. -/
theorem written4 (c : Dev nD) (t : Fin cfg4.N) :
    (dat4 V c).flushed 3 t = ((cfg4.win 3).blk t).view.read (Elt Ideal)
      (Cert.Gcn.head (V c (Pipeline.arrRef spec4 0)) (V c (Pipeline.arrRef spec4 1)) (V c (Pipeline.arrRef spec4 2))) := by
  show (cfg4.win 3).cut (grid4.coords t) ((dat4 V c).after 3 t) = _
  rw [after4_3]
  unfold out4_3
  rw [View.canon_unit_zero zeroOffsets4]
  simp only [View.ld_unit_zero (S := S64x64) zeroOffsets4, View.ld_unit_zero (S := S64x1) zeroOffsets4, View.ld_unit_zero (S := S1x1) zeroOffsets4]
  obtain ⟨-, -, -, -, -, -, e6, e7⟩ := blockIndex4 t
  funext j
  obtain ⟨g, z, rfl⟩ : ∃ (g : Fin 64) (z : Fin 1), j = ix2 g z := ⟨j 0, j 1, eq_ix2 j⟩
  refine (headBlock_apply (iblk4 V c 0 t) (iblk4 V c 1 t) (iblk4 V c 2 t) g z).trans ?_
  have hk0 : ((((cfg4.win 3).blk t).view.emb (ix2 g z) : S64x1.Idx) 0).val = g.val := by
    show win4_3.index t 0 * 64 + 1 * g.val = _; rw [e6]; omega
  have hk1 : ((((cfg4.win 3).blk t).view.emb (ix2 g z) : S64x1.Idx) 1).val = z.val := by
    show win4_3.index t 1 * 1 + 1 * z.val = _; rw [e7]; omega
  refine Eq.trans ?_ (head_at (V c (Pipeline.arrRef spec4 0)) (V c (Pipeline.arrRef spec4 1)) (V c (Pipeline.arrRef spec4 2))
    (((cfg4.win 3).blk t).view.emb (ix2 g z)) z hk1).symm
  rw [biasBlock4 V c t]
  refine congrArg (· + (V c (Pipeline.arrRef spec4 2) : S1x1.Idx → EReal) (ix2 (0 : Fin 1) (0 : Fin 1))) (Finset.sum_congr rfl fun q _ => ?_)
  rw [pooledBlock4 V c t g q (ix2 (Cert.Gcn.rowOf (((cfg4.win 3).blk t).view.emb (ix2 g z) : S64x1.Idx)) q) hk0 rfl,
    weightBlock4 V c t q z (ix2 q z) rfl rfl]

/-- An index of the result is in the point's block iff each coordinate is in the block's range on its axis. -/
theorem mem_block4 (t : Fin cfg4.N) (i : S64x1.Idx) :
    i ∈ ((cfg4.win 3).blk t).view.set ↔ ∀ a : Fin 2, win4_3.index t a * S64x1.size a ≤ (i a).val ∧ (i a).val < win4_3.index t a * S64x1.size a + S64x1.size a := by
  show i ∈ ((View.whole main_v100).slice (win4_3.rect t)).set ↔ _
  rw [View.set_slice_whole, Rect.mem_set_unit]
  exact Iff.rfl

/-- Every index of the result is written by the one point. -/
theorem covered4 (i : S64x1.Idx) : ∃ t : Fin cfg4.N, (cfg4.win 3).flush t = true ∧ i ∈ ((cfg4.win 3).blk t).view.set := by
  have hi0 : (i 0).val < 64 := idx2_lt0 i
  have hi1 : (i 1).val < 1 := idx2_lt1 i
  have hN : cfg4.N = 1 := rfl
  refine ⟨⟨0, by rw [hN]; omega⟩, flush4_3 _, ?_⟩
  rw [mem_block4]
  obtain ⟨-, -, -, -, -, -, e6, e7⟩ := blockIndex4 ⟨0, by rw [hN]; omega⟩
  intro a
  match a with
  | ⟨0, _⟩ =>
    show win4_3.index _ (0 : Fin 2) * 64 ≤ (i 0).val ∧ (i 0).val < win4_3.index _ (0 : Fin 2) * 64 + 64
    rw [e6]; omega
  | ⟨1, _⟩ =>
    show win4_3.index _ (1 : Fin 2) * 1 ≤ (i 1).val ∧ (i 1).val < win4_3.index _ (1 : Fin 2) * 1 + 1
    rw [e7]; omega

/-- After the one point the result is the pooled features times the weight column plus the scalar bias. -/
theorem final4 (c : Dev nD) :
    ((dat4 V c).arrAt 3 cfg4.N : S64x1.Idx → EReal)
      = Cert.Gcn.head (V c (Pipeline.arrRef spec4 0)) (V c (Pipeline.arrRef spec4 1)) (V c (Pipeline.arrRef spec4 2)) :=
  (dat4 V c).arrAt_eq_of_cover 3
    (Cert.Gcn.head (V c (Pipeline.arrRef spec4 0)) (V c (Pipeline.arrRef spec4 1)) (V c (Pipeline.arrRef spec4 2)))
    (fun t _ => written4 V c t) covered4

end Cert.KernelIdeal.RegionValue

end
-- ==== Proof.KernFold.lean ====
/-
  The idealized kernel's result, read back through the fold of buffer contents as ONE function of the eleven launch
  arrays. The program alternates five stretches of host operations with five regions. Each stretch, from whatever
  contents it is entered with, leaves in the buffers read later a fixed function of the buffers it reads: the edge
  rows, their normalisation and the self-loop weights once, then one aggregation and one bias row per layer, and at
  the end the mean pool and the scalar bias. Each region leaves in its output array the dense stage of its input
  arrays and touches nothing else. Walking the ten boundaries in order, every buffer that a later step reads is
  followed from the boundary where it is written to the boundary where it is read, and the result buffer after the
  last region is the head of the pooled, three times transformed and aggregated node features.
-/
import proofs.«143844_j84628035600885_2_alg».proof.Proof.Gen.KernelIdeal.Frame
import proofs.«143844_j84628035600885_2_alg».proof.Proof.KernStages
import proofs.«143844_j84628035600885_2_alg».proof.Proof.Dense
import proofs.«143844_j84628035600885_2_alg».proof.Proof.Region0
import proofs.«143844_j84628035600885_2_alg».proof.Proof.Region1
import proofs.«143844_j84628035600885_2_alg».proof.Proof.Region2
import proofs.«143844_j84628035600885_2_alg».proof.Proof.Region3
import proofs.«143844_j84628035600885_2_alg».proof.Proof.Region4

noncomputable section

namespace Cert.KernelIdeal.Fold

open Cert.KernelIdeal Cert.KernelIdeal.Gen Idealize.ShloMosaic Idealize.ShloMosaic.TcCoe Idealize.ShloMosaic.StableHlo

/-! ## The kernel's result as one function of the launch arrays -/

/-- The edges' source and target rows, their normalisation and the nodes' self-loop weights, from the edge list. -/
def src (x1 : IVec S2x3200000 32) : IVec S3200000 32 := Stages.edgeRow0 x1
def dst (x1 : IVec S2x3200000 32) : IVec S3200000 32 := Stages.edgeRow1 x1
def nc (x1 : IVec S2x3200000 32) : FVec Ideal S3200000x1 .f32 := Stages.normCol (src x1) (dst x1)
def sc (x1 : IVec S2x3200000 32) : FVec Ideal S100000x1 .f32 := Stages.selfCol (dst x1)

/-- A bias vector as the one-row matrix the dense stages take, and the scalar bias as a one-by-one matrix. -/
def biasRow (b : FVec Ideal S64 .f32) : FVec Ideal S1x64 .f32 := shapeCast S1x64 b shapeCasts_S64_S1x64
def biasCell (b : FVec Ideal S1 .f32) : FVec Ideal S1x1 .f32 := shapeCast S1x1 b shapeCasts_S1_S1x1

/-- The first layer's dense transform, -/
def h1 (x0 : FVec Ideal S100000x128 .f32) (x3 : FVec Ideal S128x64 .f32) : FVec Ideal S100000x64 .bf16 :=
  Cert.Gcn.lin128 x0 x3
/-- its aggregation over the graph, -/
def a1 (x0 : FVec Ideal S100000x128 .f32) (x1 : IVec S2x3200000 32) (x3 : FVec Ideal S128x64 .f32) : FVec Ideal S100000x64 .f32 :=
  Stages.agg (h1 x0 x3) (src x1) (dst x1) (nc x1) (sc x1)
/-- the second layer's dense transform of the first layer's clipped output, -/
def h2 (x0 : FVec Ideal S100000x128 .f32) (x1 : IVec S2x3200000 32) (x3 : FVec Ideal S128x64 .f32) (x4 : FVec Ideal S64 .f32)
    (x5 : FVec Ideal S64x64 .f32) : FVec Ideal S100000x64 .bf16 :=
  Cert.Gcn.lin64 (Cert.Gcn.biasRelu (a1 x0 x1 x3) (biasRow x4)) x5
/-- its aggregation, -/
def a2 (x0 : FVec Ideal S100000x128 .f32) (x1 : IVec S2x3200000 32) (x3 : FVec Ideal S128x64 .f32) (x4 : FVec Ideal S64 .f32)
    (x5 : FVec Ideal S64x64 .f32) : FVec Ideal S100000x64 .f32 :=
  Stages.agg (h2 x0 x1 x3 x4 x5) (src x1) (dst x1) (nc x1) (sc x1)
/-- the third layer's dense transform, -/
def h3 (x0 : FVec Ideal S100000x128 .f32) (x1 : IVec S2x3200000 32) (x3 : FVec Ideal S128x64 .f32) (x4 : FVec Ideal S64 .f32)
    (x5 : FVec Ideal S64x64 .f32) (x6 : FVec Ideal S64 .f32) (x7 : FVec Ideal S64x64 .f32) : FVec Ideal S100000x64 .bf16 :=
  Cert.Gcn.lin64 (Cert.Gcn.biasRelu (a2 x0 x1 x3 x4 x5) (biasRow x6)) x7
/-- its aggregation, -/
def a3 (x0 : FVec Ideal S100000x128 .f32) (x1 : IVec S2x3200000 32) (x3 : FVec Ideal S128x64 .f32) (x4 : FVec Ideal S64 .f32)
    (x5 : FVec Ideal S64x64 .f32) (x6 : FVec Ideal S64 .f32) (x7 : FVec Ideal S64x64 .f32) : FVec Ideal S100000x64 .f32 :=
  Stages.agg (h3 x0 x1 x3 x4 x5 x6 x7) (src x1) (dst x1) (nc x1) (sc x1)
/-- and the head of the mean pool of the third layer's clipped output: the kernel's result. -/
def out (x0 : FVec Ideal S100000x128 .f32) (x1 : IVec S2x3200000 32) (x2 : IVec S100000 32) (x3 : FVec Ideal S128x64 .f32)
    (x4 : FVec Ideal S64 .f32) (x5 : FVec Ideal S64x64 .f32) (x6 : FVec Ideal S64 .f32) (x7 : FVec Ideal S64x64 .f32)
    (x8 : FVec Ideal S64 .f32) (x9 : FVec Ideal S64x1 .f32) (x10 : FVec Ideal S1 .f32) : FVec Ideal S64x1 .f32 :=
  Cert.Gcn.head (Stages.pool (Cert.Gcn.biasRelu (a3 x0 x1 x3 x4 x5 x6 x7) (biasRow x8)) x2) x9 (biasCell x10)

/-! ## The host stretches, from any entry contents: what each leaves in the buffers read later -/

section Stretches

variable (V : Valuation τ sig (Elt Ideal))

/-- The first stretch leaves the edges' source rows, -/
theorem ops0_v1 : (after hostOps0 V (Proc.devRef .tc main_v1) : IVec S3200000 32) = Stages.edgeRow0 (V (Proc.devRef .tc main_arg1)) := by
  after_results_simp
  rfl

/-- the edges' target rows, -/
theorem ops0_v3 : (after hostOps0 V (Proc.devRef .tc main_v3) : IVec S3200000 32) = Stages.edgeRow1 (V (Proc.devRef .tc main_arg1)) := by
  after_results_simp
  rfl

/-- the edges' normalisation -/
theorem ops0_v26 : (after hostOps0 V (Proc.devRef .tc main_v26) : FVec Ideal S3200000x1 .f32) = Stages.normCol (Stages.edgeRow0 (V (Proc.devRef .tc main_arg1))) (Stages.edgeRow1 (V (Proc.devRef .tc main_arg1))) := by
  after_results_simp
  rfl

/-- and the nodes' self-loop weights, all as functions of the edge list; -/
theorem ops0_v28 : (after hostOps0 V (Proc.devRef .tc main_v28) : FVec Ideal S100000x1 .f32) = Stages.selfCol (Stages.edgeRow1 (V (Proc.devRef .tc main_arg1))) := by
  after_results_simp
  rfl

/-! it writes none of the other arguments. -/
theorem ops0_arg0 : after hostOps0 V (Proc.devRef .tc main_arg0) = V (Proc.devRef .tc main_arg0) := by
  after_results_simp

theorem ops0_arg2 : after hostOps0 V (Proc.devRef .tc main_arg2) = V (Proc.devRef .tc main_arg2) := by
  after_results_simp

theorem ops0_arg3 : after hostOps0 V (Proc.devRef .tc main_arg3) = V (Proc.devRef .tc main_arg3) := by
  after_results_simp

theorem ops0_arg4 : after hostOps0 V (Proc.devRef .tc main_arg4) = V (Proc.devRef .tc main_arg4) := by
  after_results_simp

theorem ops0_arg5 : after hostOps0 V (Proc.devRef .tc main_arg5) = V (Proc.devRef .tc main_arg5) := by
  after_results_simp

theorem ops0_arg6 : after hostOps0 V (Proc.devRef .tc main_arg6) = V (Proc.devRef .tc main_arg6) := by
  after_results_simp

theorem ops0_arg7 : after hostOps0 V (Proc.devRef .tc main_arg7) = V (Proc.devRef .tc main_arg7) := by
  after_results_simp

theorem ops0_arg8 : after hostOps0 V (Proc.devRef .tc main_arg8) = V (Proc.devRef .tc main_arg8) := by
  after_results_simp

theorem ops0_arg9 : after hostOps0 V (Proc.devRef .tc main_arg9) = V (Proc.devRef .tc main_arg9) := by
  after_results_simp

theorem ops0_arg10 : after hostOps0 V (Proc.devRef .tc main_arg10) = V (Proc.devRef .tc main_arg10) := by
  after_results_simp

/-- The second stretch leaves the aggregation of the first layer's features -/
theorem ops1_v46 : (after hostOps1 V (Proc.devRef .tc main_v46) : FVec Ideal S100000x64 .f32) = Stages.agg (V (Proc.devRef .tc main_v29)) (V (Proc.devRef .tc main_v1)) (V (Proc.devRef .tc main_v3)) (V (Proc.devRef .tc main_v26)) (V (Proc.devRef .tc main_v28)) := by
  after_results_simp
  rfl

/-- and the first bias as a one-row matrix; -/
theorem ops1_v47 : (after hostOps1 V (Proc.devRef .tc main_v47) : FVec Ideal S1x64 .f32) = shapeCast S1x64 ((V (Proc.devRef .tc main_arg4)) : FVec Ideal S64 .f32) shapeCasts_S64_S1x64 := by
  after_results_simp
  rfl

/-! it writes none of the buffers read later. -/
theorem ops1_arg2 : after hostOps1 V (Proc.devRef .tc main_arg2) = V (Proc.devRef .tc main_arg2) := by
  after_results_simp

theorem ops1_arg5 : after hostOps1 V (Proc.devRef .tc main_arg5) = V (Proc.devRef .tc main_arg5) := by
  after_results_simp

theorem ops1_arg6 : after hostOps1 V (Proc.devRef .tc main_arg6) = V (Proc.devRef .tc main_arg6) := by
  after_results_simp

theorem ops1_arg7 : after hostOps1 V (Proc.devRef .tc main_arg7) = V (Proc.devRef .tc main_arg7) := by
  after_results_simp

theorem ops1_arg8 : after hostOps1 V (Proc.devRef .tc main_arg8) = V (Proc.devRef .tc main_arg8) := by
  after_results_simp

theorem ops1_arg9 : after hostOps1 V (Proc.devRef .tc main_arg9) = V (Proc.devRef .tc main_arg9) := by
  after_results_simp

theorem ops1_arg10 : after hostOps1 V (Proc.devRef .tc main_arg10) = V (Proc.devRef .tc main_arg10) := by
  after_results_simp

theorem ops1_v1 : after hostOps1 V (Proc.devRef .tc main_v1) = V (Proc.devRef .tc main_v1) := by
  after_results_simp

theorem ops1_v3 : after hostOps1 V (Proc.devRef .tc main_v3) = V (Proc.devRef .tc main_v3) := by
  after_results_simp

theorem ops1_v26 : after hostOps1 V (Proc.devRef .tc main_v26) = V (Proc.devRef .tc main_v26) := by
  after_results_simp

theorem ops1_v28 : after hostOps1 V (Proc.devRef .tc main_v28) = V (Proc.devRef .tc main_v28) := by
  after_results_simp

/-- The third stretch leaves the aggregation of the second layer's features -/
theorem ops2_v65 : (after hostOps2 V (Proc.devRef .tc main_v65) : FVec Ideal S100000x64 .f32) = Stages.agg (V (Proc.devRef .tc main_v48)) (V (Proc.devRef .tc main_v1)) (V (Proc.devRef .tc main_v3)) (V (Proc.devRef .tc main_v26)) (V (Proc.devRef .tc main_v28)) := by
  after_results_simp
  rfl

/-- and the second bias as a one-row matrix; -/
theorem ops2_v66 : (after hostOps2 V (Proc.devRef .tc main_v66) : FVec Ideal S1x64 .f32) = shapeCast S1x64 ((V (Proc.devRef .tc main_arg6)) : FVec Ideal S64 .f32) shapeCasts_S64_S1x64 := by
  after_results_simp
  rfl

/-! it writes none of the buffers read later. -/
theorem ops2_arg2 : after hostOps2 V (Proc.devRef .tc main_arg2) = V (Proc.devRef .tc main_arg2) := by
  after_results_simp

theorem ops2_arg7 : after hostOps2 V (Proc.devRef .tc main_arg7) = V (Proc.devRef .tc main_arg7) := by
  after_results_simp

theorem ops2_arg8 : after hostOps2 V (Proc.devRef .tc main_arg8) = V (Proc.devRef .tc main_arg8) := by
  after_results_simp

theorem ops2_arg9 : after hostOps2 V (Proc.devRef .tc main_arg9) = V (Proc.devRef .tc main_arg9) := by
  after_results_simp

theorem ops2_arg10 : after hostOps2 V (Proc.devRef .tc main_arg10) = V (Proc.devRef .tc main_arg10) := by
  after_results_simp

theorem ops2_v1 : after hostOps2 V (Proc.devRef .tc main_v1) = V (Proc.devRef .tc main_v1) := by
  after_results_simp

theorem ops2_v3 : after hostOps2 V (Proc.devRef .tc main_v3) = V (Proc.devRef .tc main_v3) := by
  after_results_simp

theorem ops2_v26 : after hostOps2 V (Proc.devRef .tc main_v26) = V (Proc.devRef .tc main_v26) := by
  after_results_simp

theorem ops2_v28 : after hostOps2 V (Proc.devRef .tc main_v28) = V (Proc.devRef .tc main_v28) := by
  after_results_simp

/-- The fourth stretch leaves the aggregation of the third layer's features -/
theorem ops3_v84 : (after hostOps3 V (Proc.devRef .tc main_v84) : FVec Ideal S100000x64 .f32) = Stages.agg (V (Proc.devRef .tc main_v67)) (V (Proc.devRef .tc main_v1)) (V (Proc.devRef .tc main_v3)) (V (Proc.devRef .tc main_v26)) (V (Proc.devRef .tc main_v28)) := by
  after_results_simp
  rfl

/-- and the third bias as a one-row matrix; -/
theorem ops3_v85 : (after hostOps3 V (Proc.devRef .tc main_v85) : FVec Ideal S1x64 .f32) = shapeCast S1x64 ((V (Proc.devRef .tc main_arg8)) : FVec Ideal S64 .f32) shapeCasts_S64_S1x64 := by
  after_results_simp
  rfl

/-! it writes none of the buffers read later. -/
theorem ops3_arg2 : after hostOps3 V (Proc.devRef .tc main_arg2) = V (Proc.devRef .tc main_arg2) := by
  after_results_simp

theorem ops3_arg9 : after hostOps3 V (Proc.devRef .tc main_arg9) = V (Proc.devRef .tc main_arg9) := by
  after_results_simp

theorem ops3_arg10 : after hostOps3 V (Proc.devRef .tc main_arg10) = V (Proc.devRef .tc main_arg10) := by
  after_results_simp

/-- The fifth stretch leaves the mean pool of the node features over the graph ids -/
theorem ops4_v98 : (after hostOps4 V (Proc.devRef .tc main_v98) : FVec Ideal S64x64 .f32) = Stages.pool (V (Proc.devRef .tc main_v86)) (V (Proc.devRef .tc main_arg2)) := by
  after_results_simp
  rfl

/-- and the scalar bias as a one-by-one matrix; -/
theorem ops4_v99 : (after hostOps4 V (Proc.devRef .tc main_v99) : FVec Ideal S1x1 .f32) = shapeCast S1x1 ((V (Proc.devRef .tc main_arg10)) : FVec Ideal S1 .f32) shapeCasts_S1_S1x1 := by
  after_results_simp
  rfl

/-! it does not write the head's weight. -/
theorem ops4_arg9 : after hostOps4 V (Proc.devRef .tc main_arg9) = V (Proc.devRef .tc main_arg9) := by
  after_results_simp

end Stretches

/-! ## The fold of buffer contents, boundary by boundary, at the buffers read later -/

section Fold

variable (m : (ℓ : Loc nD τ sig) → Buf (Elt Ideal) ℓ) (ρ : Dev nD → PrngReg) (c : Dev nD)

/-! ### At the first region's entry -/
theorem W1_arg0 : (W1 m ρ c (Proc.devRef .tc main_arg0) : FVec Ideal S100000x128 .f32) = (m ((c : Thread nD τ).loc main_arg0)) := ops0_arg0 (W0 m ρ c)
theorem W1_arg2 : (W1 m ρ c (Proc.devRef .tc main_arg2) : IVec S100000 32) = (m ((c : Thread nD τ).loc main_arg2)) := ops0_arg2 (W0 m ρ c)
theorem W1_arg3 : (W1 m ρ c (Proc.devRef .tc main_arg3) : FVec Ideal S128x64 .f32) = (m ((c : Thread nD τ).loc main_arg3)) := ops0_arg3 (W0 m ρ c)
theorem W1_arg4 : (W1 m ρ c (Proc.devRef .tc main_arg4) : FVec Ideal S64 .f32) = (m ((c : Thread nD τ).loc main_arg4)) := ops0_arg4 (W0 m ρ c)
theorem W1_arg5 : (W1 m ρ c (Proc.devRef .tc main_arg5) : FVec Ideal S64x64 .f32) = (m ((c : Thread nD τ).loc main_arg5)) := ops0_arg5 (W0 m ρ c)
theorem W1_arg6 : (W1 m ρ c (Proc.devRef .tc main_arg6) : FVec Ideal S64 .f32) = (m ((c : Thread nD τ).loc main_arg6)) := ops0_arg6 (W0 m ρ c)
theorem W1_arg7 : (W1 m ρ c (Proc.devRef .tc main_arg7) : FVec Ideal S64x64 .f32) = (m ((c : Thread nD τ).loc main_arg7)) := ops0_arg7 (W0 m ρ c)
theorem W1_arg8 : (W1 m ρ c (Proc.devRef .tc main_arg8) : FVec Ideal S64 .f32) = (m ((c : Thread nD τ).loc main_arg8)) := ops0_arg8 (W0 m ρ c)
theorem W1_arg9 : (W1 m ρ c (Proc.devRef .tc main_arg9) : FVec Ideal S64x1 .f32) = (m ((c : Thread nD τ).loc main_arg9)) := ops0_arg9 (W0 m ρ c)
theorem W1_arg10 : (W1 m ρ c (Proc.devRef .tc main_arg10) : FVec Ideal S1 .f32) = (m ((c : Thread nD τ).loc main_arg10)) := ops0_arg10 (W0 m ρ c)
theorem W1_v1 : (W1 m ρ c (Proc.devRef .tc main_v1) : IVec S3200000 32) = src (m ((c : Thread nD τ).loc main_arg1)) := ops0_v1 (W0 m ρ c)
theorem W1_v3 : (W1 m ρ c (Proc.devRef .tc main_v3) : IVec S3200000 32) = dst (m ((c : Thread nD τ).loc main_arg1)) := ops0_v3 (W0 m ρ c)
theorem W1_v26 : (W1 m ρ c (Proc.devRef .tc main_v26) : FVec Ideal S3200000x1 .f32) = nc (m ((c : Thread nD τ).loc main_arg1)) := ops0_v26 (W0 m ρ c)
theorem W1_v28 : (W1 m ρ c (Proc.devRef .tc main_v28) : FVec Ideal S100000x1 .f32) = sc (m ((c : Thread nD τ).loc main_arg1)) := ops0_v28 (W0 m ρ c)

/-! ### After the first region: the first layer's dense transform -/
theorem W2_v29 : (W2 m ρ c (Proc.devRef .tc main_v29) : FVec Ideal S100000x64 .bf16) = h1 (m ((c : Thread nD τ).loc main_arg0)) (m ((c : Thread nD τ).loc main_arg3)) := by
  refine ((W2_arr m ρ c 2).trans (RegionValue.final0 (V1 m ρ) c)).trans ?_
  show Cert.Gcn.lin128 (W1 m ρ c (Proc.devRef .tc main_arg0)) (W1 m ρ c (Proc.devRef .tc main_arg3)) = _
  rw [W1_arg0, W1_arg3]
  rfl
theorem W2_arg2 : (W2 m ρ c (Proc.devRef .tc main_arg2) : IVec S100000 32) = (m ((c : Thread nD τ).loc main_arg2)) :=
  (W2_of_ne m ρ c main_arg2 (by decide)).trans (W1_arg2 m ρ c)
theorem W2_arg4 : (W2 m ρ c (Proc.devRef .tc main_arg4) : FVec Ideal S64 .f32) = (m ((c : Thread nD τ).loc main_arg4)) :=
  (W2_of_ne m ρ c main_arg4 (by decide)).trans (W1_arg4 m ρ c)
theorem W2_arg5 : (W2 m ρ c (Proc.devRef .tc main_arg5) : FVec Ideal S64x64 .f32) = (m ((c : Thread nD τ).loc main_arg5)) :=
  (W2_of_ne m ρ c main_arg5 (by decide)).trans (W1_arg5 m ρ c)
theorem W2_arg6 : (W2 m ρ c (Proc.devRef .tc main_arg6) : FVec Ideal S64 .f32) = (m ((c : Thread nD τ).loc main_arg6)) :=
  (W2_of_ne m ρ c main_arg6 (by decide)).trans (W1_arg6 m ρ c)
theorem W2_arg7 : (W2 m ρ c (Proc.devRef .tc main_arg7) : FVec Ideal S64x64 .f32) = (m ((c : Thread nD τ).loc main_arg7)) :=
  (W2_of_ne m ρ c main_arg7 (by decide)).trans (W1_arg7 m ρ c)
theorem W2_arg8 : (W2 m ρ c (Proc.devRef .tc main_arg8) : FVec Ideal S64 .f32) = (m ((c : Thread nD τ).loc main_arg8)) :=
  (W2_of_ne m ρ c main_arg8 (by decide)).trans (W1_arg8 m ρ c)
theorem W2_arg9 : (W2 m ρ c (Proc.devRef .tc main_arg9) : FVec Ideal S64x1 .f32) = (m ((c : Thread nD τ).loc main_arg9)) :=
  (W2_of_ne m ρ c main_arg9 (by decide)).trans (W1_arg9 m ρ c)
theorem W2_arg10 : (W2 m ρ c (Proc.devRef .tc main_arg10) : FVec Ideal S1 .f32) = (m ((c : Thread nD τ).loc main_arg10)) :=
  (W2_of_ne m ρ c main_arg10 (by decide)).trans (W1_arg10 m ρ c)
theorem W2_v1 : (W2 m ρ c (Proc.devRef .tc main_v1) : IVec S3200000 32) = src (m ((c : Thread nD τ).loc main_arg1)) :=
  (W2_of_ne m ρ c main_v1 (by decide)).trans (W1_v1 m ρ c)
theorem W2_v3 : (W2 m ρ c (Proc.devRef .tc main_v3) : IVec S3200000 32) = dst (m ((c : Thread nD τ).loc main_arg1)) :=
  (W2_of_ne m ρ c main_v3 (by decide)).trans (W1_v3 m ρ c)
theorem W2_v26 : (W2 m ρ c (Proc.devRef .tc main_v26) : FVec Ideal S3200000x1 .f32) = nc (m ((c : Thread nD τ).loc main_arg1)) :=
  (W2_of_ne m ρ c main_v26 (by decide)).trans (W1_v26 m ρ c)
theorem W2_v28 : (W2 m ρ c (Proc.devRef .tc main_v28) : FVec Ideal S100000x1 .f32) = sc (m ((c : Thread nD τ).loc main_arg1)) :=
  (W2_of_ne m ρ c main_v28 (by decide)).trans (W1_v28 m ρ c)

/-! ### At the second region's entry: the aggregation and the bias row -/
theorem W3_v46 : (W3 m ρ c (Proc.devRef .tc main_v46) : FVec Ideal S100000x64 .f32) = a1 (m ((c : Thread nD τ).loc main_arg0)) (m ((c : Thread nD τ).loc main_arg1)) (m ((c : Thread nD τ).loc main_arg3)) := by
  refine (ops1_v46 (W2 m ρ c)).trans ?_
  rw [W2_v29, W2_v1, W2_v3, W2_v26, W2_v28]
  rfl
theorem W3_v47 : (W3 m ρ c (Proc.devRef .tc main_v47) : FVec Ideal S1x64 .f32) = biasRow (m ((c : Thread nD τ).loc main_arg4)) := by
  refine (ops1_v47 (W2 m ρ c)).trans ?_
  rw [W2_arg4]
  rfl
theorem W3_arg2 : (W3 m ρ c (Proc.devRef .tc main_arg2) : IVec S100000 32) = (m ((c : Thread nD τ).loc main_arg2)) :=
  (ops1_arg2 (W2 m ρ c)).trans (W2_arg2 m ρ c)
theorem W3_arg5 : (W3 m ρ c (Proc.devRef .tc main_arg5) : FVec Ideal S64x64 .f32) = (m ((c : Thread nD τ).loc main_arg5)) :=
  (ops1_arg5 (W2 m ρ c)).trans (W2_arg5 m ρ c)
theorem W3_arg6 : (W3 m ρ c (Proc.devRef .tc main_arg6) : FVec Ideal S64 .f32) = (m ((c : Thread nD τ).loc main_arg6)) :=
  (ops1_arg6 (W2 m ρ c)).trans (W2_arg6 m ρ c)
theorem W3_arg7 : (W3 m ρ c (Proc.devRef .tc main_arg7) : FVec Ideal S64x64 .f32) = (m ((c : Thread nD τ).loc main_arg7)) :=
  (ops1_arg7 (W2 m ρ c)).trans (W2_arg7 m ρ c)
theorem W3_arg8 : (W3 m ρ c (Proc.devRef .tc main_arg8) : FVec Ideal S64 .f32) = (m ((c : Thread nD τ).loc main_arg8)) :=
  (ops1_arg8 (W2 m ρ c)).trans (W2_arg8 m ρ c)
theorem W3_arg9 : (W3 m ρ c (Proc.devRef .tc main_arg9) : FVec Ideal S64x1 .f32) = (m ((c : Thread nD τ).loc main_arg9)) :=
  (ops1_arg9 (W2 m ρ c)).trans (W2_arg9 m ρ c)
theorem W3_arg10 : (W3 m ρ c (Proc.devRef .tc main_arg10) : FVec Ideal S1 .f32) = (m ((c : Thread nD τ).loc main_arg10)) :=
  (ops1_arg10 (W2 m ρ c)).trans (W2_arg10 m ρ c)
theorem W3_v1 : (W3 m ρ c (Proc.devRef .tc main_v1) : IVec S3200000 32) = src (m ((c : Thread nD τ).loc main_arg1)) :=
  (ops1_v1 (W2 m ρ c)).trans (W2_v1 m ρ c)
theorem W3_v3 : (W3 m ρ c (Proc.devRef .tc main_v3) : IVec S3200000 32) = dst (m ((c : Thread nD τ).loc main_arg1)) :=
  (ops1_v3 (W2 m ρ c)).trans (W2_v3 m ρ c)
theorem W3_v26 : (W3 m ρ c (Proc.devRef .tc main_v26) : FVec Ideal S3200000x1 .f32) = nc (m ((c : Thread nD τ).loc main_arg1)) :=
  (ops1_v26 (W2 m ρ c)).trans (W2_v26 m ρ c)
theorem W3_v28 : (W3 m ρ c (Proc.devRef .tc main_v28) : FVec Ideal S100000x1 .f32) = sc (m ((c : Thread nD τ).loc main_arg1)) :=
  (ops1_v28 (W2 m ρ c)).trans (W2_v28 m ρ c)

/-! ### After the second region: the second layer's dense transform -/
theorem W4_v48 : (W4 m ρ c (Proc.devRef .tc main_v48) : FVec Ideal S100000x64 .bf16) = h2 (m ((c : Thread nD τ).loc main_arg0)) (m ((c : Thread nD τ).loc main_arg1)) (m ((c : Thread nD τ).loc main_arg3)) (m ((c : Thread nD τ).loc main_arg4)) (m ((c : Thread nD τ).loc main_arg5)) := by
  refine ((W4_arr m ρ c 3).trans (RegionValue.final1 (V3 m ρ) c)).trans ?_
  show Cert.Gcn.lin64 (Cert.Gcn.biasRelu (W3 m ρ c (Proc.devRef .tc main_v46)) (W3 m ρ c (Proc.devRef .tc main_v47))) (W3 m ρ c (Proc.devRef .tc main_arg5)) = _
  rw [W3_v46, W3_v47, W3_arg5]
  rfl
theorem W4_arg2 : (W4 m ρ c (Proc.devRef .tc main_arg2) : IVec S100000 32) = (m ((c : Thread nD τ).loc main_arg2)) :=
  (W4_of_ne m ρ c main_arg2 (by decide)).trans (W3_arg2 m ρ c)
theorem W4_arg6 : (W4 m ρ c (Proc.devRef .tc main_arg6) : FVec Ideal S64 .f32) = (m ((c : Thread nD τ).loc main_arg6)) :=
  (W4_of_ne m ρ c main_arg6 (by decide)).trans (W3_arg6 m ρ c)
theorem W4_arg7 : (W4 m ρ c (Proc.devRef .tc main_arg7) : FVec Ideal S64x64 .f32) = (m ((c : Thread nD τ).loc main_arg7)) :=
  (W4_of_ne m ρ c main_arg7 (by decide)).trans (W3_arg7 m ρ c)
theorem W4_arg8 : (W4 m ρ c (Proc.devRef .tc main_arg8) : FVec Ideal S64 .f32) = (m ((c : Thread nD τ).loc main_arg8)) :=
  (W4_of_ne m ρ c main_arg8 (by decide)).trans (W3_arg8 m ρ c)
theorem W4_arg9 : (W4 m ρ c (Proc.devRef .tc main_arg9) : FVec Ideal S64x1 .f32) = (m ((c : Thread nD τ).loc main_arg9)) :=
  (W4_of_ne m ρ c main_arg9 (by decide)).trans (W3_arg9 m ρ c)
theorem W4_arg10 : (W4 m ρ c (Proc.devRef .tc main_arg10) : FVec Ideal S1 .f32) = (m ((c : Thread nD τ).loc main_arg10)) :=
  (W4_of_ne m ρ c main_arg10 (by decide)).trans (W3_arg10 m ρ c)
theorem W4_v1 : (W4 m ρ c (Proc.devRef .tc main_v1) : IVec S3200000 32) = src (m ((c : Thread nD τ).loc main_arg1)) :=
  (W4_of_ne m ρ c main_v1 (by decide)).trans (W3_v1 m ρ c)
theorem W4_v3 : (W4 m ρ c (Proc.devRef .tc main_v3) : IVec S3200000 32) = dst (m ((c : Thread nD τ).loc main_arg1)) :=
  (W4_of_ne m ρ c main_v3 (by decide)).trans (W3_v3 m ρ c)
theorem W4_v26 : (W4 m ρ c (Proc.devRef .tc main_v26) : FVec Ideal S3200000x1 .f32) = nc (m ((c : Thread nD τ).loc main_arg1)) :=
  (W4_of_ne m ρ c main_v26 (by decide)).trans (W3_v26 m ρ c)
theorem W4_v28 : (W4 m ρ c (Proc.devRef .tc main_v28) : FVec Ideal S100000x1 .f32) = sc (m ((c : Thread nD τ).loc main_arg1)) :=
  (W4_of_ne m ρ c main_v28 (by decide)).trans (W3_v28 m ρ c)

/-! ### At the third region's entry -/
theorem W5_v65 : (W5 m ρ c (Proc.devRef .tc main_v65) : FVec Ideal S100000x64 .f32) = a2 (m ((c : Thread nD τ).loc main_arg0)) (m ((c : Thread nD τ).loc main_arg1)) (m ((c : Thread nD τ).loc main_arg3)) (m ((c : Thread nD τ).loc main_arg4)) (m ((c : Thread nD τ).loc main_arg5)) := by
  refine (ops2_v65 (W4 m ρ c)).trans ?_
  rw [W4_v48, W4_v1, W4_v3, W4_v26, W4_v28]
  rfl
theorem W5_v66 : (W5 m ρ c (Proc.devRef .tc main_v66) : FVec Ideal S1x64 .f32) = biasRow (m ((c : Thread nD τ).loc main_arg6)) := by
  refine (ops2_v66 (W4 m ρ c)).trans ?_
  rw [W4_arg6]
  rfl
theorem W5_arg2 : (W5 m ρ c (Proc.devRef .tc main_arg2) : IVec S100000 32) = (m ((c : Thread nD τ).loc main_arg2)) :=
  (ops2_arg2 (W4 m ρ c)).trans (W4_arg2 m ρ c)
theorem W5_arg7 : (W5 m ρ c (Proc.devRef .tc main_arg7) : FVec Ideal S64x64 .f32) = (m ((c : Thread nD τ).loc main_arg7)) :=
  (ops2_arg7 (W4 m ρ c)).trans (W4_arg7 m ρ c)
theorem W5_arg8 : (W5 m ρ c (Proc.devRef .tc main_arg8) : FVec Ideal S64 .f32) = (m ((c : Thread nD τ).loc main_arg8)) :=
  (ops2_arg8 (W4 m ρ c)).trans (W4_arg8 m ρ c)
theorem W5_arg9 : (W5 m ρ c (Proc.devRef .tc main_arg9) : FVec Ideal S64x1 .f32) = (m ((c : Thread nD τ).loc main_arg9)) :=
  (ops2_arg9 (W4 m ρ c)).trans (W4_arg9 m ρ c)
theorem W5_arg10 : (W5 m ρ c (Proc.devRef .tc main_arg10) : FVec Ideal S1 .f32) = (m ((c : Thread nD τ).loc main_arg10)) :=
  (ops2_arg10 (W4 m ρ c)).trans (W4_arg10 m ρ c)
theorem W5_v1 : (W5 m ρ c (Proc.devRef .tc main_v1) : IVec S3200000 32) = src (m ((c : Thread nD τ).loc main_arg1)) :=
  (ops2_v1 (W4 m ρ c)).trans (W4_v1 m ρ c)
theorem W5_v3 : (W5 m ρ c (Proc.devRef .tc main_v3) : IVec S3200000 32) = dst (m ((c : Thread nD τ).loc main_arg1)) :=
  (ops2_v3 (W4 m ρ c)).trans (W4_v3 m ρ c)
theorem W5_v26 : (W5 m ρ c (Proc.devRef .tc main_v26) : FVec Ideal S3200000x1 .f32) = nc (m ((c : Thread nD τ).loc main_arg1)) :=
  (ops2_v26 (W4 m ρ c)).trans (W4_v26 m ρ c)
theorem W5_v28 : (W5 m ρ c (Proc.devRef .tc main_v28) : FVec Ideal S100000x1 .f32) = sc (m ((c : Thread nD τ).loc main_arg1)) :=
  (ops2_v28 (W4 m ρ c)).trans (W4_v28 m ρ c)

/-! ### After the third region: the third layer's dense transform -/
theorem W6_v67 : (W6 m ρ c (Proc.devRef .tc main_v67) : FVec Ideal S100000x64 .bf16) = h3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine ((W6_arr m ρ c 3).trans (RegionValue.final2 (V5 m ρ) c)).trans ?_
  show Cert.Gcn.lin64 (Cert.Gcn.biasRelu (W5 m ρ c (Proc.devRef .tc main_v65)) (W5 m ρ c (Proc.devRef .tc main_v66))) (W5 m ρ c (Proc.devRef .tc main_arg7)) = _
  rw [W5_v65, W5_v66, W5_arg7]
  rfl
theorem W6_arg2 : (W6 m ρ c (Proc.devRef .tc main_arg2) : IVec S100000 32) = (m ((c : Thread nD τ).loc main_arg2)) :=
  (W6_of_ne m ρ c main_arg2 (by decide)).trans (W5_arg2 m ρ c)
theorem W6_arg8 : (W6 m ρ c (Proc.devRef .tc main_arg8) : FVec Ideal S64 .f32) = (m ((c : Thread nD τ).loc main_arg8)) :=
  (W6_of_ne m ρ c main_arg8 (by decide)).trans (W5_arg8 m ρ c)
theorem W6_arg9 : (W6 m ρ c (Proc.devRef .tc main_arg9) : FVec Ideal S64x1 .f32) = (m ((c : Thread nD τ).loc main_arg9)) :=
  (W6_of_ne m ρ c main_arg9 (by decide)).trans (W5_arg9 m ρ c)
theorem W6_arg10 : (W6 m ρ c (Proc.devRef .tc main_arg10) : FVec Ideal S1 .f32) = (m ((c : Thread nD τ).loc main_arg10)) :=
  (W6_of_ne m ρ c main_arg10 (by decide)).trans (W5_arg10 m ρ c)
theorem W6_v1 : (W6 m ρ c (Proc.devRef .tc main_v1) : IVec S3200000 32) = src (m ((c : Thread nD τ).loc main_arg1)) :=
  (W6_of_ne m ρ c main_v1 (by decide)).trans (W5_v1 m ρ c)
theorem W6_v3 : (W6 m ρ c (Proc.devRef .tc main_v3) : IVec S3200000 32) = dst (m ((c : Thread nD τ).loc main_arg1)) :=
  (W6_of_ne m ρ c main_v3 (by decide)).trans (W5_v3 m ρ c)
theorem W6_v26 : (W6 m ρ c (Proc.devRef .tc main_v26) : FVec Ideal S3200000x1 .f32) = nc (m ((c : Thread nD τ).loc main_arg1)) :=
  (W6_of_ne m ρ c main_v26 (by decide)).trans (W5_v26 m ρ c)
theorem W6_v28 : (W6 m ρ c (Proc.devRef .tc main_v28) : FVec Ideal S100000x1 .f32) = sc (m ((c : Thread nD τ).loc main_arg1)) :=
  (W6_of_ne m ρ c main_v28 (by decide)).trans (W5_v28 m ρ c)

/-! ### At the fourth region's entry -/
theorem W7_v84 : (W7 m ρ c (Proc.devRef .tc main_v84) : FVec Ideal S100000x64 .f32) = a3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (ops3_v84 (W6 m ρ c)).trans ?_
  rw [W6_v67, W6_v1, W6_v3, W6_v26, W6_v28]
  rfl
theorem W7_v85 : (W7 m ρ c (Proc.devRef .tc main_v85) : FVec Ideal S1x64 .f32) = biasRow (m ((c : Thread nD τ).loc main_arg8)) := by
  refine (ops3_v85 (W6 m ρ c)).trans ?_
  rw [W6_arg8]
  rfl
theorem W7_arg2 : (W7 m ρ c (Proc.devRef .tc main_arg2) : IVec S100000 32) = (m ((c : Thread nD τ).loc main_arg2)) :=
  (ops3_arg2 (W6 m ρ c)).trans (W6_arg2 m ρ c)
theorem W7_arg9 : (W7 m ρ c (Proc.devRef .tc main_arg9) : FVec Ideal S64x1 .f32) = (m ((c : Thread nD τ).loc main_arg9)) :=
  (ops3_arg9 (W6 m ρ c)).trans (W6_arg9 m ρ c)
theorem W7_arg10 : (W7 m ρ c (Proc.devRef .tc main_arg10) : FVec Ideal S1 .f32) = (m ((c : Thread nD τ).loc main_arg10)) :=
  (ops3_arg10 (W6 m ρ c)).trans (W6_arg10 m ρ c)

/-! ### After the fourth region: the third layer's clipped output -/
theorem W8_v86 : (W8 m ρ c (Proc.devRef .tc main_v86) : FVec Ideal S100000x64 .f32) = Cert.Gcn.biasRelu (a3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (biasRow (m ((c : Thread nD τ).loc main_arg8))) := by
  refine ((W8_arr m ρ c 2).trans (RegionValue.final3 (V7 m ρ) c)).trans ?_
  show Cert.Gcn.biasRelu (W7 m ρ c (Proc.devRef .tc main_v84)) (W7 m ρ c (Proc.devRef .tc main_v85)) = _
  rw [W7_v84, W7_v85]
theorem W8_arg2 : (W8 m ρ c (Proc.devRef .tc main_arg2) : IVec S100000 32) = (m ((c : Thread nD τ).loc main_arg2)) :=
  (W8_of_ne m ρ c main_arg2 (by decide)).trans (W7_arg2 m ρ c)
theorem W8_arg9 : (W8 m ρ c (Proc.devRef .tc main_arg9) : FVec Ideal S64x1 .f32) = (m ((c : Thread nD τ).loc main_arg9)) :=
  (W8_of_ne m ρ c main_arg9 (by decide)).trans (W7_arg9 m ρ c)
theorem W8_arg10 : (W8 m ρ c (Proc.devRef .tc main_arg10) : FVec Ideal S1 .f32) = (m ((c : Thread nD τ).loc main_arg10)) :=
  (W8_of_ne m ρ c main_arg10 (by decide)).trans (W7_arg10 m ρ c)

/-! ### At the fifth region's entry: the mean pool and the scalar bias -/
theorem W9_v98 : (W9 m ρ c (Proc.devRef .tc main_v98) : FVec Ideal S64x64 .f32) = Stages.pool (Cert.Gcn.biasRelu (a3 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (biasRow (m ((c : Thread nD τ).loc main_arg8)))) (m ((c : Thread nD τ).loc main_arg2)) := by
  refine (ops4_v98 (W8 m ρ c)).trans ?_
  rw [W8_v86, W8_arg2]
theorem W9_v99 : (W9 m ρ c (Proc.devRef .tc main_v99) : FVec Ideal S1x1 .f32) = biasCell (m ((c : Thread nD τ).loc main_arg10)) := by
  refine (ops4_v99 (W8 m ρ c)).trans ?_
  rw [W8_arg10]
  rfl
theorem W9_arg9 : (W9 m ρ c (Proc.devRef .tc main_arg9) : FVec Ideal S64x1 .f32) = (m ((c : Thread nD τ).loc main_arg9)) :=
  (ops4_arg9 (W8 m ρ c)).trans (W8_arg9 m ρ c)

/-! ### After the fifth region: the result -/

/-- The result buffer at the last boundary of the fold is the network's output as one function of the eleven
    launch arrays. -/
theorem result_eq : (W10 m ρ c (Proc.devRef .tc main_v100) : FVec Ideal S64x1 .f32) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine ((W10_arr m ρ c 3).trans (RegionValue.final4 (V9 m ρ) c)).trans ?_
  show Cert.Gcn.head (W9 m ρ c (Proc.devRef .tc main_v98)) (W9 m ρ c (Proc.devRef .tc main_arg9)) (W9 m ρ c (Proc.devRef .tc main_v99)) = _
  rw [W9_v98, W9_arg9, W9_v99]
  rfl

end Fold
end Cert.KernelIdeal.Fold

end
-- ==== Proof.LibColumns.lean ====
/-
  General lemmas: the two broadcasts that carry a per-row quantity into a matrix, read at an index. A vector of length
  `n` seen as an `[n, 1]` column reads the vector at the row; an `[n, 1]` column spread over `c` columns reads the
  column at the row, whatever the column asked for.
-/
import Idealize.ShloMosaic.PureOps.Ideal
import Idealize.ShloMosaic.Lib.ValueIdx
import Idealize.ShloMosaic.Lib.Pipeline.Value

noncomputable section

namespace Idealize.ShloMosaic.RowIndexing

open Idealize.ShloMosaic Idealize.ShloMosaic.ValueIdx

variable {α : Type}

/-- Entry `(e, 0)` of a vector seen as a column is the vector's entry `e`. -/
theorem column_apply {n : Nat} (h : (⟨1, ![n]⟩ : Shape).BroadcastsInDim ⟨2, ![n, 1]⟩ ![0])
    (y : (⟨1, ![n]⟩ : Shape).Idx → α) (e : Fin n) (z : Fin 1) :
    broadcastInDim ⟨2, ![n, 1]⟩ ![0] h y (ix2 e z) = y (ix1 e) :=
  broadcastInDim_apply _ h y _ (ix1 e) (fun a => by
    obtain rfl : a = 0 := Subsingleton.elim _ _
    show e.val = if n = 1 then 0 else e.val
    split
    · have := e.isLt; omega
    · rfl)

/-- Entry `(e, f)` of a column spread over `c` columns is the column's entry `(e, 0)`. -/
theorem spread_apply {n c : Nat} (h : (⟨2, ![n, 1]⟩ : Shape).BroadcastsInDim ⟨2, ![n, c]⟩ ![0, 1])
    (y : (⟨2, ![n, 1]⟩ : Shape).Idx → α) (e : Fin n) (f : Fin c) :
    broadcastInDim ⟨2, ![n, c]⟩ ![0, 1] h y (ix2 e f) = y (ix2 e (0 : Fin 1)) :=
  broadcastInDim_apply _ h y _ (ix2 e (0 : Fin 1)) (fun a => by
    match a with
    | ⟨0, _⟩ =>
      show e.val = if n = 1 then 0 else e.val
      split
      · have := e.isLt; omega
      · rfl
    | ⟨1, _⟩ =>
      show (0 : ℕ) = if (1 : ℕ) = 1 then 0 else f.val
      rfl)

end Idealize.ShloMosaic.RowIndexing

end
-- ==== Proof.AggregateAt.lean ====
/-
  The aggregation of one layer at explicit coordinates: entry `(r, f)` of the aggregated matrix, with the node and the
  feature as numbers rather than as the coordinates of a matrix index.
-/
import proofs.«143844_j84628035600885_2_alg».proof.Proof.Aggregate

noncomputable section

open scoped BigOperators

namespace Cert.Gcn

open Idealize.ShloMosaic Idealize.ShloMosaic.ValueIdx

/-- Entry `(r, f)` of one layer's aggregation of `h`: the edges landing on `r`, then `r`'s self-loop. -/
def aggregateAt (src dst : Fin 3200000 → BitVec 32) (h : Mat 100000 64) (r : Fin 100000) (f : Fin 64) : EReal :=
  (∑ e : Fin 3200000, if (dst e).toInt = ((r.val : ℕ) : Int)
      then h (ix2 (gatherRow (src e)) f) * edgeWeight src dst e else 0)
    + dinv dst r * dinv dst r * h (ix2 r f)

theorem aggregate_apply (src dst : Fin 3200000 → BitVec 32) (h : Mat 100000 64) (r : Fin 100000) (f : Fin 64) :
    aggregate src dst h (ix2 r f) = aggregateAt src dst h r f := rfl

/-- The aggregated matrix is determined by its entries at explicit coordinates. -/
theorem aggregate_ext (src dst : Fin 3200000 → BitVec 32) (h : Mat 100000 64) (A : Mat 100000 64)
    (hA : ∀ (r : Fin 100000) (f : Fin 64), A (ix2 r f) = aggregateAt src dst h r f) : A = aggregate src dst h := by
  funext j
  obtain ⟨r, f, rfl⟩ : ∃ (r : Fin 100000) (f : Fin 64), j = ix2 r f := ⟨j 0, j 1, eq_ix2 j⟩
  rw [hA, aggregate_apply]

end Cert.Gcn

end
-- ==== Proof.KernAggregate.lean ====
/-
  The kernel's aggregation stages read at an index: the degree of node `k` is the number of edges landing on it plus one,
  the stored reciprocal square root is that of the degree, and a layer's aggregation at `(r, f)` is the sum over the
  edges landing on `r` of the gathered source row's entry times the edge's normalisation, plus the self-loop weight
  times the node's own entry.
-/
import proofs.«143844_j84628035600885_2_alg».proof.Proof.KernStages
import proofs.«143844_j84628035600885_2_alg».proof.Proof.LibColumns
import proofs.«143844_j84628035600885_2_alg».proof.Proof.AggregateAt

noncomputable section

open scoped BigOperators

namespace Cert.KernelIdeal.Stages

open Cert.KernelIdeal Cert.KernelIdeal.Gen
open Idealize.ShloMosaic Idealize.ShloMosaic.TcCoe Idealize.ShloMosaic.ValueIdx Idealize.ShloMosaic.RowIndexing

/-- A vector of row numbers as the function of the edge number the specification takes. -/
abbrev rows (v : IVec S3200000 32) : Fin 3200000 → BitVec 32 := fun e => v (ix1 e)

theorem wrapE_apply (v : IVec S3200000 32) (e : Fin 3200000) : wrapE v (ix1 e) = Cert.Gcn.wrapRow (v (ix1 e)) := rfl

theorem colE_apply (v : IVec S3200000 32) (e : Fin 3200000) (z : Fin 1) : colE v (ix2 e z) = v (ix1 e) :=
  column_apply bcast_S3200000_S3200000x1_0 v e z

/-- The printed dimension numbers of the degree's scatter are the general ones for a vector and a column of row numbers. -/
theorem scatterVec_eq : scatter_S100000_S3200000x1_S3200000_n_0_0_1
    = addAtDims 100000 3200000 scatter_S100000_S3200000x1_S3200000_n_0_0_1_wf := rfl

/-- A scalar constant broadcast to any shape reads its word everywhere. -/
theorem splat_apply {t : Shape} (h : S_.BroadcastsInDim t ![]) (w : BitVec 32) (j : t.Idx) :
    broadcastInDim t ![] h (constant (F := Ideal) S_ .f32 w) j = Ideal.ofBits .f32 w := rfl

/-- The degree of node `k`: in-edges plus one. -/
theorem degreeArr_apply (d : IVec S3200000 32) (k : Fin 100000) :
    degreeArr d (ix1 k) = Cert.Gcn.degree (rows d) k := by
  unfold degreeArr Host.scatterAdd
  rw [addf_apply, Ideal.hostScatterAdd_def, scatterVec_eq, scatterAdd_addAt_apply, splat_apply, splat_apply,
    Ideal.ofBits_zero_f32, zero_add]
  unfold Cert.Gcn.degree Cert.Gcn.inCount
  refine congrArg (· + Ideal.ofBits .f32 0x3F800000#32) (Finset.sum_congr rfl fun e _ => ?_)
  rw [colE_apply, splat_apply]

/-- The stored reciprocal square root at node `k` is that of its degree. -/
theorem hostRsqrt_apply {s : Shape} (x : FVec Ideal s .f32) (i : s.Idx) : Host.rsqrt x i = Ideal.rsqrt (x i) := rfl

theorem dinvArr_apply (d : IVec S3200000 32) (k : Fin 100000) :
    dinvArr d (ix1 k) = Cert.Gcn.dinv (rows d) k := by
  unfold dinvArr
  rw [hostRsqrt_apply, degreeArr_apply]
  rfl

/-- The printed dimension numbers of the gathers are the general ones for row numbers held in a column. -/
theorem gatherVec_eq : gather_S100000_S3200000x1_S3200000_n_0_n_n_0_1_1
    = pickDims 100000 3200000 gather_S100000_S3200000x1_S3200000_n_0_n_n_0_1_1_wf := rfl
theorem gatherMat_eq : gather_S100000x64_S3200000x1_S3200000x64_1_0_n_n_0_1_164
    = rowsDims 100000 64 3200000 gather_S100000x64_S3200000x1_S3200000x64_1_0_n_n_0_1_164_wf := rfl
theorem scatterMat_eq : scatter_S100000x64_S3200000x1_S3200000x64_1_0_0_1
    = addRowsDims 100000 64 3200000 scatter_S100000x64_S3200000x1_S3200000x64_1_0_0_1_wf := rfl

/-- The reciprocal square root gathered for edge `e` at row numbers `v`: that of the row the gather reads. -/
theorem dinv_gather (d v : IVec S3200000 32) (e : Fin 3200000) :
    Host.gather gather_S100000_S3200000x1_S3200000_n_0_n_n_0_1_1 (dinvArr d) (colE (wrapE v)) (ix1 e)
      = Cert.Gcn.dinv (rows d) (Cert.Gcn.gatherRow (v (ix1 e))) := by
  rw [gatherVec_eq, gather_pick_apply (by decide)]
  simp only [colE_apply, wrapE_apply]
  exact dinvArr_apply d _

/-- The edge normalisation column at edge `e`. -/
theorem normCol_apply (s d : IVec S3200000 32) (e : Fin 3200000) (z : Fin 1) :
    normCol s d (ix2 e z) = Cert.Gcn.edgeWeight (rows s) (rows d) e := by
  unfold normCol Cert.Gcn.edgeWeight
  rw [column_apply, mulf_apply, dinv_gather, dinv_gather]

/-- The self-loop weight column at node `k`. -/
theorem selfCol_apply (d : IVec S3200000 32) (k : Fin 100000) (z : Fin 1) :
    selfCol d (ix2 k z) = Cert.Gcn.dinv (rows d) k * Cert.Gcn.dinv (rows d) k := by
  unfold selfCol
  rw [column_apply, mulf_apply, dinvArr_apply]

/-- One layer's aggregation at `(r, f)` is the specification's. -/
theorem agg_apply (h : FVec Ideal S100000x64 .bf16) (s d : IVec S3200000 32) (r : Fin 100000) (f : Fin 64) :
    agg h s d (normCol s d) (selfCol d) (ix2 r f) = Cert.Gcn.aggregateAt (rows s) (rows d) h r f := by
  unfold agg Host.scatterAdd
  rw [addf_apply, Ideal.hostScatterAdd_def, scatterMat_eq, scatterAdd_addRows_apply, splat_apply,
    Ideal.ofBits_zero_f32, zero_add, mulf_apply, spread_apply, selfCol_apply, extf_apply]
  unfold Cert.Gcn.aggregateAt
  refine congrArg₂ (· + ·) (Finset.sum_congr rfl fun e _ => ?_) rfl
  rw [colE_apply, mulf_apply, extf_apply, gatherMat_eq, gather_rows_apply (by decide), spread_apply, normCol_apply]
  simp only [colE_apply, wrapE_apply]
  rfl

end Cert.KernelIdeal.Stages

end
-- ==== Proof.KernValue.lean ====
/-
  The kernel's result function is the network's output function. The kernel's aggregation stage with the stored
  normalisation and self-loop weights is, entry by entry, the specification's aggregation; a bias vector reshaped to a
  one-row matrix reads the bias at the column, and the scalar bias reshaped to a one-by-one matrix reads its one
  entry; so the composition of stages the fold of buffer contents ends at is the network of the eleven arrays.
-/
import proofs.«143844_j84628035600885_2_alg».proof.Proof.KernFold
import proofs.«143844_j84628035600885_2_alg».proof.Proof.KernAggregate
import proofs.«143844_j84628035600885_2_alg».proof.Proof.Out

noncomputable section

namespace Cert.KernelIdeal.Final

open Cert.KernelIdeal Cert.KernelIdeal.Gen Idealize.ShloMosaic Idealize.ShloMosaic.TcCoe Idealize.ShloMosaic.ValueIdx

/-- One layer's aggregation with the stored normalisation and self-loop weights is the specification's aggregation
    of the same features over the same edges. -/
theorem agg_eq (h : FVec Ideal S100000x64 .bf16) (s d : IVec S3200000 32) :
    (Stages.agg h s d (Stages.normCol s d) (Stages.selfCol d) : Cert.Gcn.Mat 100000 64)
      = Cert.Gcn.aggregate (Stages.rows s) (Stages.rows d) h :=
  Cert.Gcn.aggregate_ext _ _ _ _ (Stages.agg_apply h s d)

/-- A bias vector reshaped to one row reads, at any index, the bias at the index's column. -/
theorem biasRow_eq (b : FVec Ideal S64 .f32) : Fold.biasRow b = Cert.Gcn.rowVec b := by
  funext j
  unfold Fold.biasRow Cert.Gcn.rowVec
  exact shapeCast_apply b shapeCasts_S64_S1x64 j (ix1 (Cert.Gcn.colOf j))
    (by rewrite [Shape.rowMajor_val_one, Shape.rowMajor_val_two]
        have h0 : (j 0).val < 1 := idx2_lt0 j
        show (j 1).val = (j 0).val * 64 + (j 1).val
        omega)

/-- The scalar bias reshaped to one entry reads that entry. -/
theorem biasCell_eq (b : FVec Ideal S1 .f32) : Fold.biasCell b = Cert.Gcn.cell b := by
  funext j
  unfold Fold.biasCell Cert.Gcn.cell
  exact shapeCast_apply b shapeCasts_S1_S1x1 j (ix1 (0 : Fin 1))
    (by rewrite [Shape.rowMajor_val_one, Shape.rowMajor_val_two]
        have h0 : (j 0).val < 1 := idx2_lt0 j
        have h1 : (j 1).val < 1 := idx2_lt1 j
        show 0 = (j 0).val * 1 + (j 1).val
        omega)

/-- The composition of stages the kernel's fold ends at is the network's output function of the eleven arrays. -/
theorem out_eq (x0 : FVec Ideal S100000x128 .f32) (x1 : IVec S2x3200000 32) (x2 : IVec S100000 32) (x3 : FVec Ideal S128x64 .f32)
    (x4 : FVec Ideal S64 .f32) (x5 : FVec Ideal S64x64 .f32) (x6 : FVec Ideal S64 .f32) (x7 : FVec Ideal S64x64 .f32)
    (x8 : FVec Ideal S64 .f32) (x9 : FVec Ideal S64x1 .f32) (x10 : FVec Ideal S1 .f32) :
    Fold.out x0 x1 x2 x3 x4 x5 x6 x7 x8 x9 x10 = Cert.Gcn.outFn x0 x1 x2 x3 x4 x5 x6 x7 x8 x9 x10 := by
  unfold Fold.out Fold.a3 Fold.h3 Fold.a2 Fold.h2 Fold.a1 Fold.h1 Fold.nc Fold.sc Fold.src Fold.dst
  rw [agg_eq, agg_eq, agg_eq, biasRow_eq, biasRow_eq, biasRow_eq, biasCell_eq]
  rfl

/-- The result buffer at the last boundary of the kernel's fold of buffer contents is the network's output function
    of the launch arrays. -/
theorem hK (m : (ℓ : Loc nD τ sig) → Buf (Elt Ideal) ℓ) (ρ : Dev nD → PrngReg) (c : Dev nD) :
    W10 m ρ c (Proc.devRef .tc main_v100) = Cert.Gcn.outFn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (Fold.result_eq m ρ c).trans (out_eq _ _ _ _ _ _ _ _ _ _ _)

end Cert.KernelIdeal.Final

end
-- ==== Proof.RefDense.lean ====
/-
  The dense stages of the reference program, read as the whole-array functions of the dense specification:
  each matrix product is the sum over the contracted feature axis, each bias-and-clip stage adds the bias row
  to every row and takes the maximum with zero, and the head is the pooled matrix times the one-column weight
  plus the scalar bias. The aggregation stages between them enter only as arrays.
-/
import proofs.«143844_j84628035600885_2_alg».proof.Proof.RefRead
import proofs.«143844_j84628035600885_2_alg».proof.Proof.Dense

noncomputable section

open scoped BigOperators

namespace Cert.ReferenceIdeal.DenseStages

open Cert.ReferenceIdeal Cert.ReferenceIdeal.Read Idealize.ShloMosaic Idealize.ShloMosaic.ValueIdx Cert.Gcn

/-- The left operand's index of the first product is row `i`, column `k`. -/
theorem lidx_v4_eq (i : S100000x64.Idx) (k : Fin 128) : lidx_main_v4 i k = ix2 (rowOf i) k :=
  funext fun a => Fin.ext (by match a with | ⟨0, _⟩ => rfl | ⟨1, _⟩ => rfl)

/-- The right operand's index of the first product is row `k`, column of `i`. -/
theorem ridx_v4_eq (i : S100000x64.Idx) (k : Fin 128) : ridx_main_v4 i k = ix2 k (colOf i) :=
  funext fun a => Fin.ext (by match a with | ⟨0, _⟩ => rfl | ⟨1, _⟩ => rfl)

/-- The first layer's matrix product is the dense transform over the 128 input features. -/
theorem v4_eq (x0 : (⟨S100000x128, .f32⟩ : BufTy).Contents (Elt Ideal)) (x3 : (⟨S128x64, .f32⟩ : BufTy).Contents (Elt Ideal)) :
    val_main_v4 (F := Ideal) x0 x3 = lin128 x0 x3 := by
  funext i
  rw [val_main_v4_apply]
  simp only [lidx_v4_eq, ridx_v4_eq]
  rfl

/-- The bias read through its two broadcasts at `i` is the bias at the column of `i`. -/
theorem idx_v44_v45_eq (i : S100000x64.Idx) : idx_main_v44 (idx_main_v45 i) = ix1 (colOf i) :=
  funext fun a => Fin.ext (by match a with | ⟨0, _⟩ => rfl)

/-- The first layer's bias-and-clip stage: the bias row added to every row of the aggregated array, then the maximum with zero. -/
theorem v47_eq (x0 : (⟨S100000x128, .f32⟩ : BufTy).Contents (Elt Ideal)) (x1 : (⟨S2x3200000, .i32⟩ : BufTy).Contents (Elt Ideal)) (x3 : (⟨S128x64, .f32⟩ : BufTy).Contents (Elt Ideal)) (x4 : (⟨S64, .f32⟩ : BufTy).Contents (Elt Ideal)) :
    val_main_v47 (F := Ideal) x0 x1 x3 x4 = biasRelu (val_main_v43 (F := Ideal) x0 x1 x3) (rowVec x4) := by
  funext i
  rw [val_main_v47_apply, val_main_v46_apply, val_main_v45_apply, val_main_v44_apply, val_main_call1_v0_apply,
    val_main_call1_cst_apply]
  generalize val_main_v43 (F := Ideal) x0 x1 x3 = a
  simp only [idx_v44_v45_eq, Ideal.maximumf_def, Ideal.addf_def, Ideal.ofBits_def, Ideal.ofBits_zero_f32]
  rfl

/-- The left operand's index of the second layer's matrix product is row `i`, column `k`. -/
theorem lidx_v48_eq (i : S100000x64.Idx) (k : Fin 64) : lidx_main_v48 i k = ix2 (rowOf i) k :=
  funext fun a => Fin.ext (by match a with | ⟨0, _⟩ => rfl | ⟨1, _⟩ => rfl)

/-- The right operand's index of the second layer's matrix product is row `k`, column of `i`. -/
theorem ridx_v48_eq (i : S100000x64.Idx) (k : Fin 64) : ridx_main_v48 i k = ix2 k (colOf i) :=
  funext fun a => Fin.ext (by match a with | ⟨0, _⟩ => rfl | ⟨1, _⟩ => rfl)

/-- The second layer's matrix product is the dense transform over the 64 hidden features of the previous layer's output. -/
theorem v48_eq (x0 : (⟨S100000x128, .f32⟩ : BufTy).Contents (Elt Ideal)) (x1 : (⟨S2x3200000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) :
    val_main_v48 (F := Ideal) x0 x1 x3 x4 x5 = lin64 (val_main_v47 (F := Ideal) x0 x1 x3 x4) x5 := by
  funext i
  rw [val_main_v48_apply]
  generalize val_main_v47 (F := Ideal) x0 x1 x3 x4 = h
  simp only [lidx_v48_eq, ridx_v48_eq]
  rfl

/-- The bias read through its two broadcasts at `i` is the bias at the column of `i`. -/
theorem idx_v88_v89_eq (i : S100000x64.Idx) : idx_main_v88 (idx_main_v89 i) = ix1 (colOf i) :=
  funext fun a => Fin.ext (by match a with | ⟨0, _⟩ => rfl)

/-- The second layer's bias-and-clip stage: the bias row added to every row of the aggregated array, then the maximum with zero. -/
theorem v91_eq (x0 : (⟨S100000x128, .f32⟩ : BufTy).Contents (Elt Ideal)) (x1 : (⟨S2x3200000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) :
    val_main_v91 (F := Ideal) x0 x1 x3 x4 x5 x6 = biasRelu (val_main_v87 (F := Ideal) x0 x1 x3 x4 x5) (rowVec x6) := by
  funext i
  rw [val_main_v91_apply, val_main_v90_apply, val_main_v89_apply, val_main_v88_apply, val_main_call3_v0_apply,
    val_main_call3_cst_apply]
  generalize val_main_v87 (F := Ideal) x0 x1 x3 x4 x5 = a
  simp only [idx_v88_v89_eq, Ideal.maximumf_def, Ideal.addf_def, Ideal.ofBits_def, Ideal.ofBits_zero_f32]
  rfl

/-- The left operand's index of the third layer's matrix product is row `i`, column `k`. -/
theorem lidx_v92_eq (i : S100000x64.Idx) (k : Fin 64) : lidx_main_v92 i k = ix2 (rowOf i) k :=
  funext fun a => Fin.ext (by match a with | ⟨0, _⟩ => rfl | ⟨1, _⟩ => rfl)

/-- The right operand's index of the third layer's matrix product is row `k`, column of `i`. -/
theorem ridx_v92_eq (i : S100000x64.Idx) (k : Fin 64) : ridx_main_v92 i k = ix2 k (colOf i) :=
  funext fun a => Fin.ext (by match a with | ⟨0, _⟩ => rfl | ⟨1, _⟩ => rfl)

/-- The third layer's matrix product is the dense transform over the 64 hidden features of the previous layer's output. -/
theorem v92_eq (x0 : (⟨S100000x128, .f32⟩ : BufTy).Contents (Elt Ideal)) (x1 : (⟨S2x3200000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) :
    val_main_v92 (F := Ideal) x0 x1 x3 x4 x5 x6 x7 = lin64 (val_main_v91 (F := Ideal) x0 x1 x3 x4 x5 x6) x7 := by
  funext i
  rw [val_main_v92_apply]
  generalize val_main_v91 (F := Ideal) x0 x1 x3 x4 x5 x6 = h
  simp only [lidx_v92_eq, ridx_v92_eq]
  rfl

/-- The bias read through its two broadcasts at `i` is the bias at the column of `i`. -/
theorem idx_v132_v133_eq (i : S100000x64.Idx) : idx_main_v132 (idx_main_v133 i) = ix1 (colOf i) :=
  funext fun a => Fin.ext (by match a with | ⟨0, _⟩ => rfl)

/-- The third layer's bias-and-clip stage: the bias row added to every row of the aggregated array, then the maximum with zero. -/
theorem v135_eq (x0 : (⟨S100000x128, .f32⟩ : BufTy).Contents (Elt Ideal)) (x1 : (⟨S2x3200000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) :
    val_main_v135 (F := Ideal) x0 x1 x3 x4 x5 x6 x7 x8 = biasRelu (val_main_v131 (F := Ideal) x0 x1 x3 x4 x5 x6 x7) (rowVec x8) := by
  funext i
  rw [val_main_v135_apply, val_main_v134_apply, val_main_v133_apply, val_main_v132_apply, val_main_call5_v0_apply,
    val_main_call5_cst_apply]
  generalize val_main_v131 (F := Ideal) x0 x1 x3 x4 x5 x6 x7 = a
  simp only [idx_v132_v133_eq, Ideal.maximumf_def, Ideal.addf_def, Ideal.ofBits_def, Ideal.ofBits_zero_f32]
  rfl

/-- The left operand's index of the head's product is row `i`, column `k`. -/
theorem lidx_v148_eq (i : S64x1.Idx) (k : Fin 64) : lidx_main_v148 i k = ix2 (rowOf i) k :=
  funext fun a => Fin.ext (by match a with | ⟨0, _⟩ => rfl | ⟨1, _⟩ => rfl)

/-- The right operand's index of the head's product is row `k`, column of `i`. -/
theorem ridx_v148_eq (i : S64x1.Idx) (k : Fin 64) : ridx_main_v148 i k = ix2 k (colOf i) :=
  funext fun a => Fin.ext (by match a with | ⟨0, _⟩ => rfl | ⟨1, _⟩ => rfl)

/-- The scalar bias read through its two broadcasts is its one entry. -/
theorem idx_v149_v150_eq (i : S64x1.Idx) : idx_main_v149 (idx_main_v150 i) = ix1 (0 : Fin 1) :=
  funext fun a => Fin.ext (by match a with | ⟨0, _⟩ => rfl)

/-- The head: the pooled matrix times the one-column weight, plus the scalar bias in every entry. -/
theorem v151_eq (x0 : (⟨S100000x128, .f32⟩ : BufTy).Contents (Elt Ideal)) (x1 : (⟨S2x3200000, .i32⟩ : BufTy).Contents (Elt Ideal)) (x2 : (⟨S100000, .i32⟩ : BufTy).Contents (Elt Ideal)) (x3 : (⟨S128x64, .f32⟩ : BufTy).Contents (Elt Ideal)) (x4 : (⟨S64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x1, .f32⟩ : BufTy).Contents (Elt Ideal)) (x10 : (⟨S1, .f32⟩ : BufTy).Contents (Elt Ideal)) :
    val_main_v151 (F := Ideal) x0 x1 x2 x3 x4 x5 x6 x7 x8 x9 x10 =
      head (val_main_v147 (F := Ideal) x0 x1 x2 x3 x4 x5 x6 x7 x8) x9 (cell x10) := by
  funext i
  rw [val_main_v151_apply, val_main_v148_apply, val_main_v150_apply, val_main_v149_apply]
  generalize val_main_v147 (F := Ideal) x0 x1 x2 x3 x4 x5 x6 x7 x8 = p
  simp only [lidx_v148_eq, ridx_v148_eq, idx_v149_v150_eq, Ideal.addf_def]
  rfl

end Cert.ReferenceIdeal.DenseStages

end
-- ==== Proof.RefStages.lean ====
/-
  The reference's aggregation, stage by stage, as functions of the arrays each stage reads — the same operations the
  reference applies in each of its three layers, so each layer's stages are these functions of that layer's inputs —
  and each stage read at an index: with the self-loops appended to the edge lists, the degree is the in-edge count plus
  one, its reciprocal square root is never the guarded zero (the degree is positive), and the scatter over edges and
  loops is the sum over the edges plus the one loop that lands on the node.
-/
import proofs.«143844_j84628035600885_2_alg».proof.Proof.RefRead
import proofs.«143844_j84628035600885_2_alg».proof.Proof.LibRowIndexing
import proofs.«143844_j84628035600885_2_alg».proof.Proof.LibColumns
import proofs.«143844_j84628035600885_2_alg».proof.Proof.Aggregate
import proofs.«143844_j84628035600885_2_alg».proof.Proof.AggregateAt

noncomputable section

open scoped BigOperators

namespace Cert.ReferenceIdeal.Stages

open Cert.ReferenceIdeal Cert.ReferenceIdeal.Gen Cert.ReferenceIdeal.Read
open Idealize.ShloMosaic Idealize.ShloMosaic.TcCoe Idealize.ShloMosaic.ValueIdx Idealize.ShloMosaic.RowIndexing

/-- An edge list of 3200000 row numbers with the 100000 self-loops `0, 1, …` appended. -/
def withLoops (v : IVec S3200000 32) : IVec S3300000 32 :=
  concatenate S3300000 0 [⟨S3200000, v⟩, ⟨S100000, iotaInDim S100000 32 0⟩] concatenates_S3200000_S100000_S3300000_d0

/-- Negative row numbers wrapped by the row count, position by position. -/
def wrapAll (v : IVec S3300000 32) : IVec S3300000 32 :=
  select (cmpi .slt v (broadcastInDim S3300000 ![] bcast_S_S3300000 (constantI S_ 32 0#32)))
    (addi v (broadcastInDim S3300000 ![] bcast_S_S3300000 (constantI S_ 32 100000#32))) v

/-- A list of row numbers as a one-column matrix. -/
def col (v : IVec S3300000 32) : IVec S3300000x1 32 := broadcastInDim S3300000x1 ![0] bcast_S3300000_S3300000x1_0 v

/-- The degree: ones scattered onto the target nodes. -/
def degreeArr (d : IVec S3300000 32) : FVec Ideal S100000 .f32 :=
  Host.scatterAdd scatter_S100000_S3300000x1_S3300000_n_0_0_1
    (broadcastInDim S100000 ![] bcast_S_S100000 (constant S_ .f32 0x00000000#32)) (col d)
    (broadcastInDim S3300000 ![] bcast_S_S3300000 (constant S_ .f32 0x3F800000#32))

/-- The reciprocal square root of the degree where it is positive, zero elsewhere. -/
def dinvArr (d : IVec S3300000 32) : FVec Ideal S100000 .f32 :=
  select (cmpf .ogt (degreeArr d) (broadcastInDim S100000 ![] bcast_S_S100000 (constant S_ .f32 0x00000000#32)))
    (Host.rsqrt (degreeArr d)) (broadcastInDim S100000 ![] bcast_S_S100000 (id (constant S_ .f32 0x00000000#32)))

/-- The symmetric normalisation of every edge and loop. -/
def normArr (s d : IVec S3300000 32) : FVec Ideal S3300000 .f32 :=
  mulf (Host.gather gather_S100000_S3300000x1_S3300000_n_0_n_n_0_1_1 (dinvArr d) (col (wrapAll s)))
    (Host.gather gather_S100000_S3300000x1_S3300000_n_0_n_n_0_1_1 (dinvArr d) (col (wrapAll d)))

/-- One layer's aggregation: gathered source rows, scaled, scattered onto the target nodes. -/
def conv (h : FVec Ideal S100000x64 .f32) (s d : IVec S3300000 32) : FVec Ideal S100000x64 .f32 :=
  Host.scatterAdd scatter_S100000x64_S3300000x1_S3300000x64_1_0_0_1
    (broadcastInDim S100000x64 ![] bcast_S_S100000x64 (constant S_ .f32 0x00000000#32)) (col d)
    (mulf (Host.gather gather_S100000x64_S3300000x1_S3300000x64_1_0_n_n_0_1_164 h (col (wrapAll s)))
      (broadcastInDim S3300000x64 ![0, 1] bcast_S3300000x1_S3300000x64_0_1
        (broadcastInDim S3300000x1 ![0] bcast_S3300000_S3300000x1_0 (normArr s d))))

/-! ## The three layers' stages are these functions -/

section Layers
variable (x0 : (⟨S100000x128, .f32⟩ : BufTy).Contents (Elt Ideal)) (x1 : (⟨S2x3200000, .i32⟩ : BufTy).Contents (Elt Ideal))
  (x3 : (⟨S128x64, .f32⟩ : BufTy).Contents (Elt Ideal)) (x4 : (⟨S64, .f32⟩ : BufTy).Contents (Elt Ideal))
  (x5 : (⟨S64x64, .f32⟩ : BufTy).Contents (Elt Ideal)) (x6 : (⟨S64, .f32⟩ : BufTy).Contents (Elt Ideal))
  (x7 : (⟨S64x64, .f32⟩ : BufTy).Contents (Elt Ideal))

theorem layer1 : val_main_v43 (F := Ideal) x0 x1 x3
    = conv (val_main_v4 (F := Ideal) x0 x3) (withLoops (val_main_v1 (F := Ideal) x1)) (withLoops (val_main_v3 (F := Ideal) x1)) := rfl

theorem layer2 : val_main_v87 (F := Ideal) x0 x1 x3 x4 x5
    = conv (val_main_v48 (F := Ideal) x0 x1 x3 x4 x5) (withLoops (val_main_v1 (F := Ideal) x1)) (withLoops (val_main_v3 (F := Ideal) x1)) := rfl

theorem layer3 : val_main_v131 (F := Ideal) x0 x1 x3 x4 x5 x6 x7
    = conv (val_main_v92 (F := Ideal) x0 x1 x3 x4 x5 x6 x7) (withLoops (val_main_v1 (F := Ideal) x1)) (withLoops (val_main_v3 (F := Ideal) x1)) := rfl

end Layers

/-! ## The stages at an index -/

/-- A vector of row numbers as the function of the edge number the specification takes. -/
abbrev rows (v : IVec S3200000 32) : Fin 3200000 → BitVec 32 := fun e => v (ix1 e)

/-- Position `e` below 3200000 of the appended list is edge `e`'s row number. -/
theorem withLoops_edge (v : IVec S3200000 32) (e : Fin 3200000) (he : e.val < 3300000) :
    withLoops v (ix1 (⟨e.val, he⟩ : Fin 3300000)) = v (ix1 e) :=
  concatenate_pair_apply_left 0 v (iotaInDim S100000 32 0) concatenates_S3200000_S100000_S3300000_d0 _ rfl (ix1 e)
    (fun b => by obtain rfl : b = 0 := Subsingleton.elim _ _; rfl)

/-- Position `3200000 + u` of the appended list is the self-loop's row number `u`. -/
theorem withLoops_loop (v : IVec S3200000 32) (u : Fin 100000) (hu : 3200000 + u.val < 3300000) :
    withLoops v (ix1 (⟨3200000 + u.val, hu⟩ : Fin 3300000)) = BitVec.ofNat 32 u.val :=
  (concatenate_pair_apply_right 0 v (iotaInDim S100000 32 0) concatenates_S3200000_S100000_S3300000_d0 _ rfl rfl (ix1 u)
    (fun b hb => absurd (Subsingleton.elim _ _) hb) (by show u.val + 3200000 = 3200000 + u.val; omega)).trans rfl

theorem wrapAll_apply (v : IVec S3300000 32) (p : Fin 3300000) : wrapAll v (ix1 p) = Cert.Gcn.wrapRow (v (ix1 p)) := rfl

theorem col_apply (v : IVec S3300000 32) (p : Fin 3300000) (z : Fin 1) : col v (ix2 p z) = v (ix1 p) :=
  column_apply bcast_S3300000_S3300000x1_0 v p z

theorem scatterVec_eq : scatter_S100000_S3300000x1_S3300000_n_0_0_1
    = addAtDims 100000 3300000 scatter_S100000_S3300000x1_S3300000_n_0_0_1_wf := rfl
theorem scatterMat_eq : scatter_S100000x64_S3300000x1_S3300000x64_1_0_0_1
    = addRowsDims 100000 64 3300000 scatter_S100000x64_S3300000x1_S3300000x64_1_0_0_1_wf := rfl
theorem gatherVec_eq : gather_S100000_S3300000x1_S3300000_n_0_n_n_0_1_1
    = pickDims 100000 3300000 gather_S100000_S3300000x1_S3300000_n_0_n_n_0_1_1_wf := rfl
theorem gatherMat_eq : gather_S100000x64_S3300000x1_S3300000x64_1_0_n_n_0_1_164
    = rowsDims 100000 64 3300000 gather_S100000x64_S3300000x1_S3300000x64_1_0_n_n_0_1_164_wf := rfl

/-- A scalar constant broadcast to any shape reads its word everywhere. -/
theorem splat_apply {t : Shape} (h : S_.BroadcastsInDim t ![]) (w : BitVec 32) (j : t.Idx) :
    broadcastInDim t ![] h (constant (F := Ideal) S_ .f32 w) j = Ideal.ofBits .f32 w := rfl

/-- Among `n` self-loops exactly loop `k` lands on node `k`. -/
theorem sum_loops {M : Type*} [AddCommMonoid M] {n : Nat} (k : Fin n) (T : Fin n → M) :
    (∑ u : Fin n, if ((u.val : ℕ) : Int) = ((k.val : ℕ) : Int) then T u else 0) = T k := by
  have hc : ∀ u : Fin n, (if ((u.val : ℕ) : Int) = ((k.val : ℕ) : Int) then T u else 0) = if u = k then T u else 0 :=
    fun u => if_congr (by rw [Int.natCast_inj]; exact Fin.val_inj) rfl rfl
  rw [Finset.sum_congr rfl (fun u _ => hc u), Finset.sum_ite_eq' Finset.univ k]
  simp only [Finset.mem_univ, if_true]

/-- At the extended reals the host's accumulating scatter is the sum it is defined as. -/
theorem hostScatterAdd_eq {s si u : Shape} {w : Nat} (d : ScatterDims s si u) (x : FVec Ideal s .f32) (idx : IVec si w)
    (upd : FVec Ideal u .f32) : Host.scatterAdd d x idx upd = Ideal.hostScatterAdd d x idx upd := rfl

/-- The degree of node `k` over edges and loops: in-edges plus the one loop. -/
theorem degreeArr_apply (dv : IVec S3200000 32) (k : Fin 100000) :
    degreeArr (withLoops dv) (ix1 k) = Cert.Gcn.degree (rows dv) k := by
  unfold degreeArr
  rw [hostScatterAdd_eq, scatterVec_eq, scatterAdd_addAt_apply, splat_apply, Ideal.ofBits_zero_f32, zero_add,
    Cert.Gcn.sum_edges_then_loops]
  unfold Cert.Gcn.degree Cert.Gcn.inCount
  refine congrArg₂ (· + ·) (Finset.sum_congr rfl fun e _ => ?_) ?_
  · rw [col_apply, withLoops_edge, splat_apply]
  · refine (Finset.sum_congr rfl fun u _ => ?_).trans (sum_loops k (fun _ => Ideal.ofBits .f32 0x3F800000#32))
    rw [col_apply, withLoops_loop, Cert.Gcn.loop_toInt, splat_apply]

theorem hostRsqrt_apply {s : Shape} (x : FVec Ideal s .f32) (i : s.Idx) : Host.rsqrt x i = Ideal.rsqrt (x i) := rfl

/-- The guarded reciprocal square root at node `k` is the reciprocal square root of the degree: the degree is positive. -/
theorem dinvArr_apply (dv : IVec S3200000 32) (k : Fin 100000) :
    dinvArr (withLoops dv) (ix1 k) = Cert.Gcn.dinv (rows dv) k := by
  unfold dinvArr
  rw [select_apply, cmpf_apply, hostRsqrt_apply, degreeArr_apply, splat_apply]
  have hpos := Cert.Gcn.degree_pos (rows dv) k
  have hc : FloatOps.cmpf (F := Ideal) (φ := .f32) .ogt (Cert.Gcn.degree (rows dv) k) (Ideal.ofBits .f32 0x00000000#32) = 1#1 := by
    rw [Ideal.cmpf_def, Ideal.ofBits_zero_f32]
    simp [Ideal.cmp, hpos]
  rw [hc, select_one]
  rfl

/-- The row a gather reads, from its clamped form. -/
theorem gatherRow_mk (v : BitVec 32) (hlt : min (Cert.Gcn.wrapRow v).toInt.toNat (100000 - 1) < 100000) :
    (⟨min (Cert.Gcn.wrapRow v).toInt.toNat (100000 - 1), hlt⟩ : Fin 100000) = Cert.Gcn.gatherRow v := rfl

/-- The reciprocal square root gathered at position `p` of a list `w` of row numbers. -/
theorem dinv_gather (dv : IVec S3200000 32) (w : IVec S3300000 32) (p : Fin 3300000) :
    Host.gather gather_S100000_S3300000x1_S3300000_n_0_n_n_0_1_1 (dinvArr (withLoops dv)) (col (wrapAll w)) (ix1 p)
      = Cert.Gcn.dinv (rows dv) (Cert.Gcn.gatherRow (w (ix1 p))) := by
  rw [gatherVec_eq, gather_pick_apply (by decide)]
  simp only [col_apply, wrapAll_apply, gatherRow_mk]
  exact dinvArr_apply dv _

/-- The normalisation at position `p` of the edges-then-loops lists. -/
theorem normArr_apply (w dv : IVec S3200000 32) (p : Fin 3300000) :
    normArr (withLoops w) (withLoops dv) (ix1 p)
      = Cert.Gcn.dinv (rows dv) (Cert.Gcn.gatherRow (withLoops w (ix1 p)))
        * Cert.Gcn.dinv (rows dv) (Cert.Gcn.gatherRow (withLoops dv (ix1 p))) := by
  unfold normArr
  rw [mulf_apply, dinv_gather, dinv_gather]

/-- One layer's aggregation over edges and loops at `(r, f)` is the specification's: the edges, then the one loop that
    lands on `r`, whose source row is `r` itself. -/
theorem conv_apply (h : FVec Ideal S100000x64 .f32) (sv dv : IVec S3200000 32) (r : Fin 100000) (f : Fin 64) :
    conv h (withLoops sv) (withLoops dv) (ix2 r f) = Cert.Gcn.aggregateAt (rows sv) (rows dv) h r f := by
  unfold conv
  rw [hostScatterAdd_eq, scatterMat_eq, scatterAdd_addRows_apply, splat_apply, Ideal.ofBits_zero_f32, zero_add,
    Cert.Gcn.sum_edges_then_loops]
  unfold Cert.Gcn.aggregateAt Cert.Gcn.edgeWeight
  refine congrArg₂ (· + ·) (Finset.sum_congr rfl fun e _ => ?_) ?_
  · rw [col_apply, mulf_apply, gatherMat_eq, gather_rows_apply (by decide), spread_apply, column_apply, normArr_apply]
    simp only [col_apply, wrapAll_apply, withLoops_edge, gatherRow_mk]
  · refine ((Finset.sum_congr rfl fun u _ => ?_).trans (sum_loops r (fun u : Fin 100000 =>
      h (ix2 u f) * (Cert.Gcn.dinv (rows dv) u * Cert.Gcn.dinv (rows dv) u)))).trans (mul_comm _ _)
    rw [col_apply, mulf_apply, gatherMat_eq, gather_rows_apply (by decide), spread_apply, column_apply, normArr_apply]
    simp only [col_apply, wrapAll_apply, withLoops_loop, gatherRow_mk, Cert.Gcn.loop_toInt, Cert.Gcn.loop_gatherRow]

end Cert.ReferenceIdeal.Stages

end
-- ==== Proof.RefValue.lean ====
/-
  The reference's result is the network's output of its arguments: its dense stages are the specification's dense stages,
  each of its three aggregations (over the edge list with the self-loops appended) is the specification's aggregation of
  that layer's features, its mean pool and its slicing of the edge list are the same operations the network is stated
  with, and the stages compose in the network's order.
-/
import proofs.«143844_j84628035600885_2_alg».proof.Proof.RefDense
import proofs.«143844_j84628035600885_2_alg».proof.Proof.RefStages
import proofs.«143844_j84628035600885_2_alg».proof.Proof.Out

noncomputable section

namespace Cert.ReferenceIdeal.Final

open Cert.ReferenceIdeal Cert.ReferenceIdeal.Gen Cert.ReferenceIdeal.Read Cert.ReferenceIdeal.Stages Cert.ReferenceIdeal.DenseStages
open Idealize.ShloMosaic Idealize.ShloMosaic.TcCoe Idealize.ShloMosaic.ValueIdx Idealize.SL.Sem

/-- A layer's aggregation over edges and self-loops is the specification's aggregation, as matrices. -/
theorem conv_eq (h : FVec Ideal S100000x64 .f32) (sv dv : IVec S3200000 32) :
    conv h (withLoops sv) (withLoops dv) = Cert.Gcn.aggregate (rows sv) (rows dv) h :=
  Cert.Gcn.aggregate_ext (rows sv) (rows dv) h _ (conv_apply h sv dv)

section
variable (x0 : (⟨S100000x128, .f32⟩ : BufTy).Contents (Elt Ideal)) (x1 : (⟨S2x3200000, .i32⟩ : BufTy).Contents (Elt Ideal))
  (x2 : (⟨S100000, .i32⟩ : BufTy).Contents (Elt Ideal)) (x3 : (⟨S128x64, .f32⟩ : BufTy).Contents (Elt Ideal))
  (x4 : (⟨S64, .f32⟩ : BufTy).Contents (Elt Ideal)) (x5 : (⟨S64x64, .f32⟩ : BufTy).Contents (Elt Ideal))
  (x6 : (⟨S64, .f32⟩ : BufTy).Contents (Elt Ideal)) (x7 : (⟨S64x64, .f32⟩ : BufTy).Contents (Elt Ideal))
  (x8 : (⟨S64, .f32⟩ : BufTy).Contents (Elt Ideal)) (x9 : (⟨S64x1, .f32⟩ : BufTy).Contents (Elt Ideal))
  (x10 : (⟨S1, .f32⟩ : BufTy).Contents (Elt Ideal))

/-- The reference's mean pool is the pooling the network is stated with. -/
theorem pool_eq : val_main_v147 (F := Ideal) x0 x1 x2 x3 x4 x5 x6 x7 x8
    = Cert.KernelIdeal.Stages.pool (val_main_v135 (F := Ideal) x0 x1 x3 x4 x5 x6 x7 x8) x2 := rfl

/-- The reference's source and target row numbers are the edge list's two rows. -/
theorem src_eq : val_main_v1 (F := Ideal) x1 = Cert.KernelIdeal.Stages.edgeRow0 x1 := rfl
theorem dst_eq : val_main_v3 (F := Ideal) x1 = Cert.KernelIdeal.Stages.edgeRow1 x1 := rfl

/-- The reference's last stage is the network's output. -/
theorem value : val_main_v151 (F := Ideal) x0 x1 x2 x3 x4 x5 x6 x7 x8 x9 x10 = Cert.Gcn.outFn x0 x1 x2 x3 x4 x5 x6 x7 x8 x9 x10 := by
  rw [v151_eq, pool_eq, v135_eq, layer3, conv_eq, v92_eq, v91_eq, layer2, conv_eq, v48_eq, v47_eq, layer1, conv_eq, v4_eq,
    src_eq, dst_eq]
  rfl

end

/-- The reference run's result is the network's output of the launch contents of its arguments. -/
theorem result_eq (m : (ℓ : Loc nD τ sig) → Buf (Elt Ideal) ℓ) (c : Dev nD) :
    Cert.ReferenceIdeal.Value.res_main_v151 (F := Ideal) m c
      = Cert.Gcn.outFn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (val_main_v151_eq m c).trans (value _ _ _ _ _ _ _ _ _ _ _)

end Cert.ReferenceIdeal.Final

end
-- ==== Proof.lean ====
/-
  A three-layer graph convolution network with a mean pool and a linear head, as a tiled kernel program with five
  dense regions among host operations, against its plain reference; both idealized to the extended reals.

  Each layer transforms the node features by a weight matrix, aggregates every node's in-neighbours and itself with
  the symmetric normalisation by the reciprocal square roots of the degrees, adds a bias and clips at zero. The kernel
  computes the degrees and the normalisation once, aggregates over the edge list alone and adds each node's own
  self-loop term densely; the reference appends one self-loop per node to the edge list in every layer and aggregates
  over the longer list. The two agree because a sum over the edges followed by the loops is the sum over the edges plus
  the one loop that lands on the node, whose source is the node itself, and because every degree counts that loop and so
  is positive, which makes the reference's guard against a zero degree vacuous. Sums and products of extended reals
  are commutative and associative, which is all the regrouping needs: the inputs' finiteness is not used. The changes
  of float format in the kernel are the identity on extended reals, its matrix products into a zero accumulator are
  the reference's products, and the pooling and the head are the same operations in both programs.

  The dense stages are stated in Proof/Dense.lean, the aggregation in Proof/Aggregate.lean, the whole network in
  Proof/Network.lean and Proof/Out.lean. The kernel's five regions each leave the dense stage of the arrays they find
  (Proof/Region0.lean to Region4.lean), its host stretches are read in Proof/KernStages.lean and
  Proof/KernAggregate.lean and chained through the program's boundaries in Proof/KernFold.lean and Proof/KernValue.lean
  on the run of Proof/KernRun.lean; the reference's stages are read in Proof/RefDense.lean, Proof/RefStages.lean and
  Proof/RefValue.lean over its run (Proof/RefRun.lean, Proof/RefRead.lean). Proof/Claims.lean assembles the five claims.
-/
import proofs.«143844_j84628035600885_2_alg».proof.Proof.Claims
import proofs.«143844_j84628035600885_2_alg».proof.Proof.Out
import proofs.«143844_j84628035600885_2_alg».proof.Proof.KernValue
import proofs.«143844_j84628035600885_2_alg».proof.Proof.RefValue

noncomputable section

namespace Cert.Proof

open Idealize.ShloMosaic Idealize.SL.Sem Cert.Kernel Cert.Proof.GcnClaims

theorem claim : Cert.Claim :=
  ⟨Cert.Kernel.Gen.facts, Cert.KernelIdeal.Gen.facts, Cert.ReferenceIdeal.Gen.facts, Cert.Pre_finite_inputs.Gen.facts,
    frame_k, frame_ki, frame_ri, preserves,
    algebraic_of Cert.Gcn.outFn Cert.KernelIdeal.Final.hK Cert.ReferenceIdeal.Final.result_eq⟩

end Cert.Proof

end
